-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2613 : Shape := ⟨2, ![50000, 2613]⟩
abbrev S2x800000 : Shape := ⟨2, ![2, 800000]⟩
abbrev S256x2613 : Shape := ⟨2, ![256, 2613]⟩
abbrev S256 : Shape := ⟨1, ![256]⟩
abbrev S256x256 : Shape := ⟨2, ![256, 256]⟩
abbrev S_ : Shape := ⟨0, ![]⟩
abbrev S1x800000 : Shape := ⟨2, ![1, 800000]⟩
abbrev S800000 : Shape := ⟨1, ![800000]⟩

class Facts : Prop where
  bcast_S_S50000x2613 : S_.BroadcastsInDim S50000x2613 (![] : Fin 0 → Fin S50000x2613.rank)
  reducesTo_S50000x2613_S_d0_1 : S50000x2613.ReducesTo [0, 1] S_
  h_S_ : 0 < S_.numel
  bcast_S_S256x2613 : S_.BroadcastsInDim S256x2613 (![] : Fin 0 → Fin S256x2613.rank)
  reducesTo_S256x2613_S_d0_1 : S256x2613.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : IVec S1x800000 32 := (extractStridedSlice S1x800000 ![1, 0] · slices_S2x800000_S1x800000_1_0) main_arg1
  let main_v55 : IVec S800000 32 := shapeCast S800000 main_v54 shapeCasts_S1x800000_S800000
  let main_c_20 : IVec S_ 32 := constantI S_ 32 0#32
  let main_v56 : IVec S800000 32 := broadcastInDim S800000 ![] bcast_S_S800000 main_c_20
  let main_v57 : IVec S800000 1 := cmpi .sge main_v55 main_v56
  let main_c_21 : IVec S_ 1 := constantI S_ 1 1#1
  let main_v58 : IVec S_ 1 := (fun x v => Host.reduce IntOp.andi x v reducesTo_S800000_S_d0 h_S_) main_v57 main_c_21
  let main_v59 : IVec S_ 1 := andi main_v53 main_v58
  main_v59

def fn_part2 {F : FTy → Type} [FloatOps F] (main_arg1 : IVec S2x800000 32) (main_arg8 : FVec F S256x256 .f32) (main_arg9 : FVec F S256 .f32) (main_arg10 : FVec F S256x256 .f32) (main_arg11 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_v48 main_v49 main_v50

def fn_part1 {F : FTy → Type} [FloatOps F] (main_arg1 : IVec S2x800000 32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x2613 .f32) (main_arg1 : IVec S2x800000 32) (main_arg2 : FVec F S256x2613 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) : IVec S_ 1 :=
  let main_v0 : FVec F S50000x2613 .f32 := Host.absf main_arg0
  let main_cst : FVec F S_ .f32 := constant S_ .f32 0x7F800000#32
  let main_v1 : FVec F S50000x2613 .f32 := broadcastInDim S50000x2613 ![] bcast_S_S50000x2613 main_cst
  let main_v2 : IVec S50000x2613 1 := cmpf .olt main_v0 main_v1
  let main_c : IVec S_ 1 := constantI S_ 1 1#1
  let main_v3 : IVec S_ 1 := (fun x v => Host.reduce IntOp.andi x v reducesTo_S50000x2613_S_d0_1 h_S_) main_v2 main_c
  let main_v4 : FVec F S256x2613 .f32 := Host.absf main_arg2
  let main_cst_0 : FVec F S_ .f32 := constant S_ .f32 0x7F800000#32
  let main_v5 : FVec F S256x2613 .f32 := broadcastInDim S256x2613 ![] bcast_S_S256x2613 main_cst_0
  let main_v6 : IVec S256x2613 1 := cmpf .olt main_v4 main_v5
  let main_c_1 : IVec S_ 1 := constantI S_ 1 1#1
  let main_v7 : IVec S_ 1 := (fun x v => Host.reduce IntOp.andi x v reducesTo_S256x2613_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_arg9 main_arg10 main_arg11 main_v13 main_v16
-- ==== Kernel.lean ====
abbrev S50000x2613 : Shape := ⟨2, ![50000, 2613]⟩
abbrev S2x800000 : Shape := ⟨2, ![2, 800000]⟩
abbrev S256x2613 : Shape := ⟨2, ![256, 2613]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S2613x256 : Shape := ⟨2, ![2613, 256]⟩
abbrev S50000x256 : Shape := ⟨2, ![50000, 256]⟩
abbrev S400x2613 : Shape := ⟨2, ![400, 2613]⟩
abbrev S400x256 : Shape := ⟨2, ![400, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S2000x256 : Shape := ⟨2, ![2000, 256]⟩
abbrev S2000 : Shape := ⟨1, ![2000]⟩
abbrev S2000x1 : Shape := ⟨2, ![2000, 1]⟩

abbrev nBuf : Space → Nat
  | .hbm => 193
  | .vmem => 39
  | .smem => 0
  | _ => 0

abbrev hbmTy0_0 (i : Nat) : BufTy := match i % 128 with
  | 0 => ⟨S50000x2613, .f32⟩
  | 1 => ⟨S2x800000, .i32⟩
  | 2 => ⟨S256x2613, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S1x800000, .i32⟩
  | 13 => ⟨S800000, .i32⟩
  | 14 => ⟨S1x800000, .i32⟩
  | 15 => ⟨S800000, .i32⟩
  | 16 => ⟨S2613x256, .f32⟩
  | 17 => ⟨S2613x256, .bf16⟩
  | 18 => ⟨S50000x256, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S800000x1, .f32⟩
  | 58 => ⟨S800000x256, .f32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S50000, .f32⟩
  | 65 => ⟨S50000x1, .f32⟩
  | 66 => ⟨S50000x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S50000x256, .f32⟩
  | 73 => ⟨S256x256, .f32⟩
  | 74 => ⟨S256x256, .bf16⟩
  | 75 => ⟨S50000x256, .f32⟩
  | 76 => ⟨S_, .f32⟩
  | 77 => ⟨S800000, .f32⟩
  | 78 => ⟨S_, .f32⟩
  | 79 => ⟨S50000, .f32⟩
  | 80 => ⟨S800000x1, .i32⟩
  | 81 => ⟨S50000, .f32⟩
  | 82 => ⟨S_, .f32⟩
  | 83 => ⟨S50000, .f32⟩
  | 84 => ⟨S50000, .f32⟩
  | 85 => ⟨S50000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S800000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x256, .f32⟩
  | 114 => ⟨S800000x1, .f32⟩
  | 115 => ⟨S800000x256, .f32⟩
  | 116 => ⟨S800000x256, .f32⟩
  | 117 => ⟨S_, .f32⟩
  | 118 => ⟨S50000x256, .f32⟩
  | 119 => ⟨S800000x1, .i32⟩
  | 120 => ⟨S50000x256, .f32⟩
  | 121 => ⟨S50000, .f32⟩
  | 122 => ⟨S50000x1, .f32⟩
  | 123 => ⟨S50000x256, .f32⟩
  | 124 => ⟨S50000x256, .f32⟩
  | 125 => ⟨S50000x256, .f32⟩
  | 126 => ⟨S1x256, .f32⟩
  | 127 => ⟨S50000x256, .f32⟩
  | _ => ⟨S50000x2613, .f32⟩

abbrev hbmTy0_1 (i : Nat) : BufTy := match i % 128 with
  | 0 => ⟨S50000x256, .f32⟩
  | 1 => ⟨S50000x256, .f32⟩
  | 2 => ⟨S256x256, .f32⟩
  | 3 => ⟨S256x256, .bf16⟩
  | 4 => ⟨S50000x256, .f32⟩
  | 5 => ⟨S_, .f32⟩
  | 6 => ⟨S800000, .f32⟩
  | 7 => ⟨S_, .f32⟩
  | 8 => ⟨S50000, .f32⟩
  | 9 => ⟨S800000x1, .i32⟩
  | 10 => ⟨S50000, .f32⟩
  | 11 => ⟨S_, .f32⟩
  | 12 => ⟨S50000, .f32⟩
  | 13 => ⟨S50000, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x256, .f32⟩
  | 43 => ⟨S800000x1, .f32⟩
  | 44 => ⟨S800000x256, .f32⟩
  | 45 => ⟨S800000x256, .f32⟩
  | 46 => ⟨S_, .f32⟩
  | 47 => ⟨S50000x256, .f32⟩
  | 48 => ⟨S800000x1, .i32⟩
  | 49 => ⟨S50000x256, .f32⟩
  | 50 => ⟨S50000, .f32⟩
  | 51 => ⟨S50000x1, .f32⟩
  | 52 => ⟨S50000x256, .f32⟩
  | 53 => ⟨S50000x256, .f32⟩
  | 54 => ⟨S50000x256, .f32⟩
  | 55 => ⟨S1x256, .f32⟩
  | 56 => ⟨S50000x256, .f32⟩
  | 57 => ⟨S50000x256, .f32⟩
  | 58 => ⟨S50000x256, .f32⟩
  | 59 => ⟨S256x256, .f32⟩
  | 60 => ⟨S256x256, .bf16⟩
  | 61 => ⟨S50000x256, .f32⟩
  | 62 => ⟨S256x256, .f32⟩
  | 63 => ⟨S256x256, .bf16⟩
  | 64 => ⟨S50000x256, .f32⟩
  | _ => ⟨S50000x2613, .f32⟩

abbrev hbmTy (i : Nat) : BufTy := match i / 128 with
  | 0 => hbmTy0_0 i
  | 1 => hbmTy0_1 i
  | _ => ⟨S50000x2613, .f32⟩

abbrev bufTy : (tb : Table) → Fin (tcTables nBuf tb) → BufTy
  | .hbm, ⟨i, _⟩ => hbmTy i
  | .local _ .vmem, ⟨0, _⟩ => ⟨S400x2613, .f32⟩
  | .local _ .vmem, ⟨1, _⟩ => ⟨S400x2613, .f32⟩
  | .local _ .vmem, ⟨2, _⟩ => ⟨S2613x256, .bf16⟩
  | .local _ .vmem, ⟨3, _⟩ => ⟨S400x256, .f32⟩
  | .local _ .vmem, ⟨4, _⟩ => ⟨S400x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S256x256, .bf16⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .bf16⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S256x256, .bf16⟩
  | .local _ .vmem, ⟨30, _⟩ => ⟨S256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S256x256, .bf16⟩
  | .local _ .vmem, ⟨36, _⟩ => ⟨S256, .f32⟩
  | .local _ .vmem, ⟨37, _⟩ => ⟨S2000x256, .f32⟩
  | .local _ .vmem, ⟨38, _⟩ => ⟨S2000x256, .f32⟩
  | _, _ => ⟨S50000x2613, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_c_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_18 : Ref sig .tc := ⟨.hbm, 133, rfl⟩
abbrev main_v101 : Ref sig .tc := ⟨.hbm, 134, rfl⟩
abbrev main_cst_19 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_21 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_23 : Ref sig .tc := ⟨.hbm, 152, rfl⟩
abbrev main_v115 : Ref sig .tc := ⟨.hbm, 153, rfl⟩
abbrev main_v116 : Ref sig .tc := ⟨.hbm, 154, rfl⟩
abbrev main_c_24 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_c_25 : Ref sig .tc := ⟨.hbm, 162, rfl⟩
abbrev main_v123 : Ref sig .tc := ⟨.hbm, 163, rfl⟩
abbrev main_v124 : Ref sig .tc := ⟨.hbm, 164, rfl⟩
abbrev main_c_26 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_27 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg1_1 : Ref sig .tc := ⟨.vmem, 26, rfl⟩
abbrev cc6_stg0_0 : Ref sig .tc := ⟨.vmem, 27, rfl⟩
abbrev cc6_stg0_1 : Ref sig .tc := ⟨.vmem, 28, rfl⟩
abbrev cc6_stg1_0 : Ref sig .tc := ⟨.vmem, 29, rfl⟩
abbrev cc6_stg2_0 : Ref sig .tc := ⟨.vmem, 30, rfl⟩
abbrev cc6_stg3_0 : Ref sig .tc := ⟨.vmem, 31, rfl⟩
abbrev cc6_stg3_1 : Ref sig .tc := ⟨.vmem, 32, rfl⟩
abbrev cc7_stg0_0 : Ref sig .tc := ⟨.vmem, 33, rfl⟩
abbrev cc7_stg0_1 : Ref sig .tc := ⟨.vmem, 34, rfl⟩
abbrev cc7_stg1_0 : Ref sig .tc := ⟨.vmem, 35, rfl⟩
abbrev cc7_stg2_0 : Ref sig .tc := ⟨.vmem, 36, rfl⟩
abbrev cc7_stg3_0 : Ref sig .tc := ⟨.vmem, 37, rfl⟩
abbrev cc7_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem1_1 : DmaSem sig := 26
abbrev cc6_sem0_0 : DmaSem sig := 27
abbrev cc6_sem0_1 : DmaSem sig := 28
abbrev cc6_sem1_0 : DmaSem sig := 29
abbrev cc6_sem2_0 : DmaSem sig := 30
abbrev cc6_sem3_0 : DmaSem sig := 31
abbrev cc6_sem3_1 : DmaSem sig := 32
abbrev cc7_sem0_0 : DmaSem sig := 33
abbrev cc7_sem0_1 : DmaSem sig := 34
abbrev cc7_sem1_0 : DmaSem sig := 35
abbrev cc7_sem2_0 : DmaSem sig := 36
abbrev cc7_sem3_0 : DmaSem sig := 37
abbrev cc7_sem3_1 : DmaSem sig := 38

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x2613 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2613x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x2613_S2613x256_1_0 : S256x2613.Transposes [1, 0] S2613x256
  bitsLt_bf16_f32 : FTy.bits .bf16 < FTy.bits .f32
  inb_S400x2613_S400x2613_0_0 : ∀ a, (![0, 0] : Fin 2 → Nat) a + S400x2613.size a ≤ S400x2613.size a
  h_S400x2613 : 0 < S400x2613.numel
  inb_S2613x256_S2613x256_0_0 : ∀ a, (![0, 0] : Fin 2 → Nat) a + S2613x256.size a ≤ S2613x256.size a
  h_S2613x256 : 0 < S2613x256.numel
  shapeCasts_S2613x256_S2613x256 : S2613x256.ShapeCasts S2613x256
  inb_S400x256_S400x256_0_0 : ∀ a, (![0, 0] : Fin 2 → Nat) a + S400x256.size a ≤ S400x256.size a
  h_S400x256 : 0 < S400x256.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S2000x256_S2000 : S2000x256.Reduces [1] S2000
  shapeCasts_S2000_S2000x1 : S2000.ShapeCasts S2000x1
  broadcasts_S2000x1_S2000x256 : S2000x1.Broadcasts S2000x256
  transposes_S256x256_S256x256_1_0 : S256x256.Transposes [1, 0] S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  dot_S400x2613_S2613x256_S400x256_1_0_0_1_n_n_wf : DotDims.WF S400x2613 S2613x256 S400x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2613.size a ≤ S50000x2613.size a
  hwx0_0 : ∀ i : grid0.Coords, EltTy.bits .f32 = 32 ∨ (Rect.block (s := S50000x2613) S400x2613.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2613x256.size a ≤ S2613x256.size a
  hwx0_1 : ∀ i : grid0.Coords, EltTy.bits .bf16 = 32 ∨ (Rect.block (s := S2613x256) S2613x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x256.size a ≤ S50000x256.size a
  hwx0_2 : ∀ i : grid0.Coords, EltTy.bits .f32 = 32 ∨ (Rect.block (s := S50000x256) S400x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .bf16 = 32 ∨ (Rect.block (s := S256x256) S256x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256.size a ≤ S256.size a
  hwx6_2 : ∀ i : grid6.Coords, EltTy.bits .f32 = 32 ∨ (Rect.block (s := S256) S256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x256.size a ≤ S50000x256.size a
  hwx6_3 : ∀ i : grid6.Coords, EltTy.bits .f32 = 32 ∨ (Rect.block (s := S50000x256) S2000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .bf16 = 32 ∨ (Rect.block (s := S256x256) S256x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256.size a ≤ S256.size a
  hwx7_2 : ∀ i : grid7.Coords, EltTy.bits .f32 = 32 ∨ (Rect.block (s := S256) S256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x256.size a ≤ S50000x256.size a
  hwx7_3 : ∀ i : grid7.Coords, EltTy.bits .f32 = 32 ∨ (Rect.block (s := S50000x256) S2000x256.size (cc7_transform_3 i) (hinb7_3 i)).WholeWords (EltTy.packing .f32)

variable [Facts₀]

def dot_S400x2613_S2613x256_S400x256_1_0_0_1_n_n : DotDims S400x2613 S2613x256 S400x256 where
  lhsContracting := [1]
  rhsContracting := [0]
  lhsNonContracting := [0]
  rhsNonContracting := [1]
  lhsBatch := []
  rhsBatch := []
  wf := dot_S400x2613_S2613x256_S400x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S400x2613.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2613x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S400x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2000x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v50) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v96) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S2000x256.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v97) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v99) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v143) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v144) S2000x256.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v144) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v146) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v147) S2000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v147) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v149) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg11) S256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v150) S2000x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x2613 : Shape := ⟨2, ![50000, 2613]⟩
abbrev S2x800000 : Shape := ⟨2, ![2, 800000]⟩
abbrev S256x2613 : Shape := ⟨2, ![256, 2613]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S2613x256 : Shape := ⟨2, ![2613, 256]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩

abbrev nBuf : Space → Nat
  | .hbm => 266
  | .vmem => 0
  | .smem => 0
  | _ => 0

abbrev hbmTy0_0 (i : Nat) : BufTy := match i % 128 with
  | 0 => ⟨S50000x2613, .f32⟩
  | 1 => ⟨S2x800000, .i32⟩
  | 2 => ⟨S256x2613, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S1x800000, .i32⟩
  | 13 => ⟨S800000, .i32⟩
  | 14 => ⟨S1x800000, .i32⟩
  | 15 => ⟨S800000, .i32⟩
  | 16 => ⟨S2613x256, .f32⟩
  | 17 => ⟨S50000x256, .f32⟩
  | 18 => ⟨S_, .f32⟩
  | 19 => ⟨S50000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S_, .f32⟩
  | 29 => ⟨S800000, .f32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x256, .f32⟩
  | 63 => ⟨S800000x1, .f32⟩
  | 64 => ⟨S800000x256, .f32⟩
  | 65 => ⟨S800000x256, .f32⟩
  | 66 => ⟨S_, .f32⟩
  | 67 => ⟨S50000x256, .f32⟩
  | 68 => ⟨S800000x1, .i32⟩
  | 69 => ⟨S50000x256, .f32⟩
  | 70 => ⟨S50000, .f32⟩
  | 71 => ⟨S50000x1, .f32⟩
  | 72 => ⟨S50000x256, .f32⟩
  | 73 => ⟨S50000x256, .f32⟩
  | 74 => ⟨S50000x256, .f32⟩
  | 75 => ⟨S1x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S50000x256, .f32⟩
  | 82 => ⟨S_, .f32⟩
  | 83 => ⟨S50000, .f32⟩
  | 84 => ⟨S50000x1, .f32⟩
  | 85 => ⟨S50000x1, .f32⟩
  | 86 => ⟨S_, .f32⟩
  | 87 => ⟨S50000x1, .f32⟩
  | 88 => ⟨S50000x1, .f32⟩
  | 89 => ⟨S50000x256, .f32⟩
  | 90 => ⟨S50000x256, .f32⟩
  | 91 => ⟨S256x256, .f32⟩
  | 92 => ⟨S50000x256, .f32⟩
  | 93 => ⟨S_, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S_, .f32⟩
  | 104 => ⟨S800000, .f32⟩
  | 105 => ⟨S50000, .f32⟩
  | 106 => ⟨S_, .f32⟩
  | 107 => ⟨S50000, .f32⟩
  | 108 => ⟨S50000, .f32⟩
  | 109 => ⟨S50000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000, .f32⟩
  | _ => ⟨S50000x2613, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x256, .f32⟩
  | 10 => ⟨S800000x1, .f32⟩
  | 11 => ⟨S800000x256, .f32⟩
  | 12 => ⟨S800000x256, .f32⟩
  | 13 => ⟨S_, .f32⟩
  | 14 => ⟨S50000x256, .f32⟩
  | 15 => ⟨S800000x1, .i32⟩
  | 16 => ⟨S50000x256, .f32⟩
  | 17 => ⟨S50000, .f32⟩
  | 18 => ⟨S50000x1, .f32⟩
  | 19 => ⟨S50000x256, .f32⟩
  | 20 => ⟨S50000x256, .f32⟩
  | 21 => ⟨S50000x256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S50000x256, .f32⟩
  | 29 => ⟨S_, .f32⟩
  | 30 => ⟨S50000, .f32⟩
  | 31 => ⟨S50000x1, .f32⟩
  | 32 => ⟨S50000x1, .f32⟩
  | 33 => ⟨S_, .f32⟩
  | 34 => ⟨S50000x1, .f32⟩
  | 35 => ⟨S50000x1, .f32⟩
  | 36 => ⟨S50000x256, .f32⟩
  | 37 => ⟨S50000x256, .f32⟩
  | 38 => ⟨S256x256, .f32⟩
  | 39 => ⟨S50000x256, .f32⟩
  | 40 => ⟨S_, .f32⟩
  | 41 => ⟨S50000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S_, .f32⟩
  | 51 => ⟨S800000, .f32⟩
  | 52 => ⟨S50000, .f32⟩
  | 53 => ⟨S_, .f32⟩
  | 54 => ⟨S50000, .f32⟩
  | 55 => ⟨S50000, .f32⟩
  | 56 => ⟨S50000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000, .f32⟩
  | 75 => ⟨S800000, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x256, .f32⟩
  | 85 => ⟨S800000x1, .f32⟩
  | 86 => ⟨S800000x256, .f32⟩
  | 87 => ⟨S800000x256, .f32⟩
  | 88 => ⟨S_, .f32⟩
  | 89 => ⟨S50000x256, .f32⟩
  | 90 => ⟨S800000x1, .i32⟩
  | 91 => ⟨S50000x256, .f32⟩
  | 92 => ⟨S50000, .f32⟩
  | 93 => ⟨S50000x1, .f32⟩
  | 94 => ⟨S50000x256, .f32⟩
  | 95 => ⟨S50000x256, .f32⟩
  | 96 => ⟨S50000x256, .f32⟩
  | 97 => ⟨S1x256, .f32⟩
  | 98 => ⟨S50000x256, .f32⟩
  | 99 => ⟨S50000x256, .f32⟩
  | 100 => ⟨S_, .f32⟩
  | 101 => ⟨S50000x256, .f32⟩
  | 102 => ⟨S50000x256, .f32⟩
  | 103 => ⟨S50000x256, .f32⟩
  | 104 => ⟨S_, .f32⟩
  | 105 => ⟨S50000, .f32⟩
  | 106 => ⟨S50000x1, .f32⟩
  | 107 => ⟨S50000x1, .f32⟩
  | 108 => ⟨S_, .f32⟩
  | 109 => ⟨S50000x1, .f32⟩
  | 110 => ⟨S50000x1, .f32⟩
  | 111 => ⟨S50000x256, .f32⟩
  | 112 => ⟨S50000x256, .f32⟩
  | 113 => ⟨S256x256, .f32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .i1⟩
  | 121 => ⟨S_, .f32⟩
  | 122 => ⟨S50000x256, .f32⟩
  | 123 => ⟨S50000x256, .i1⟩
  | 124 => ⟨S_, .f32⟩
  | 125 => ⟨S_, .f32⟩
  | 126 => ⟨S50000x256, .f32⟩
  | 127 => ⟨S50000x256, .f32⟩
  | _ => ⟨S50000x2613, .f32⟩

abbrev hbmTy0_2 (i : Nat) : BufTy := match i % 128 with
  | 0 => ⟨S50000x256, .f32⟩
  | 1 => ⟨S_, .f32⟩
  | 2 => ⟨S50000x256, .f32⟩
  | 3 => ⟨S50000x256, .f32⟩
  | 4 => ⟨S50000x256, .f32⟩
  | 5 => ⟨S256x256, .f32⟩
  | 6 => ⟨S50000x256, .f32⟩
  | 7 => ⟨S1x256, .f32⟩
  | 8 => ⟨S50000x256, .f32⟩
  | 9 => ⟨S50000x256, .f32⟩
  | _ => ⟨S50000x2613, .f32⟩

abbrev hbmTy (i : Nat) : BufTy := match i / 128 with
  | 0 => hbmTy0_0 i
  | 1 => hbmTy0_1 i
  | 2 => hbmTy0_2 i
  | _ => ⟨S50000x2613, .f32⟩

abbrev bufTy : (tb : Table) → Fin (tcTables nBuf tb) → BufTy
  | .hbm, ⟨i, _⟩ => hbmTy i
  | _, _ => ⟨S50000x2613, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call0_cst : Ref sig .tc := ⟨.hbm, 78, rfl⟩
abbrev main_call0_v0 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_c_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_cst_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_19 : Ref sig .tc := ⟨.hbm, 119, rfl⟩
abbrev main_v84 : Ref sig .tc := ⟨.hbm, 120, rfl⟩
abbrev main_v85 : Ref sig .tc := ⟨.hbm, 121, rfl⟩
abbrev main_c_20 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_21 : Ref sig .tc := ⟨.hbm, 129, rfl⟩
abbrev main_v92 : Ref sig .tc := ⟨.hbm, 130, rfl⟩
abbrev main_v93 : Ref sig .tc := ⟨.hbm, 131, rfl⟩
abbrev main_c_22 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_23 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call1_cst : Ref sig .tc := ⟨.hbm, 153, rfl⟩
abbrev main_call1_v0 : Ref sig .tc := ⟨.hbm, 154, rfl⟩
abbrev main_v113 : Ref sig .tc := ⟨.hbm, 155, rfl⟩
abbrev main_v114 : Ref sig .tc := ⟨.hbm, 156, rfl⟩
abbrev main_cst_24 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_25 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_26 : Ref sig .tc := ⟨.hbm, 168, rfl⟩
abbrev main_v124 : Ref sig .tc := ⟨.hbm, 169, rfl⟩
abbrev main_c_27 : Ref sig .tc := ⟨.hbm, 170, rfl⟩
abbrev main_v125 : Ref sig .tc := ⟨.hbm, 171, rfl⟩
abbrev main_v126 : Ref sig .tc := ⟨.hbm, 172, rfl⟩
abbrev main_c_28 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_29 : Ref sig .tc := ⟨.hbm, 178, rfl⟩
abbrev main_v131 : Ref sig .tc := ⟨.hbm, 179, rfl⟩
abbrev main_v132 : Ref sig .tc := ⟨.hbm, 180, rfl⟩
abbrev main_cst_30 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_c_31 : Ref sig .tc := ⟨.hbm, 185, rfl⟩
abbrev main_v136 : Ref sig .tc := ⟨.hbm, 186, rfl⟩
abbrev main_v137 : Ref sig .tc := ⟨.hbm, 187, rfl⟩
abbrev main_c_32 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_c_33 : Ref sig .tc := ⟨.hbm, 194, rfl⟩
abbrev main_v143 : Ref sig .tc := ⟨.hbm, 195, rfl⟩
abbrev main_v144 : Ref sig .tc := ⟨.hbm, 196, rfl⟩
abbrev main_c_34 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_c_35 : Ref sig .tc := ⟨.hbm, 204, rfl⟩
abbrev main_v151 : Ref sig .tc := ⟨.hbm, 205, rfl⟩
abbrev main_v152 : Ref sig .tc := ⟨.hbm, 206, rfl⟩
abbrev main_c_36 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_37 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_call2_cst : Ref sig .tc := ⟨.hbm, 228, rfl⟩
abbrev main_call2_v0 : Ref sig .tc := ⟨.hbm, 229, rfl⟩
abbrev main_v172 : Ref sig .tc := ⟨.hbm, 230, rfl⟩
abbrev main_v173 : Ref sig .tc := ⟨.hbm, 231, rfl⟩
abbrev main_cst_38 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_39 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_call3_cst : Ref sig .tc := ⟨.hbm, 246, rfl⟩
abbrev main_call3_v0 : Ref sig .tc := ⟨.hbm, 247, rfl⟩
abbrev main_call3_v1 : Ref sig .tc := ⟨.hbm, 248, rfl⟩
abbrev main_call3_cst_0 : Ref sig .tc := ⟨.hbm, 249, rfl⟩
abbrev main_call3_v2 : Ref sig .tc := ⟨.hbm, 250, rfl⟩
abbrev main_call3_v3 : Ref sig .tc := ⟨.hbm, 251, rfl⟩
abbrev main_call3_cst_1 : Ref sig .tc := ⟨.hbm, 252, rfl⟩
abbrev main_call3_call0_v0 : Ref sig .tc := ⟨.hbm, 253, rfl⟩
abbrev main_call3_call0_v1 : Ref sig .tc := ⟨.hbm, 254, rfl⟩
abbrev main_call3_v4 : Ref sig .tc := ⟨.hbm, 255, rfl⟩
abbrev main_call3_v5 : Ref sig .tc := ⟨.hbm, 256, rfl⟩
abbrev main_call3_cst_2 : Ref sig .tc := ⟨.hbm, 257, rfl⟩
abbrev main_call3_v6 : Ref sig .tc := ⟨.hbm, 258, rfl⟩
abbrev main_call3_v7 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x2613_S2613x256_1_0 : S256x2613.Transposes [1, 0] S2613x256
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  transposes_S256x256_S256x256_1_0 : S256x256.Transposes [1, 0] S256x256
  dot_S50000x2613_S2613x256_S50000x256_1_0_0_1_n_n_wf : DotDims.WF S50000x2613 S2613x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def dot_S50000x2613_S2613x256_S50000x256_1_0_0_1_n_n : DotDims S50000x2613 S2613x256 S50000x256 where
  lhsContracting := [1]
  rhsContracting := [0]
  lhsNonContracting := [0]
  rhsNonContracting := [1]
  lhsBatch := []
  rhsBatch := []
  wf := dot_S50000x2613_S2613x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The kernel program's run, with its result named.

  The program is eight kernel regions among stretches of host operations. Its frame run already carries, for every
  buffer outside the kernels' scopes, the contents after the last region: the fold `W16` (launch memory, then
  alternately a stretch's operations applied and a region's arrays replaced by what its write-backs leave). The frame
  claim keeps of this only that the twelve argument arrays are as launched. Here the same run is stated keeping one
  more reading: the result buffer (the last region's output array) holds `W16` at that buffer. Everything about WHAT
  that value is, is proved elsewhere; this module only does not forget it.
-/
import proofs.«111732_j62783831933365_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program from memory `m` terminates without a fault, the result buffer then
    holding the contents the fold of stretches and regions leaves there, and the argument arrays as launched. -/
theorem run : θ_run defs (onTc (τ := τ) (main (F := F))) ⟨m, fun _ => 0, ρ⟩ (fun r => ∀ c : Dev nD,
      r.2.mem ((c.tc : Thread nD τ).loc main_v150) = W16 m ρ c (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v150 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.KRun

end
-- ==== Proof.KernelWalk.lean ====
/-
  Buffers that nothing writes between two points of the kernel program's run.

  The program's run is a fold over sixteen steps from the launch memory: a stretch of host operations, then a kernel
  region, eight times. A host operation writes only its own result buffer and a region only its output array, so a
  buffer holds at a later step what it held at an earlier one whenever no operation and no region in between owns it.
  Each lemma here walks one buffer back through the steps in between, one step per line: the two rows of the edge list
  (cut out once, before the first region, and read again by every layer), each weight or bias argument back to the launch
  memory from the step that consumes it, and each region's output across the short stretch that follows it.
-/
import proofs.«111732_j62783831933365_2_alg».proof.Proof.Gen.KernelIdeal.Frame

set_option maxRecDepth 16384

noncomputable section

namespace Cert.KernelIdeal.Walk

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-- One stretch of host operations leaves a buffer alone when none of its operations writes it. -/
local macro "skip_stretch " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem src_at2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem dst_at2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem src_at6 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by skip_stretch hostOps2
    _ = W3 m ρ c (Proc.devRef .tc main_v1) := W4_of_ne m ρ c main_v1 (by decide)
    _ = W2 m ρ c (Proc.devRef .tc main_v1) := by skip_stretch hostOps1
    _ = W1 m ρ c (Proc.devRef .tc main_v1) := W2_of_ne m ρ c main_v1 (by decide)

theorem dst_at6 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by skip_stretch hostOps2
    _ = W3 m ρ c (Proc.devRef .tc main_v3) := W4_of_ne m ρ c main_v3 (by decide)
    _ = W2 m ρ c (Proc.devRef .tc main_v3) := by skip_stretch hostOps1
    _ = W1 m ρ c (Proc.devRef .tc main_v3) := W2_of_ne m ρ c main_v3 (by decide)

theorem src_at10 (c : Dev nD) : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by skip_stretch hostOps4
    _ = W7 m ρ c (Proc.devRef .tc main_v1) := W8_of_ne m ρ c main_v1 (by decide)
    _ = W6 m ρ c (Proc.devRef .tc main_v1) := by skip_stretch hostOps3
    _ = W5 m ρ c (Proc.devRef .tc main_v1) := W6_of_ne m ρ c main_v1 (by decide)
    _ = W4 m ρ c (Proc.devRef .tc main_v1) := by skip_stretch hostOps2
    _ = W3 m ρ c (Proc.devRef .tc main_v1) := W4_of_ne m ρ c main_v1 (by decide)
    _ = W2 m ρ c (Proc.devRef .tc main_v1) := by skip_stretch hostOps1
    _ = W1 m ρ c (Proc.devRef .tc main_v1) := W2_of_ne m ρ c main_v1 (by decide)

theorem dst_at10 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by skip_stretch hostOps4
    _ = W7 m ρ c (Proc.devRef .tc main_v3) := W8_of_ne m ρ c main_v3 (by decide)
    _ = W6 m ρ c (Proc.devRef .tc main_v3) := by skip_stretch hostOps3
    _ = W5 m ρ c (Proc.devRef .tc main_v3) := W6_of_ne m ρ c main_v3 (by decide)
    _ = W4 m ρ c (Proc.devRef .tc main_v3) := by skip_stretch hostOps2
    _ = W3 m ρ c (Proc.devRef .tc main_v3) := W4_of_ne m ρ c main_v3 (by decide)
    _ = W2 m ρ c (Proc.devRef .tc main_v3) := by skip_stretch hostOps1
    _ = W1 m ρ c (Proc.devRef .tc main_v3) := W2_of_ne m ρ c main_v3 (by decide)

theorem x_at0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by skip_stretch hostOps0

theorem bg0_at2 (c : Dev nD) : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := by skip_stretch hostOps0

theorem wg1_at4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by skip_stretch hostOps1
    _ = W1 m ρ c (Proc.devRef .tc main_arg4) := W2_of_ne m ρ c main_arg4 (by decide)
    _ = W0 m ρ c (Proc.devRef .tc main_arg4) := by skip_stretch hostOps0

theorem bg1_at6 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by skip_stretch hostOps2
    _ = W3 m ρ c (Proc.devRef .tc main_arg5) := W4_of_ne m ρ c main_arg5 (by decide)
    _ = W2 m ρ c (Proc.devRef .tc main_arg5) := by skip_stretch hostOps1
    _ = W1 m ρ c (Proc.devRef .tc main_arg5) := W2_of_ne m ρ c main_arg5 (by decide)
    _ = W0 m ρ c (Proc.devRef .tc main_arg5) := by skip_stretch hostOps0

theorem wg2_at8 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := by skip_stretch hostOps3
    _ = W5 m ρ c (Proc.devRef .tc main_arg6) := W6_of_ne m ρ c main_arg6 (by decide)
    _ = W4 m ρ c (Proc.devRef .tc main_arg6) := by skip_stretch hostOps2
    _ = W3 m ρ c (Proc.devRef .tc main_arg6) := W4_of_ne m ρ c main_arg6 (by decide)
    _ = W2 m ρ c (Proc.devRef .tc main_arg6) := by skip_stretch hostOps1
    _ = W1 m ρ c (Proc.devRef .tc main_arg6) := W2_of_ne m ρ c main_arg6 (by decide)
    _ = W0 m ρ c (Proc.devRef .tc main_arg6) := by skip_stretch hostOps0

theorem bg2_at10 (c : Dev nD) : W10 m ρ c (Proc.devRef .tc main_arg7) = W0 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := by skip_stretch hostOps4
    _ = W7 m ρ c (Proc.devRef .tc main_arg7) := W8_of_ne m ρ c main_arg7 (by decide)
    _ = W6 m ρ c (Proc.devRef .tc main_arg7) := by skip_stretch hostOps3
    _ = W5 m ρ c (Proc.devRef .tc main_arg7) := W6_of_ne m ρ c main_arg7 (by decide)
    _ = W4 m ρ c (Proc.devRef .tc main_arg7) := by skip_stretch hostOps2
    _ = W3 m ρ c (Proc.devRef .tc main_arg7) := W4_of_ne m ρ c main_arg7 (by decide)
    _ = W2 m ρ c (Proc.devRef .tc main_arg7) := by skip_stretch hostOps1
    _ = W1 m ρ c (Proc.devRef .tc main_arg7) := W2_of_ne m ρ c main_arg7 (by decide)
    _ = W0 m ρ c (Proc.devRef .tc main_arg7) := by skip_stretch hostOps0

theorem w1_at12 (c : Dev nD) : W12 m ρ c (Proc.devRef .tc main_arg8) = W0 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := by skip_stretch hostOps5
    _ = W9 m ρ c (Proc.devRef .tc main_arg8) := W10_of_ne m ρ c main_arg8 (by decide)
    _ = W8 m ρ c (Proc.devRef .tc main_arg8) := by skip_stretch hostOps4
    _ = W7 m ρ c (Proc.devRef .tc main_arg8) := W8_of_ne m ρ c main_arg8 (by decide)
    _ = W6 m ρ c (Proc.devRef .tc main_arg8) := by skip_stretch hostOps3
    _ = W5 m ρ c (Proc.devRef .tc main_arg8) := W6_of_ne m ρ c main_arg8 (by decide)
    _ = W4 m ρ c (Proc.devRef .tc main_arg8) := by skip_stretch hostOps2
    _ = W3 m ρ c (Proc.devRef .tc main_arg8) := W4_of_ne m ρ c main_arg8 (by decide)
    _ = W2 m ρ c (Proc.devRef .tc main_arg8) := by skip_stretch hostOps1
    _ = W1 m ρ c (Proc.devRef .tc main_arg8) := W2_of_ne m ρ c main_arg8 (by decide)
    _ = W0 m ρ c (Proc.devRef .tc main_arg8) := by skip_stretch hostOps0

theorem b1_at13 (c : Dev nD) : W13 m ρ c (Proc.devRef .tc main_arg9) = W0 m ρ c (Proc.devRef .tc main_arg9) :=
  calc W13 m ρ c (Proc.devRef .tc main_arg9)
    _ = W12 m ρ c (Proc.devRef .tc main_arg9) := by skip_stretch hostOps6
    _ = W11 m ρ c (Proc.devRef .tc main_arg9) := W12_of_ne m ρ c main_arg9 (by decide)
    _ = W10 m ρ c (Proc.devRef .tc main_arg9) := by skip_stretch hostOps5
    _ = W9 m ρ c (Proc.devRef .tc main_arg9) := W10_of_ne m ρ c main_arg9 (by decide)
    _ = W8 m ρ c (Proc.devRef .tc main_arg9) := by skip_stretch hostOps4
    _ = W7 m ρ c (Proc.devRef .tc main_arg9) := W8_of_ne m ρ c main_arg9 (by decide)
    _ = W6 m ρ c (Proc.devRef .tc main_arg9) := by skip_stretch hostOps3
    _ = W5 m ρ c (Proc.devRef .tc main_arg9) := W6_of_ne m ρ c main_arg9 (by decide)
    _ = W4 m ρ c (Proc.devRef .tc main_arg9) := by skip_stretch hostOps2
    _ = W3 m ρ c (Proc.devRef .tc main_arg9) := W4_of_ne m ρ c main_arg9 (by decide)
    _ = W2 m ρ c (Proc.devRef .tc main_arg9) := by skip_stretch hostOps1
    _ = W1 m ρ c (Proc.devRef .tc main_arg9) := W2_of_ne m ρ c main_arg9 (by decide)
    _ = W0 m ρ c (Proc.devRef .tc main_arg9) := by skip_stretch hostOps0

theorem w2_at14 (c : Dev nD) : W14 m ρ c (Proc.devRef .tc main_arg10) = W0 m ρ c (Proc.devRef .tc main_arg10) :=
  calc W14 m ρ c (Proc.devRef .tc main_arg10)
    _ = W13 m ρ c (Proc.devRef .tc main_arg10) := W14_of_ne m ρ c main_arg10 (by decide)
    _ = W12 m ρ c (Proc.devRef .tc main_arg10) := by skip_stretch hostOps6
    _ = W11 m ρ c (Proc.devRef .tc main_arg10) := W12_of_ne m ρ c main_arg10 (by decide)
    _ = W10 m ρ c (Proc.devRef .tc main_arg10) := by skip_stretch hostOps5
    _ = W9 m ρ c (Proc.devRef .tc main_arg10) := W10_of_ne m ρ c main_arg10 (by decide)
    _ = W8 m ρ c (Proc.devRef .tc main_arg10) := by skip_stretch hostOps4
    _ = W7 m ρ c (Proc.devRef .tc main_arg10) := W8_of_ne m ρ c main_arg10 (by decide)
    _ = W6 m ρ c (Proc.devRef .tc main_arg10) := by skip_stretch hostOps3
    _ = W5 m ρ c (Proc.devRef .tc main_arg10) := W6_of_ne m ρ c main_arg10 (by decide)
    _ = W4 m ρ c (Proc.devRef .tc main_arg10) := by skip_stretch hostOps2
    _ = W3 m ρ c (Proc.devRef .tc main_arg10) := W4_of_ne m ρ c main_arg10 (by decide)
    _ = W2 m ρ c (Proc.devRef .tc main_arg10) := by skip_stretch hostOps1
    _ = W1 m ρ c (Proc.devRef .tc main_arg10) := W2_of_ne m ρ c main_arg10 (by decide)
    _ = W0 m ρ c (Proc.devRef .tc main_arg10) := by skip_stretch hostOps0

theorem b2_at15 (c : Dev nD) : W15 m ρ c (Proc.devRef .tc main_arg11) = W0 m ρ c (Proc.devRef .tc main_arg11) :=
  calc W15 m ρ c (Proc.devRef .tc main_arg11)
    _ = W14 m ρ c (Proc.devRef .tc main_arg11) := by skip_stretch hostOps7
    _ = W13 m ρ c (Proc.devRef .tc main_arg11) := W14_of_ne m ρ c main_arg11 (by decide)
    _ = W12 m ρ c (Proc.devRef .tc main_arg11) := by skip_stretch hostOps6
    _ = W11 m ρ c (Proc.devRef .tc main_arg11) := W12_of_ne m ρ c main_arg11 (by decide)
    _ = W10 m ρ c (Proc.devRef .tc main_arg11) := by skip_stretch hostOps5
    _ = W9 m ρ c (Proc.devRef .tc main_arg11) := W10_of_ne m ρ c main_arg11 (by decide)
    _ = W8 m ρ c (Proc.devRef .tc main_arg11) := by skip_stretch hostOps4
    _ = W7 m ρ c (Proc.devRef .tc main_arg11) := W8_of_ne m ρ c main_arg11 (by decide)
    _ = W6 m ρ c (Proc.devRef .tc main_arg11) := by skip_stretch hostOps3
    _ = W5 m ρ c (Proc.devRef .tc main_arg11) := W6_of_ne m ρ c main_arg11 (by decide)
    _ = W4 m ρ c (Proc.devRef .tc main_arg11) := by skip_stretch hostOps2
    _ = W3 m ρ c (Proc.devRef .tc main_arg11) := W4_of_ne m ρ c main_arg11 (by decide)
    _ = W2 m ρ c (Proc.devRef .tc main_arg11) := by skip_stretch hostOps1
    _ = W1 m ρ c (Proc.devRef .tc main_arg11) := W2_of_ne m ρ c main_arg11 (by decide)
    _ = W0 m ρ c (Proc.devRef .tc main_arg11) := by skip_stretch hostOps0

theorem x1_at5 (c : Dev nD) : W5 m ρ c (Proc.devRef .tc main_v50) = W4 m ρ c (Proc.devRef .tc main_v50) :=
  calc W5 m ρ c (Proc.devRef .tc main_v50)
    _ = W4 m ρ c (Proc.devRef .tc main_v50) := by skip_stretch hostOps2

theorem x2_at9 (c : Dev nD) : W9 m ρ c (Proc.devRef .tc main_v97) = W8 m ρ c (Proc.devRef .tc main_v97) :=
  calc W9 m ρ c (Proc.devRef .tc main_v97)
    _ = W8 m ρ c (Proc.devRef .tc main_v97) := by skip_stretch hostOps4

theorem x3_at13 (c : Dev nD) : W13 m ρ c (Proc.devRef .tc main_v144) = W12 m ρ c (Proc.devRef .tc main_v144) :=
  calc W13 m ρ c (Proc.devRef .tc main_v144)
    _ = W12 m ρ c (Proc.devRef .tc main_v144) := by skip_stretch hostOps6

theorem y1_at15 (c : Dev nD) : W15 m ρ c (Proc.devRef .tc main_v147) = W14 m ρ c (Proc.devRef .tc main_v147) :=
  calc W15 m ρ c (Proc.devRef .tc main_v147)
    _ = W14 m ρ c (Proc.devRef .tc main_v147) := by skip_stretch hostOps7

end Cert.KernelIdeal.Walk

end
-- ==== Proof.RowsTimesWeights.lean ====
/-
  Rows times weights.

  For an array `x` of `M` rows and `K` columns and an array `w` of `K` rows and `N` columns, the product has at
  (r, c) the sum over `k` of `x (r, k) * w (k, c)`. On the extended reals this is a finite sum of products: no order of
  summation, no tiling of the rows and no change of float format can be seen in it. Both ways a program takes such a
  product — the host's `dot_general` over a whole array, and a kernel's matrix unit fed one block of rows and a zero
  accumulator — are this sum at the ideal instance, whatever the extents: the dimension numbers are the plain ones
  (contract the left operand's columns with the right operand's rows, no batch axis), under which the left operand is read
  at (r, k) and the right at (k, c).
-/
import Idealize.ShloMosaic.PureOps.Ideal.Laws
import Idealize.ShloMosaic.Lib.ValueIdx

noncomputable section

open scoped BigOperators

namespace Cert.RowsTimesWeights

open Idealize.ShloMosaic Idealize.ShloMosaic.ValueIdx

variable {M K N : Nat}

/-- The product of an `M × K` array and a `K × N` array of extended reals, entry by entry. -/
def prod (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- Under the plain dimension numbers the left operand is read at (row of the output, contraction coordinate). -/
theorem lhs_at (i : (⟨2, ![M, N]⟩ : Shape).Idx) (q : (DotDims.plain M K N).contr.Idx) :
    (DotDims.plain M K N).lhsIdx i q = ix2 (i 0) ((contrEquiv1 (DotDims.plain M K N) K rfl rfl) q) := by
  funext a
  apply Fin.ext
  match a with
  | ⟨0, _⟩ => rfl
  | ⟨1, _⟩ => rfl

/-- Under the plain dimension numbers the right operand is read at (contraction coordinate, column of the output). -/
theorem rhs_at (i : (⟨2, ![M, N]⟩ : Shape).Idx) (q : (DotDims.plain M K N).contr.Idx) :
    (DotDims.plain M K N).rhsIdx i q = ix2 ((contrEquiv1 (DotDims.plain M K N) K rfl rfl) q) (i 1) := by
  funext a
  apply Fin.ext
  match a with
  | ⟨0, _⟩ => rfl
  | ⟨1, _⟩ => rfl

/-- The contraction's sum, written over the contraction's own index type, is the sum over `Fin K`. -/
theorem contraction_sum (x : (⟨2, ![M, K]⟩ : Shape).Idx → EReal) (w : (⟨2, ![K, N]⟩ : Shape).Idx → EReal)
    (i : (⟨2, ![M, N]⟩ : Shape).Idx) :
    (∑ q : (DotDims.plain M K N).contr.Idx,
        x ((DotDims.plain M K N).lhsIdx i q) * w ((DotDims.plain M K N).rhsIdx i q)) = prod x w i := by
  unfold prod
  rw [← Equiv.sum_comp (contrEquiv1 (DotDims.plain M K N) K rfl rfl)]
  refine Finset.sum_congr rfl fun q _ => ?_
  exact congrArg₂ (· * ·) (congrArg x (lhs_at i q)) (congrArg w (rhs_at i q))

/-- The host's `dot_general` with the plain dimension numbers is the product, at the ideal instance. -/
theorem dotGeneral_plain {φ₁ φ₂ : FTy} (prec : Option ContractPrecision) (sched : HostSchedule)
    (x : FVec Ideal ⟨2, ![M, K]⟩ φ₁) (w : FVec Ideal ⟨2, ![K, N]⟩ φ₂) :
    FloatOps.dotGeneral (DotDims.plain M K N) prec sched x w = prod x w := by
  funext i
  rw [Ideal.dotGeneral_apply]
  exact contraction_sum x w i

/-- A kernel's matrix unit with the plain dimension numbers, fed a zero accumulator, is the product, at the ideal
    instance. -/
theorem matmul_plain_zero {φ₁ φ₂ : FTy} (prec : Option ContractPrecision)
    (x : FVec Ideal ⟨2, ![M, K]⟩ φ₁) (w : FVec Ideal ⟨2, ![K, N]⟩ φ₂) :
    FloatOps.matmul (DotDims.plain M K N) prec x w (constant ⟨2, ![M, N]⟩ .f32 0x00000000#32) = prod x w := by
  funext i
  rw [Ideal.matmul_constant_zero_apply]
  exact contraction_sum x w i

end Cert.RowsTimesWeights

end
-- ==== Proof.Project0.lean ====
/-
  The first layer's projection (a kernel region), read as one product of whole arrays.

  The region's body takes one block of 400 rows of its input array and the whole 2613 × 256 weight array and stores, in the
  same block of rows of its output array, the matrix unit's product into a zero accumulator (the input rounded to a
  narrower format first, which at the ideal instance changes nothing). The 125 grid points take the 125 consecutive blocks
  of rows, so together they write every row of the output exactly once. Hence after the region the output array is, entry
  by entry, the product of the input ARRAY with the weight array: row r of the output is computed by the point r / 400
  from row r of the input, and a product's entry (r, c) uses nothing but row r of the left operand and column c of the
  right one.
-/
import proofs.«111732_j62783831933365_2_alg».proof.Proof.Gen.KernelIdeal.Frame
import proofs.«111732_j62783831933365_2_alg».proof.Proof.RowsTimesWeights
import Idealize.ShloMosaic.Lib.Pipeline.Value
import Idealize.ShloMosaic.Lib.ValueIdx

set_option maxRecDepth 16384

noncomputable section

namespace Cert.KernelIdeal.Project0

open Idealize.ShloMosaic Idealize.ShloMosaic.TcCoe Idealize.ShloMosaic.ValueIdx
open Idealize.ShloMosaic.Pipeline (Dat Cfg Window)
open Cert.KernelIdeal Cert.KernelIdeal.Gen Cert.RowsTimesWeights

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a block of rows and the weights is their product. -/
theorem payload (x0 : Vec Ideal S400x2613 .f32) (x1 : Vec Ideal S2613x256 .bf16) :
    k0_pay1 (F := Ideal) x0 x1 = prod (M := 400) (K := 2613) (N := 256) x0 x1 := by
  unfold k0_pay1
  rw [shapeCast_self]
  exact matmul_plain_zero none _ _

/-- The printed index maps over the grid: point t takes block t of the rows of the input and of the output, and the
    whole weight array. -/
theorem index_maps : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every block of rows is some point's. -/
theorem block_onto : ∀ q0 : Fin 125, ∃ t : Fin cfg0.N, win0_2.index t = ![q0.val, 0] :=
  (by decide +kernel : ∀ q0 : Fin 125, ∃ t : Fin grid0.N, win0_2.index t = ![q0.val, 0])

/-- What point t writes back is block t of the product of the input array and the weight array. -/
theorem flushed (c : Dev nD) (t : Fin cfg0.N) :
    (dat0 V c).flushed 2 t = ((cfg0.win 2).blk t).view.read (Elt Ideal)
      (prod (M := 50000) (K := 2613) (N := 256) (V c main_arg0) (V c main_v5)) := by
  show (cfg0.win 2).cut (grid0.coords t) ((dat0 V c).after 2 t) = _
  rw [after0_2]
  unfold out0_2
  rw [View.canon_unit_zero origin]
  simp only [View.ld_unit_zero (S := S400x2613) origin, View.ld_unit_zero (S := S2613x256) origin]
  rw [payload]
  obtain ⟨e0, e1, e2, e3, e4⟩ := index_maps t
  funext j
  show prod (M := 400) (K := 2613) (N := 256) (iblk0 V c 0 t) (iblk0 V c 1 t) j
    = prod (M := 50000) (K := 2613) (N := 256) (V c main_arg0) (V c main_v5) (((cfg0.win 2).blk t).view.emb j)
  unfold prod
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg _ (funext fun a => Fin.ext ?_)
    match a with
    | ⟨0, _⟩ =>
      show win0_0.index t (0 : Fin 2) * 400 + 1 * (j 0).val = win0_2.index t (0 : Fin 2) * 400 + 1 * (j 0).val
      omega
    | ⟨1, _⟩ =>
      show win0_0.index t (1 : Fin 2) * 2613 + 1 * k.val = k.val
      omega
  have hw : iblk0 V c 1 t (ix2 k (j 1)) = V c main_v5 (ix2 k ((((cfg0.win 2).blk t).view.emb j) 1)) := by
    show V c main_v5 (((cfg0.win 1).blk t).view.emb (ix2 k (j 1))) = _
    refine congrArg _ (funext fun a => Fin.ext ?_)
    match a with
    | ⟨0, _⟩ =>
      show win0_1.index t (0 : Fin 2) * 2613 + 1 * k.val = k.val
      omega
    | ⟨1, _⟩ =>
      show win0_1.index t (1 : Fin 2) * 256 + 1 * (j 1).val = win0_2.index t (1 : Fin 2) * 256 + 1 * (j 1).val
      omega
  rw [hx, hw]

/-- An index of the output array is in point t's block iff each coordinate is in the block's range on its axis. -/
theorem mem_block (t : Fin cfg0.N) (i : S50000x256.Idx) :
    i ∈ ((cfg0.win 2).blk t).view.set ↔ ∀ a : Fin 2, win0_2.index t a * S400x256.size a ≤ (i a).val
      ∧ (i a).val < win0_2.index t a * S400x256.size a + S400x256.size a := by
  show i ∈ ((View.whole main_v6).slice (win0_2.rect t)).set ↔ _
  rw [View.set_slice_whole, Rect.mem_set_unit]
  exact Iff.rfl

/-- Every entry of the output array is written by the point that takes its row's block. -/
theorem cover (i : S50000x256.Idx) :
    ∃ t : Fin cfg0.N, (cfg0.win 2).flush t = true ∧ i ∈ ((cfg0.win 2).blk t).view.set := by
  have hi0 : (i 0).val < 50000 := idx2_lt0 i
  have hi1 : (i 1).val < 256 := idx2_lt1 i
  obtain ⟨t, ht⟩ := block_onto ⟨(i 0).val / 400, by omega⟩
  have q0 : win0_2.index t (0 : Fin 2) = (i 0).val / 400 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 400 ≤ (i 0).val ∧ (i 0).val < win0_2.index t (0 : Fin 2) * 400 + 400
    omega
  | ⟨1, _⟩ =>
    show win0_2.index t (1 : Fin 2) * 256 ≤ (i 1).val ∧ (i 1).val < win0_2.index t (1 : Fin 2) * 256 + 256
    omega

/-- After the region its output array is the product of its input array and its weight array, as the region found
    them. -/
theorem value (c : Dev nD) :
    (dat0 V c).arrAt 2 cfg0.N = prod (M := 50000) (K := 2613) (N := 256) (V c main_arg0) (V c main_v5) :=
  (dat0 V c).arrAt_eq_of_cover 2 _ (fun t _ => flushed V c t) cover

end Cert.KernelIdeal.Project0

end
-- ==== Proof.Project1.lean ====
/-
  The second layer's projection (a kernel region), read as one product of whole arrays.

  The region's body takes one block of 2000 rows of its input array and the whole 256 × 256 weight array and stores, in the
  same block of rows of its output array, the matrix unit's product into a zero accumulator (the input rounded to a
  narrower format first, which at the ideal instance changes nothing). The 25 grid points take the 25 consecutive blocks
  of rows, so together they write every row of the output exactly once. Hence after the region the output array is, entry
  by entry, the product of the input ARRAY with the weight array: row r of the output is computed by the point r / 2000
  from row r of the input, and a product's entry (r, c) uses nothing but row r of the left operand and column c of the
  right one.
-/
import proofs.«111732_j62783831933365_2_alg».proof.Proof.Gen.KernelIdeal.Frame
import proofs.«111732_j62783831933365_2_alg».proof.Proof.RowsTimesWeights
import Idealize.ShloMosaic.Lib.Pipeline.Value
import Idealize.ShloMosaic.Lib.ValueIdx

set_option maxRecDepth 16384

noncomputable section

namespace Cert.KernelIdeal.Project1

open Idealize.ShloMosaic Idealize.ShloMosaic.TcCoe Idealize.ShloMosaic.ValueIdx
open Idealize.ShloMosaic.Pipeline (Dat Cfg Window)
open Cert.KernelIdeal Cert.KernelIdeal.Gen Cert.RowsTimesWeights

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a block of rows and the weights is their product. -/
theorem payload (x0 : Vec Ideal S2000x256 .f32) (x1 : Vec Ideal S256x256 .bf16) :
    k2_pay1 (F := Ideal) x0 x1 = prod (M := 2000) (K := 256) (N := 256) x0 x1 := by
  unfold k2_pay1
  rw [shapeCast_self, shapeCast_self]
  exact matmul_plain_zero none _ _

/-- The printed index maps over the grid: point t takes block t of the rows of the input and of the output, and the
    whole weight array. -/
theorem index_maps : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every block of rows is some point's. -/
theorem block_onto : ∀ q0 : Fin 25, ∃ t : Fin cfg2.N, win2_2.index t = ![q0.val, 0] :=
  (by decide +kernel : ∀ q0 : Fin 25, ∃ t : Fin grid2.N, win2_2.index t = ![q0.val, 0])

/-- What point t writes back is block t of the product of the input array and the weight array. -/
theorem flushed (c : Dev nD) (t : Fin cfg2.N) :
    (dat2 V c).flushed 2 t = ((cfg2.win 2).blk t).view.read (Elt Ideal)
      (prod (M := 50000) (K := 256) (N := 256) (V c main_v50) (V c main_v52)) := by
  show (cfg2.win 2).cut (grid2.coords t) ((dat2 V c).after 2 t) = _
  rw [after2_2]
  unfold out2_2
  rw [View.canon_unit_zero origin]
  simp only [View.ld_unit_zero (S := S2000x256) origin, View.ld_unit_zero (S := S256x256) origin]
  rw [payload]
  obtain ⟨e0, e1, e2, e3, e4⟩ := index_maps t
  funext j
  show prod (M := 2000) (K := 256) (N := 256) (iblk2 V c 0 t) (iblk2 V c 1 t) j
    = prod (M := 50000) (K := 256) (N := 256) (V c main_v50) (V c main_v52) (((cfg2.win 2).blk t).view.emb j)
  unfold prod
  refine Finset.sum_congr rfl fun k _ => ?_
  have hx : iblk2 V c 0 t (ix2 (j 0) k) = V c main_v50 (ix2 ((((cfg2.win 2).blk t).view.emb j) 0) k) := by
    show V c main_v50 (((cfg2.win 0).blk t).view.emb (ix2 (j 0) k)) = _
    refine congrArg _ (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 256 + 1 * k.val = k.val
      omega
  have hw : iblk2 V c 1 t (ix2 k (j 1)) = V c main_v52 (ix2 k ((((cfg2.win 2).blk t).view.emb j) 1)) := by
    show V c main_v52 (((cfg2.win 1).blk t).view.emb (ix2 k (j 1))) = _
    refine congrArg _ (funext fun a => Fin.ext ?_)
    match a with
    | ⟨0, _⟩ =>
      show win2_1.index t (0 : Fin 2) * 256 + 1 * k.val = k.val
      omega
    | ⟨1, _⟩ =>
      show win2_1.index t (1 : Fin 2) * 256 + 1 * (j 1).val = win2_2.index t (1 : Fin 2) * 256 + 1 * (j 1).val
      omega
  rw [hx, hw]

/-- An index of the output array is in point t's block iff each coordinate is in the block's range on its axis. -/
theorem mem_block (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v53).slice (win2_2.rect t)).set ↔ _
  rw [View.set_slice_whole, Rect.mem_set_unit]
  exact Iff.rfl

/-- Every entry of the output array is written by the point that takes its row's block. -/
theorem cover (i : S50000x256.Idx) :
    ∃ t : Fin cfg2.N, (cfg2.win 2).flush t = true ∧ i ∈ ((cfg2.win 2).blk t).view.set := by
  have hi0 : (i 0).val < 50000 := idx2_lt0 i
  have hi1 : (i 1).val < 256 := idx2_lt1 i
  obtain ⟨t, ht⟩ := block_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 256 ≤ (i 1).val ∧ (i 1).val < win2_2.index t (1 : Fin 2) * 256 + 256
    omega

/-- After the region its output array is the product of its input array and its weight array, as the region found
    them. -/
theorem value (c : Dev nD) :
    (dat2 V c).arrAt 2 cfg2.N = prod (M := 50000) (K := 256) (N := 256) (V c main_v50) (V c main_v52) :=
  (dat2 V c).arrAt_eq_of_cover 2 _ (fun t _ => flushed V c t) cover

end Cert.KernelIdeal.Project1

end
-- ==== Proof.Project2.lean ====
/-
  The third layer's projection (a kernel region), read as one product of whole arrays.

  The region's body takes one block of 2000 rows of its input array and the whole 256 × 256 weight array and stores, in the
  same block of rows of its output array, the matrix unit's product into a zero accumulator (the input rounded to a
  narrower format first, which at the ideal instance changes nothing). The 25 grid points take the 25 consecutive blocks
  of rows, so together they write every row of the output exactly once. Hence after the region the output array is, entry
  by entry, the product of the input ARRAY with the weight array: row r of the output is computed by the point r / 2000
  from row r of the input, and a product's entry (r, c) uses nothing but row r of the left operand and column c of the
  right one.
-/
import proofs.«111732_j62783831933365_2_alg».proof.Proof.Gen.KernelIdeal.Frame
import proofs.«111732_j62783831933365_2_alg».proof.Proof.RowsTimesWeights
import Idealize.ShloMosaic.Lib.Pipeline.Value
import Idealize.ShloMosaic.Lib.ValueIdx

set_option maxRecDepth 16384

noncomputable section

namespace Cert.KernelIdeal.Project2

open Idealize.ShloMosaic Idealize.ShloMosaic.TcCoe Idealize.ShloMosaic.ValueIdx
open Idealize.ShloMosaic.Pipeline (Dat Cfg Window)
open Cert.KernelIdeal Cert.KernelIdeal.Gen Cert.RowsTimesWeights

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a block of rows and the weights is their product. -/
theorem payload (x0 : Vec Ideal S2000x256 .f32) (x1 : Vec Ideal S256x256 .bf16) :
    k4_pay1 (F := Ideal) x0 x1 = prod (M := 2000) (K := 256) (N := 256) x0 x1 := by
  unfold k4_pay1
  rw [shapeCast_self, shapeCast_self]
  exact matmul_plain_zero none _ _

/-- The printed index maps over the grid: point t takes block t of the rows of the input and of the output, and the
    whole weight array. -/
theorem index_maps : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 :=
  (by decide +kernel : ∀ t : Fin grid4.N, _)

/-- Every block of rows is some point's. -/
theorem block_onto : ∀ q0 : Fin 25, ∃ t : Fin cfg4.N, win4_2.index t = ![q0.val, 0] :=
  (by decide +kernel : ∀ q0 : Fin 25, ∃ t : Fin grid4.N, win4_2.index t = ![q0.val, 0])

/-- What point t writes back is block t of the product of the input array and the weight array. -/
theorem flushed (c : Dev nD) (t : Fin cfg4.N) :
    (dat4 V c).flushed 2 t = ((cfg4.win 2).blk t).view.read (Elt Ideal)
      (prod (M := 50000) (K := 256) (N := 256) (V c main_v97) (V c main_v99)) := by
  show (cfg4.win 2).cut (grid4.coords t) ((dat4 V c).after 2 t) = _
  rw [after4_2]
  unfold out4_2
  rw [View.canon_unit_zero origin]
  simp only [View.ld_unit_zero (S := S2000x256) origin, View.ld_unit_zero (S := S256x256) origin]
  rw [payload]
  obtain ⟨e0, e1, e2, e3, e4⟩ := index_maps t
  funext j
  show prod (M := 2000) (K := 256) (N := 256) (iblk4 V c 0 t) (iblk4 V c 1 t) j
    = prod (M := 50000) (K := 256) (N := 256) (V c main_v97) (V c main_v99) (((cfg4.win 2).blk t).view.emb j)
  unfold prod
  refine Finset.sum_congr rfl fun k _ => ?_
  have hx : iblk4 V c 0 t (ix2 (j 0) k) = V c main_v97 (ix2 ((((cfg4.win 2).blk t).view.emb j) 0) k) := by
    show V c main_v97 (((cfg4.win 0).blk t).view.emb (ix2 (j 0) k)) = _
    refine congrArg _ (funext fun a => Fin.ext ?_)
    match a with
    | ⟨0, _⟩ =>
      show win4_0.index t (0 : Fin 2) * 2000 + 1 * (j 0).val = win4_2.index t (0 : Fin 2) * 2000 + 1 * (j 0).val
      omega
    | ⟨1, _⟩ =>
      show win4_0.index t (1 : Fin 2) * 256 + 1 * k.val = k.val
      omega
  have hw : iblk4 V c 1 t (ix2 k (j 1)) = V c main_v99 (ix2 k ((((cfg4.win 2).blk t).view.emb j) 1)) := by
    show V c main_v99 (((cfg4.win 1).blk t).view.emb (ix2 k (j 1))) = _
    refine congrArg _ (funext fun a => Fin.ext ?_)
    match a with
    | ⟨0, _⟩ =>
      show win4_1.index t (0 : Fin 2) * 256 + 1 * k.val = k.val
      omega
    | ⟨1, _⟩ =>
      show win4_1.index t (1 : Fin 2) * 256 + 1 * (j 1).val = win4_2.index t (1 : Fin 2) * 256 + 1 * (j 1).val
      omega
  rw [hx, hw]

/-- An index of the output array is in point t's block iff each coordinate is in the block's range on its axis. -/
theorem mem_block (t : Fin cfg4.N) (i : S50000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v100).slice (win4_2.rect t)).set ↔ _
  rw [View.set_slice_whole, Rect.mem_set_unit]
  exact Iff.rfl

/-- Every entry of the output array is written by the point that takes its row's block. -/
theorem cover (i : S50000x256.Idx) :
    ∃ t : Fin cfg4.N, (cfg4.win 2).flush t = true ∧ i ∈ ((cfg4.win 2).blk t).view.set := by
  have hi0 : (i 0).val < 50000 := idx2_lt0 i
  have hi1 : (i 1).val < 256 := idx2_lt1 i
  obtain ⟨t, ht⟩ := block_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_block]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 256 ≤ (i 1).val ∧ (i 1).val < win4_2.index t (1 : Fin 2) * 256 + 256
    omega

/-- After the region its output array is the product of its input array and its weight array, as the region found
    them. -/
theorem value (c : Dev nD) :
    (dat4 V c).arrAt 2 cfg4.N = prod (M := 50000) (K := 256) (N := 256) (V c main_v97) (V c main_v99) :=
  (dat4 V c).arrAt_eq_of_cover 2 _ (fun t _ => flushed V c t) cover

end Cert.KernelIdeal.Project2

end
-- ==== Proof.RowNormalize.lean ====
/-
  The stage "relu, then divide each row by the larger of its Euclidean norm and eps".

  For an array `x` of `R` rows and 256 columns, with `r = max(x, 0)` element by element, the stage's
  entry at `(a, b)` is `r(a, b) / max(sqrt(∑ k, r(a, k) * r(a, k)), eps)`: `rowNormalize`. It acts on each
  row by itself, so the one function describes a block of 2000 rows and the whole array of 50000.
  The kernel's three normalizing bodies compute it on the block they load (`kernel_payload`), the
  reference's host operations on the whole array (`reference_chain`): in both, an index passes
  through the pointwise operations unchanged, the row sum kept as a column is read at the row, and
  the sum over axis 1 at a row is the sum of that row's 256 entries. The two constants are kept as
  the words the programs print; only the host sum's initial zero word is read as the number 0.
-/
import proofs.«111732_j62783831933365_2_alg».proof.Defs
import proofs.«111732_j62783831933365_2_alg».proof.Proof.Gen.KernelIdeal.Skeleton
import Idealize.ShloMosaic.Lib.ValueIdx
import Idealize.ShloMosaic.Lib.ValueLayout
import Idealize.ShloMosaic.Lib.IdealHost

noncomputable section

namespace Cert.RowNormalize

open Idealize.ShloMosaic Idealize.SL.Sem Idealize.ShloMosaic.ValueIdx
open scoped BigOperators

/-! ## Layout: a row sum kept as a column

`jnp.sum(…, axis=1, keepdims=True)` leaves an `[a]` array as an `[a, 1]` column, which is then
spread over the `b` entries of each row. The kernel spells the two steps as a shape cast and a
broadcast, the host as two `broadcast_in_dim`s; all four read the operand at the row's index. -/

section Layout

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, k)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (k : Fin b) : broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

/-- The host's `broadcast_in_dim` of an `[a]` array to `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `broadcast_in_dim` of an `[a, 1]` column to `[a, b]` along axes 0, 1 reads, at `(i, k)`, the column at row `i`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (k : Fin b) :
    broadcastInDim ⟨2, ![a, b]⟩ ![0, 1] h x (ix2 i k) = x (ix2 i (0 : Fin 1)) := by
  refine broadcastInDim_apply ![0, 1] h x (ix2 i k) (ix2 i (0 : Fin 1)) fun ax => ?_
  match ax with
  | ⟨0, _⟩ =>
    show i.val = if a = 1 then 0 else i.val
    split
    · have := i.isLt; omega
    · rfl
  | ⟨1, _⟩ => rfl

end Layout

/-! ## The stage as a function of the array -/

/-- `relu` at the ideal values: the maximum with the value of the zero word. -/
abbrev relu (t : EReal) : EReal := max t (Ideal.ofBits .f32 0x00000000#32)

/-- Each row of `relu x` divided by the larger of its Euclidean norm and the value of the word
    `0x2B8CBCCC` (the programs' `eps`, the same word in both and never evaluated). -/
def rowNormalize {R : ℕ} (x : (⟨2, ![R, 256]⟩ : Shape).Idx → EReal) : (⟨2, ![R, 256]⟩ : Shape).Idx → EReal :=
  fun i => Ideal.div (relu (x i))
    (max (Ideal.sqrt (∑ k : Fin 256, relu (x (ix2 (i 0) k)) * relu (x (ix2 (i 0) k))))
      (Ideal.ofBits .f32 0x2B8CBCCC#32))

/-- `rowNormalize` at `(p, q)`. -/
theorem rowNormalize_apply {R : ℕ} (x : (⟨2, ![R, 256]⟩ : Shape).Idx → EReal) (p : Fin R) (q : Fin 256) :
    rowNormalize x (ix2 p q) = Ideal.div (relu (x (ix2 p q)))
      (max (Ideal.sqrt (∑ k : Fin 256, relu (x (ix2 p k)) * relu (x (ix2 p k)))) (Ideal.ofBits .f32 0x2B8CBCCC#32)) := rfl

/-- The index a row reduction inserts: row `p` with the lane `k` put back is `(p, k)`. -/
theorem lift_row {a b : ℕ} (h : (⟨2, ![a, b]⟩ : Shape).Reduces [1] ⟨1, ![a]⟩) (p : Fin a) (k : Fin b) :
    h.lift (ix1 p) k = ix2 p k := by
  funext d
  match d with
  | ⟨0, _⟩ => exact Fin.ext rfl
  | ⟨1, _⟩ => exact Fin.ext rfl

/-! ## The kernel's side: one block of 2000 rows -/

section K

variable [Cert.KernelIdeal.Facts]
open Cert.KernelIdeal Cert.KernelIdeal.Facts₀ Cert.KernelIdeal.Facts

/-- The body of the first `relu_l2norm` kernel computes `rowNormalize` of the block it loads: the index goes
    through the pointwise operations as it is, through the column broadcast and the cast to its row, and
    the lane reduction at a row is the sum over that row's 256 entries. -/
theorem kernel_payload (x0 : Vec Ideal Cert.KernelIdeal.S2000x256 .f32) :
    Cert.KernelIdeal.Gen.k1_pay1 (F := Ideal) x0 = rowNormalize x0 := by
  funext j
  obtain ⟨p, q, rfl⟩ : ∃ (p : Fin 2000) (q : Fin 256), j = ix2 p q := ⟨j 0, j 1, eq_ix2 j⟩
  rw [rowNormalize_apply]
  dsimp only [Cert.KernelIdeal.Gen.k1_pay1]
  rw [divf_apply, broadcastTo_a1_ab_apply, maximumf_apply, maximumf_apply, broadcast_apply, broadcast_apply, shapeCast_self]
  show Ideal.div (relu (x0 (ix2 p q)))
      (max (Ideal.sqrt (shapeCast S2000x1 _ Gen.shapeCasts_S2000_S2000x1 (ix2 p (0 : Fin 1)))) (Ideal.ofBits .f32 0x2B8CBCCC#32)) = _
  rw [shapeCast_a_a1_apply]
  refine congrArg (fun t => Ideal.div (relu (x0 (ix2 p q))) (max (Ideal.sqrt t) (Ideal.ofBits .f32 0x2B8CBCCC#32))) ?_
  refine (Ideal.multiReduction_add_single _ _ Gen.reduces_S2000x256_S2000 _ _ (ix1 p)).trans ?_
  refine Finset.sum_congr rfl fun k _ => ?_
  exact congrArg (fun i => relu (x0 i) * relu (x0 i)) (lift_row Gen.reduces_S2000x256_S2000 p k)

/-- The second and third `relu_l2norm` kernels have the same body. -/
theorem kernel_payload3 (x0 : Vec Ideal Cert.KernelIdeal.S2000x256 .f32) :
    Cert.KernelIdeal.Gen.k3_pay1 (F := Ideal) x0 = rowNormalize x0 := kernel_payload x0

theorem kernel_payload5 (x0 : Vec Ideal Cert.KernelIdeal.S2000x256 .f32) :
    Cert.KernelIdeal.Gen.k5_pay1 (F := Ideal) x0 = rowNormalize x0 := kernel_payload x0

end K

/-! ## The reference's side: the whole array of 50000 rows -/

section R

variable [Cert.ReferenceIdeal.Facts]
open Cert.ReferenceIdeal Cert.ReferenceIdeal.Facts₀ Cert.ReferenceIdeal.Facts

/-- The host's square root at an index is the ideal square root of the element. -/
theorem hostSqrt_apply {s : Shape} {φ : FTy} (a : FVec Ideal s φ) (i : s.Idx) : Host.sqrt a i = Ideal.sqrt (a i) := rfl

/-- The reference's `relu`: its printed constant, broadcast and maximum. -/
abbrev refRelu (y : FVec Ideal S50000x256 .f32) : FVec Ideal S50000x256 .f32 :=
  maximumf y (broadcastInDim S50000x256 ![] bcast_S_S50000x256 (constant (F := Ideal) S_ .f32 0x00000000#32))

/-- … is `relu` of each element. -/
theorem refRelu_eq (y : FVec Ideal S50000x256 .f32) : refRelu y = fun i => relu (y i) := by
  funext i
  show max (y i) (broadcastInDim S50000x256 ![] bcast_S_S50000x256 (constant (F := Ideal) S_ .f32 0x00000000#32) i) = _
  rw [broadcastInDim_scalar_apply, constant_apply]

/-- The reference's printed operations from `relu` to the quotient, composed: the square, the sum over
    axis 1 from the zero word, the two `broadcast_in_dim`s around the square root and the maximum with
    the `eps` word, and the host's division. -/
def refChain (y : FVec Ideal S50000x256 .f32) : FVec Ideal S50000x256 .f32 :=
  Host.divf (refRelu y)
    (broadcastInDim S50000x256 ![0, 1] bcast_S50000x1_S50000x256_0_1
      (maximumf
        (Host.sqrt (broadcastInDim S50000x1 ![0] bcast_S50000_S50000x1_0
          ((fun x v => Host.reduceAdd x v reducesTo_S50000x256_S50000_d1 h_S_) (mulf (refRelu y) (refRelu y))
            (constant (F := Ideal) S_ .f32 0x00000000#32))))
        (broadcastInDim S50000x1 ![] bcast_S_S50000x1 (constant (F := Ideal) S_ .f32 0x2B8CBCCC#32))))

/-- The reference's chain computes `rowNormalize` of the whole array: as for the kernel's block, with the
    host's sum read as its initial value, the value of the zero word, plus the sum over the row. -/
theorem reference_chain (y : FVec Ideal S50000x256 .f32) : refChain y = rowNormalize y := by
  funext j
  obtain ⟨p, q, rfl⟩ : ∃ (p : Fin 50000) (q : Fin 256), j = ix2 p q := ⟨j 0, j 1, eq_ix2 j⟩
  rw [rowNormalize_apply]
  unfold refChain
  rw [refRelu_eq]
  rw [hostDivf_apply, broadcastInDim_a1_ab_apply, maximumf_apply, broadcastInDim_scalar_apply, constant_apply,
    hostSqrt_apply, broadcastInDim_a_a1_apply]
  beta_reduce
  rw [hostReduceAdd_apply]
  refine congrArg (fun t => Ideal.div (relu (y (ix2 p q))) (max (Ideal.sqrt t) (Ideal.ofBits .f32 0x2B8CBCCC#32))) ?_
  have hR : (⟨2, ![50000, 256]⟩ : Shape).Reduces [1] ⟨1, ![50000]⟩ := by decide
  refine (Ideal.hostReduceAdd_single reducesTo_S50000x256_S50000_d1 hR _ _ (ix1 p)).trans ?_
  rw [(constant_apply _ _).trans Ideal.ofBits_zero_f32, zero_add]
  refine Finset.sum_congr rfl fun k _ => ?_
  exact congrArg (fun i => relu (y i) * relu (y i)) (lift_row hR p k)

end R

end Cert.RowNormalize

end
-- ==== Proof.Normalize0.lean ====
/-
  The first layer's clip-and-normalize (a kernel region), read as one function of whole arrays.

  The region's body takes one block of 2000 rows of its input array and stores, in the same block of rows of its output
  array, each row's entries clipped below at zero and divided by the larger of that row's Euclidean norm and a small
  constant. The 25 grid points take the 25 consecutive blocks of rows, so together they write every row of the output
  exactly once; and the operation is row by row: entry (r, c) of the result uses only row r of the input. Hence after
  the region the output array is the same operation applied to the input ARRAY.
-/
import proofs.«111732_j62783831933365_2_alg».proof.Proof.Gen.KernelIdeal.Frame
import proofs.«111732_j62783831933365_2_alg».proof.Proof.RowNormalize
import Idealize.ShloMosaic.Lib.Pipeline.Value
import Idealize.ShloMosaic.Lib.ValueIdx

set_option maxRecDepth 16384

noncomputable section

namespace Cert.KernelIdeal.Normalize0

open Idealize.ShloMosaic Idealize.ShloMosaic.TcCoe Idealize.ShloMosaic.ValueIdx
open Idealize.ShloMosaic.Pipeline (Dat Cfg Window)
open Cert.KernelIdeal Cert.KernelIdeal.Gen Cert.RowNormalize

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: point t takes block t of the rows of the input and of the output. -/
theorem index_maps : ∀ t : Fin cfg1.N, win1_0.index t (0 : Fin 2) = win1_1.index t (0 : Fin 2)
    ∧ win1_0.index t (1 : Fin 2) = 0 ∧ win1_1.index t (1 : Fin 2) = 0 :=
  (by decide +kernel : ∀ t : Fin grid1.N, _)

/-- Every block of rows is some point's. -/
theorem block_onto : ∀ q0 : Fin 25, ∃ t : Fin cfg1.N, win1_1.index t = ![q0.val, 0] :=
  (by decide +kernel : ∀ q0 : Fin 25, ∃ t : Fin grid1.N, win1_1.index t = ![q0.val, 0])

/-- What point t writes back is block t of the row-normalized input array. -/
theorem flushed (c : Dev nD) (t : Fin cfg1.N) :
    (dat1 V c).flushed 1 t = ((cfg1.win 1).blk t).view.read (Elt Ideal)
      (rowNormalize (R := 50000) (V c main_v49)) := by
  show (cfg1.win 1).cut (grid1.coords t) ((dat1 V c).after 1 t) = _
  rw [after1_1]
  unfold out1_1
  rw [View.canon_unit_zero origin]
  simp only [View.ld_unit_zero (S := S2000x256) origin]
  rw [kernel_payload]
  obtain ⟨e0, e1, e2⟩ := index_maps t
  funext j
  -- the block's entry at j is the array's entry at j's place in the array
  have hself : iblk1 V c 0 t j = V c main_v49 (((cfg1.win 1).blk t).view.emb j) := by
    show V c main_v49 (((cfg1.win 0).blk t).view.emb j) = _
    refine congrArg _ (funext fun a => Fin.ext ?_)
    match a with
    | ⟨0, _⟩ =>
      show win1_0.index t (0 : Fin 2) * 2000 + 1 * (j 0).val = win1_1.index t (0 : Fin 2) * 2000 + 1 * (j 0).val
      omega
    | ⟨1, _⟩ =>
      show win1_0.index t (1 : Fin 2) * 256 + 1 * (j 1).val = win1_1.index t (1 : Fin 2) * 256 + 1 * (j 1).val
      omega
  -- and the block's row through j is the array's row through j's place
  have hrow : ∀ k : Fin 256, iblk1 V c 0 t (ix2 (j 0) k)
      = V c main_v49 (ix2 ((((cfg1.win 1).blk t).view.emb j) 0) k) := fun k => by
    show V c main_v49 (((cfg1.win 0).blk t).view.emb (ix2 (j 0) k)) = _
    refine congrArg _ (funext fun a => Fin.ext ?_)
    match a with
    | ⟨0, _⟩ =>
      show win1_0.index t (0 : Fin 2) * 2000 + 1 * (j 0).val = win1_1.index t (0 : Fin 2) * 2000 + 1 * (j 0).val
      omega
    | ⟨1, _⟩ =>
      show win1_0.index t (1 : Fin 2) * 256 + 1 * k.val = k.val
      omega
  show rowNormalize (R := 2000) (iblk1 V c 0 t) j
    = rowNormalize (R := 50000) (V c main_v49) (((cfg1.win 1).blk t).view.emb j)
  simp only [rowNormalize, hself, hrow]

/-- An index of the output array is in point t's block iff each coordinate is in the block's range on its axis. -/
theorem mem_block (t : Fin cfg1.N) (i : S50000x256.Idx) :
    i ∈ ((cfg1.win 1).blk t).view.set ↔ ∀ a : Fin 2, win1_1.index t a * S2000x256.size a ≤ (i a).val
      ∧ (i a).val < win1_1.index t a * S2000x256.size a + S2000x256.size a := by
  show i ∈ ((View.whole main_v50).slice (win1_1.rect t)).set ↔ _
  rw [View.set_slice_whole, Rect.mem_set_unit]
  exact Iff.rfl

/-- Every entry of the output array is written by the point that takes its row's block. -/
theorem cover (i : S50000x256.Idx) :
    ∃ t : Fin cfg1.N, (cfg1.win 1).flush t = true ∧ i ∈ ((cfg1.win 1).blk t).view.set := by
  have hi0 : (i 0).val < 50000 := idx2_lt0 i
  have hi1 : (i 1).val < 256 := idx2_lt1 i
  obtain ⟨t, ht⟩ := block_onto ⟨(i 0).val / 2000, by omega⟩
  have q0 : win1_1.index t (0 : Fin 2) = (i 0).val / 2000 := congrFun ht 0
  have q1 : win1_1.index t (1 : Fin 2) = 0 := congrFun ht 1
  refine ⟨t, flush1_1 t, ?_⟩
  rw [mem_block]
  intro a
  match a with
  | ⟨0, _⟩ =>
    show win1_1.index t (0 : Fin 2) * 2000 ≤ (i 0).val ∧ (i 0).val < win1_1.index t (0 : Fin 2) * 2000 + 2000
    omega
  | ⟨1, _⟩ =>
    show win1_1.index t (1 : Fin 2) * 256 ≤ (i 1).val ∧ (i 1).val < win1_1.index t (1 : Fin 2) * 256 + 256
    omega

/-- After the region its output array is its input array, as the region found it, row-normalized. -/
theorem value (c : Dev nD) :
    (dat1 V c).arrAt 1 cfg1.N = rowNormalize (R := 50000) (V c main_v49) :=
  (dat1 V c).arrAt_eq_of_cover 1 _ (fun t _ => flushed V c t) cover

end Cert.KernelIdeal.Normalize0

end
-- ==== Proof.Normalize1.lean ====
/-
  The second layer's clip-and-normalize (a kernel region), read as one function of whole arrays.

  The region's body takes one block of 2000 rows of its input array and stores, in the same block of rows of its output
  array, each row's entries clipped below at zero and divided by the larger of that row's Euclidean norm and a small
  constant. The 25 grid points take the 25 consecutive blocks of rows, so together they write every row of the output
  exactly once; and the operation is row by row: entry (r, c) of the result uses only row r of the input. Hence after
  the region the output array is the same operation applied to the input ARRAY.
-/
import proofs.«111732_j62783831933365_2_alg».proof.Proof.Gen.KernelIdeal.Frame
import proofs.«111732_j62783831933365_2_alg».proof.Proof.RowNormalize
import Idealize.ShloMosaic.Lib.Pipeline.Value
import Idealize.ShloMosaic.Lib.ValueIdx

set_option maxRecDepth 16384

noncomputable section

namespace Cert.KernelIdeal.Normalize1

open Idealize.ShloMosaic Idealize.ShloMosaic.TcCoe Idealize.ShloMosaic.ValueIdx
open Idealize.ShloMosaic.Pipeline (Dat Cfg Window)
open Cert.KernelIdeal Cert.KernelIdeal.Gen Cert.RowNormalize

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: point t takes block t of the rows of the input and of the output. -/
theorem index_maps : ∀ t : Fin cfg3.N, win3_0.index t (0 : Fin 2) = win3_1.index t (0 : Fin 2)
    ∧ win3_0.index t (1 : Fin 2) = 0 ∧ win3_1.index t (1 : Fin 2) = 0 :=
  (by decide +kernel : ∀ t : Fin grid3.N, _)

/-- Every block of rows is some point's. -/
theorem block_onto : ∀ q0 : Fin 25, ∃ t : Fin cfg3.N, win3_1.index t = ![q0.val, 0] :=
  (by decide +kernel : ∀ q0 : Fin 25, ∃ t : Fin grid3.N, win3_1.index t = ![q0.val, 0])

/-- What point t writes back is block t of the row-normalized input array. -/
theorem flushed (c : Dev nD) (t : Fin cfg3.N) :
    (dat3 V c).flushed 1 t = ((cfg3.win 1).blk t).view.read (Elt Ideal)
      (rowNormalize (R := 50000) (V c main_v96)) := by
  show (cfg3.win 1).cut (grid3.coords t) ((dat3 V c).after 1 t) = _
  rw [after3_1]
  unfold out3_1
  rw [View.canon_unit_zero origin]
  simp only [View.ld_unit_zero (S := S2000x256) origin]
  rw [kernel_payload3]
  obtain ⟨e0, e1, e2⟩ := index_maps t
  funext j
  -- the block's entry at j is the array's entry at j's place in the array
  have hself : iblk3 V c 0 t j = V c main_v96 (((cfg3.win 1).blk t).view.emb j) := by
    show V c main_v96 (((cfg3.win 0).blk t).view.emb j) = _
    refine congrArg _ (funext fun a => Fin.ext ?_)
    match a with
    | ⟨0, _⟩ =>
      show win3_0.index t (0 : Fin 2) * 2000 + 1 * (j 0).val = win3_1.index t (0 : Fin 2) * 2000 + 1 * (j 0).val
      omega
    | ⟨1, _⟩ =>
      show win3_0.index t (1 : Fin 2) * 256 + 1 * (j 1).val = win3_1.index t (1 : Fin 2) * 256 + 1 * (j 1).val
      omega
  -- and the block's row through j is the array's row through j's place
  have hrow : ∀ k : Fin 256, iblk3 V c 0 t (ix2 (j 0) k)
      = V c main_v96 (ix2 ((((cfg3.win 1).blk t).view.emb j) 0) k) := fun k => by
    show V c main_v96 (((cfg3.win 0).blk t).view.emb (ix2 (j 0) k)) = _
    refine congrArg _ (funext fun a => Fin.ext ?_)
    match a with
    | ⟨0, _⟩ =>
      show win3_0.index t (0 : Fin 2) * 2000 + 1 * (j 0).val = win3_1.index t (0 : Fin 2) * 2000 + 1 * (j 0).val
      omega
    | ⟨1, _⟩ =>
      show win3_0.index t (1 : Fin 2) * 256 + 1 * k.val = k.val
      omega
  show rowNormalize (R := 2000) (iblk3 V c 0 t) j
    = rowNormalize (R := 50000) (V c main_v96) (((cfg3.win 1).blk t).view.emb j)
  simp only [rowNormalize, hself, hrow]

/-- An index of the output array is in point t's block iff each coordinate is in the block's range on its axis. -/
theorem mem_block (t : Fin cfg3.N) (i : S50000x256.Idx) :
    i ∈ ((cfg3.win 1).blk t).view.set ↔ ∀ a : Fin 2, win3_1.index t a * S2000x256.size a ≤ (i a).val
      ∧ (i a).val < win3_1.index t a * S2000x256.size a + S2000x256.size a := by
  show i ∈ ((View.whole main_v97).slice (win3_1.rect t)).set ↔ _
  rw [View.set_slice_whole, Rect.mem_set_unit]
  exact Iff.rfl

/-- Every entry of the output array is written by the point that takes its row's block. -/
theorem cover (i : S50000x256.Idx) :
    ∃ t : Fin cfg3.N, (cfg3.win 1).flush t = true ∧ i ∈ ((cfg3.win 1).blk t).view.set := by
  have hi0 : (i 0).val < 50000 := idx2_lt0 i
  have hi1 : (i 1).val < 256 := idx2_lt1 i
  obtain ⟨t, ht⟩ := block_onto ⟨(i 0).val / 2000, by omega⟩
  have q0 : win3_1.index t (0 : Fin 2) = (i 0).val / 2000 := congrFun ht 0
  have q1 : win3_1.index t (1 : Fin 2) = 0 := congrFun ht 1
  refine ⟨t, flush3_1 t, ?_⟩
  rw [mem_block]
  intro a
  match a with
  | ⟨0, _⟩ =>
    show win3_1.index t (0 : Fin 2) * 2000 ≤ (i 0).val ∧ (i 0).val < win3_1.index t (0 : Fin 2) * 2000 + 2000
    omega
  | ⟨1, _⟩ =>
    show win3_1.index t (1 : Fin 2) * 256 ≤ (i 1).val ∧ (i 1).val < win3_1.index t (1 : Fin 2) * 256 + 256
    omega

/-- After the region its output array is its input array, as the region found it, row-normalized. -/
theorem value (c : Dev nD) :
    (dat3 V c).arrAt 1 cfg3.N = rowNormalize (R := 50000) (V c main_v96) :=
  (dat3 V c).arrAt_eq_of_cover 1 _ (fun t _ => flushed V c t) cover

end Cert.KernelIdeal.Normalize1

end
-- ==== Proof.Normalize2.lean ====
/-
  The third layer's clip-and-normalize (a kernel region), read as one function of whole arrays.

  The region's body takes one block of 2000 rows of its input array and stores, in the same block of rows of its output
  array, each row's entries clipped below at zero and divided by the larger of that row's Euclidean norm and a small
  constant. The 25 grid points take the 25 consecutive blocks of rows, so together they write every row of the output
  exactly once; and the operation is row by row: entry (r, c) of the result uses only row r of the input. Hence after
  the region the output array is the same operation applied to the input ARRAY.
-/
import proofs.«111732_j62783831933365_2_alg».proof.Proof.Gen.KernelIdeal.Frame
import proofs.«111732_j62783831933365_2_alg».proof.Proof.RowNormalize
import Idealize.ShloMosaic.Lib.Pipeline.Value
import Idealize.ShloMosaic.Lib.ValueIdx

set_option maxRecDepth 16384

noncomputable section

namespace Cert.KernelIdeal.Normalize2

open Idealize.ShloMosaic Idealize.ShloMosaic.TcCoe Idealize.ShloMosaic.ValueIdx
open Idealize.ShloMosaic.Pipeline (Dat Cfg Window)
open Cert.KernelIdeal Cert.KernelIdeal.Gen Cert.RowNormalize

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: point t takes block t of the rows of the input and of the output. -/
theorem index_maps : ∀ t : Fin cfg5.N, win5_0.index t (0 : Fin 2) = win5_1.index t (0 : Fin 2)
    ∧ win5_0.index t (1 : Fin 2) = 0 ∧ win5_1.index t (1 : Fin 2) = 0 :=
  (by decide +kernel : ∀ t : Fin grid5.N, _)

/-- Every block of rows is some point's. -/
theorem block_onto : ∀ q0 : Fin 25, ∃ t : Fin cfg5.N, win5_1.index t = ![q0.val, 0] :=
  (by decide +kernel : ∀ q0 : Fin 25, ∃ t : Fin grid5.N, win5_1.index t = ![q0.val, 0])

/-- What point t writes back is block t of the row-normalized input array. -/
theorem flushed (c : Dev nD) (t : Fin cfg5.N) :
    (dat5 V c).flushed 1 t = ((cfg5.win 1).blk t).view.read (Elt Ideal)
      (rowNormalize (R := 50000) (V c main_v143)) := by
  show (cfg5.win 1).cut (grid5.coords t) ((dat5 V c).after 1 t) = _
  rw [after5_1]
  unfold out5_1
  rw [View.canon_unit_zero origin]
  simp only [View.ld_unit_zero (S := S2000x256) origin]
  rw [kernel_payload5]
  obtain ⟨e0, e1, e2⟩ := index_maps t
  funext j
  -- the block's entry at j is the array's entry at j's place in the array
  have hself : iblk5 V c 0 t j = V c main_v143 (((cfg5.win 1).blk t).view.emb j) := by
    show V c main_v143 (((cfg5.win 0).blk t).view.emb j) = _
    refine congrArg _ (funext fun a => Fin.ext ?_)
    match a with
    | ⟨0, _⟩ =>
      show win5_0.index t (0 : Fin 2) * 2000 + 1 * (j 0).val = win5_1.index t (0 : Fin 2) * 2000 + 1 * (j 0).val
      omega
    | ⟨1, _⟩ =>
      show win5_0.index t (1 : Fin 2) * 256 + 1 * (j 1).val = win5_1.index t (1 : Fin 2) * 256 + 1 * (j 1).val
      omega
  -- and the block's row through j is the array's row through j's place
  have hrow : ∀ k : Fin 256, iblk5 V c 0 t (ix2 (j 0) k)
      = V c main_v143 (ix2 ((((cfg5.win 1).blk t).view.emb j) 0) k) := fun k => by
    show V c main_v143 (((cfg5.win 0).blk t).view.emb (ix2 (j 0) k)) = _
    refine congrArg _ (funext fun a => Fin.ext ?_)
    match a with
    | ⟨0, _⟩ =>
      show win5_0.index t (0 : Fin 2) * 2000 + 1 * (j 0).val = win5_1.index t (0 : Fin 2) * 2000 + 1 * (j 0).val
      omega
    | ⟨1, _⟩ =>
      show win5_0.index t (1 : Fin 2) * 256 + 1 * k.val = k.val
      omega
  show rowNormalize (R := 2000) (iblk5 V c 0 t) j
    = rowNormalize (R := 50000) (V c main_v143) (((cfg5.win 1).blk t).view.emb j)
  simp only [rowNormalize, hself, hrow]

/-- An index of the output array is in point t's block iff each coordinate is in the block's range on its axis. -/
theorem mem_block (t : Fin cfg5.N) (i : S50000x256.Idx) :
    i ∈ ((cfg5.win 1).blk t).view.set ↔ ∀ a : Fin 2, win5_1.index t a * S2000x256.size a ≤ (i a).val
      ∧ (i a).val < win5_1.index t a * S2000x256.size a + S2000x256.size a := by
  show i ∈ ((View.whole main_v144).slice (win5_1.rect t)).set ↔ _
  rw [View.set_slice_whole, Rect.mem_set_unit]
  exact Iff.rfl

/-- Every entry of the output array is written by the point that takes its row's block. -/
theorem cover (i : S50000x256.Idx) :
    ∃ t : Fin cfg5.N, (cfg5.win 1).flush t = true ∧ i ∈ ((cfg5.win 1).blk t).view.set := by
  have hi0 : (i 0).val < 50000 := idx2_lt0 i
  have hi1 : (i 1).val < 256 := idx2_lt1 i
  obtain ⟨t, ht⟩ := block_onto ⟨(i 0).val / 2000, by omega⟩
  have q0 : win5_1.index t (0 : Fin 2) = (i 0).val / 2000 := congrFun ht 0
  have q1 : win5_1.index t (1 : Fin 2) = 0 := congrFun ht 1
  refine ⟨t, flush5_1 t, ?_⟩
  rw [mem_block]
  intro a
  match a with
  | ⟨0, _⟩ =>
    show win5_1.index t (0 : Fin 2) * 2000 ≤ (i 0).val ∧ (i 0).val < win5_1.index t (0 : Fin 2) * 2000 + 2000
    omega
  | ⟨1, _⟩ =>
    show win5_1.index t (1 : Fin 2) * 256 ≤ (i 1).val ∧ (i 1).val < win5_1.index t (1 : Fin 2) * 256 + 256
    omega

/-- After the region its output array is its input array, as the region found it, row-normalized. -/
theorem value (c : Dev nD) :
    (dat5 V c).arrAt 1 cfg5.N = rowNormalize (R := 50000) (V c main_v143) :=
  (dat5 V c).arrAt_eq_of_cover 1 _ (fun t _ => flushed V c t) cover

end Cert.KernelIdeal.Normalize2

end
-- ==== Proof.DenseStage.lean ====
/-
  A dense layer: rows times weights, plus a bias along the columns, then one function applied to every entry.

  `dense post x w b` has at (r, c) the value `post (prod x w (r, c) + b c)`. The last layer of the network is this with
  `post` the identity; the layer before it with `post` the exponential linear unit, `a` where `a > 0` and `exp a - 1`
  elsewhere, written as the select on the comparison that both programs compute (the two literal words, zero and one, are
  kept as words: the same word on both sides is never evaluated).
-/
import proofs.«111732_j62783831933365_2_alg».proof.Proof.RowsTimesWeights

noncomputable section

namespace Cert.DenseStage

open Idealize.ShloMosaic Idealize.ShloMosaic.ValueIdx Cert.RowsTimesWeights

variable {M K N : Nat}

/-- Rows times weights plus a bias along the columns, then `post` entry by entry. -/
def dense (post : EReal → EReal) (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => post (prod x w i + b (ix1 (i 1)))

/-- The exponential linear unit on one extended real: `a` where `a` is above the zero word's value, `exp a` minus the
    one word's value elsewhere. -/
def elu (a : EReal) : EReal :=
  Scalar.select (FloatOps.cmpf (F := Ideal) (φ := .f32) .ogt a (Ideal.ofBits .f32 0x00000000#32)) a
    (Ideal.exp a - Ideal.ofBits .f32 0x3F800000#32)

end Cert.DenseStage

end
-- ==== Proof.Dense1.lean ====
/-
  The first dense layer of the head (a kernel region), read as one function of whole arrays.

  The region's body takes one block of 2000 rows of its input array, the whole 256 × 256 weight array and the whole bias
  vector, and stores in the same block of rows of its output array the matrix unit's product into a zero accumulator,
  plus the bias broadcast down the rows, then the exponential linear unit entry by entry. The 25 grid points take the 25
  consecutive blocks of rows, so together they write every row of the output exactly once; an entry (r, c) of the result
  uses only row r of the input, column c of the weights and entry c of the bias. Hence after the region the output array
  is the dense layer of the input ARRAY.
-/
import proofs.«111732_j62783831933365_2_alg».proof.Proof.Gen.KernelIdeal.Frame
import proofs.«111732_j62783831933365_2_alg».proof.Proof.DenseStage
import Idealize.ShloMosaic.Lib.Pipeline.Value
import Idealize.ShloMosaic.Lib.ValueIdx
import Idealize.ShloMosaic.Lib.ValueLayout

set_option maxRecDepth 16384

noncomputable section

namespace Cert.KernelIdeal.Dense1

open Idealize.ShloMosaic Idealize.ShloMosaic.TcCoe Idealize.ShloMosaic.ValueIdx
open Idealize.ShloMosaic.Pipeline (Dat Cfg Window)
open Cert.KernelIdeal Cert.KernelIdeal.Gen Cert.RowsTimesWeights Cert.DenseStage

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- The body's arithmetic on a block of rows, the weights and the bias is their dense layer. -/
theorem payload (x0 : Vec Ideal S2000x256 .f32) (x1 : Vec Ideal S256x256 .bf16) (x2 : Vec Ideal S256 .f32) :
    k6_pay1 (F := Ideal) x0 x1 x2 = dense (M := 2000) (K := 256) (N := 256) elu x0 x1 x2 := by
  funext j
  obtain ⟨p, q, rfl⟩ : ∃ (p : Fin 2000) (q : Fin 256), j = ix2 p q := ⟨j 0, j 1, eq_ix2 j⟩
  have hb : broadcastTo S2000x256 (shapeCast S1x256 x2 shapeCasts_S256_S1x256) broadcasts_S1x256_S2000x256 (ix2 p q)
      = x2 (ix1 q) :=
    (broadcastTo_1b_ab_apply _ _ p q).trans (shapeCast_a_1a_apply x2 _ 0 q)
  have hm : (matmul (F := Ideal) (φ₁ := .bf16) (φ₂ := .bf16) dot_S2000x256_S256x256_S2000x256_1_0_0_1_n_n none
        (truncf .bf16 (shapeCast S2000x256 x0 shapeCasts_S2000x256_S2000x256 : FVec Ideal S2000x256 .f32) bitsLt_bf16_f32)
        (shapeCast S256x256 x1 shapeCasts_S256x256_S256x256 : FVec Ideal S256x256 .bf16)
        (constant (F := Ideal) S2000x256 .f32 0x00000000#32) : FVec Ideal S2000x256 .f32) (ix2 p q)
      = prod (M := 2000) (K := 256) (N := 256) x0 x1 (ix2 p q) := by
    rw [shapeCast_self, shapeCast_self]
    exact congrFun (matmul_plain_zero none _ _) _
  unfold k6_pay1 dense
  exact congrArg elu (congrArg₂ (· + ·) hm hb)

/-- The printed index maps over the grid: point t takes block t of the rows of the input and of the output, and the
    whole weight array and bias vector. -/
theorem index_maps : ∀ t : Fin cfg6.N, win6_0.index t (0 : Fin 2) = win6_3.index t (0 : Fin 2)
    ∧ win6_0.index t (1 : Fin 2) = 0 ∧ win6_1.index t (0 : Fin 2) = 0 ∧ win6_1.index t (1 : Fin 2) = 0
    ∧ win6_2.index t (0 : Fin 1) = 0 ∧ win6_3.index t (1 : Fin 2) = 0 :=
  (by decide +kernel : ∀ t : Fin grid6.N, _)

/-- Every block of rows is some point's. -/
theorem block_onto : ∀ q0 : Fin 25, ∃ t : Fin cfg6.N, win6_3.index t = ![q0.val, 0] :=
  (by decide +kernel : ∀ q0 : Fin 25, ∃ t : Fin grid6.N, win6_3.index t = ![q0.val, 0])

/-- What point t writes back is block t of the dense layer of the input array. -/
theorem flushed (c : Dev nD) (t : Fin cfg6.N) :
    (dat6 V c).flushed 3 t = ((cfg6.win 3).blk t).view.read (Elt Ideal)
      (dense (M := 50000) (K := 256) (N := 256) elu (V c main_v144) (V c main_v146) (V c main_arg9)) := by
  show (cfg6.win 3).cut (grid6.coords t) ((dat6 V c).after 3 t) = _
  rw [after6_3]
  unfold out6_3
  rw [View.canon_unit_zero origin]
  simp only [View.ld_unit_zero (S := S2000x256) origin, View.ld_unit_zero (S := S256x256) origin,
    View.ld_unit_zero (S := S256) origin1]
  rw [payload]
  obtain ⟨e0, e1, e2, e3, e4, e5⟩ := index_maps t
  funext j
  show dense (M := 2000) (K := 256) (N := 256) elu (iblk6 V c 0 t) (iblk6 V c 1 t) (iblk6 V c 2 t) j
    = dense (M := 50000) (K := 256) (N := 256) elu (V c main_v144) (V c main_v146) (V c main_arg9)
        (((cfg6.win 3).blk t).view.emb j)
  unfold dense
  refine congrArg elu (congrArg₂ (· + ·) ?_ ?_)
  · unfold prod
    refine Finset.sum_congr rfl fun k _ => ?_
    have hx : iblk6 V c 0 t (ix2 (j 0) k) = V c main_v144 (ix2 ((((cfg6.win 3).blk t).view.emb j) 0) k) := by
      show V c main_v144 (((cfg6.win 0).blk t).view.emb (ix2 (j 0) k)) = _
      refine congrArg _ (funext fun a => Fin.ext ?_)
      match a with
      | ⟨0, _⟩ =>
        show win6_0.index t (0 : Fin 2) * 2000 + 1 * (j 0).val = win6_3.index t (0 : Fin 2) * 2000 + 1 * (j 0).val
        omega
      | ⟨1, _⟩ =>
        show win6_0.index t (1 : Fin 2) * 256 + 1 * k.val = k.val
        omega
    have hw : iblk6 V c 1 t (ix2 k (j 1)) = V c main_v146 (ix2 k ((((cfg6.win 3).blk t).view.emb j) 1)) := by
      show V c main_v146 (((cfg6.win 1).blk t).view.emb (ix2 k (j 1))) = _
      refine congrArg _ (funext fun a => Fin.ext ?_)
      match a with
      | ⟨0, _⟩ =>
        show win6_1.index t (0 : Fin 2) * 256 + 1 * k.val = k.val
        omega
      | ⟨1, _⟩ =>
        show win6_1.index t (1 : Fin 2) * 256 + 1 * (j 1).val = win6_3.index t (1 : Fin 2) * 256 + 1 * (j 1).val
        omega
    rw [hx, hw]
  · show V c main_arg9 (((cfg6.win 2).blk t).view.emb (ix1 (j 1))) = V c main_arg9 (ix1 ((((cfg6.win 3).blk t).view.emb j) 1))
    refine congrArg _ (funext fun a => Fin.ext ?_)
    match a with
    | ⟨0, _⟩ =>
      show win6_2.index t (0 : Fin 1) * 256 + 1 * (j 1).val = win6_3.index t (1 : Fin 2) * 256 + 1 * (j 1).val
      omega

/-- An index of the output array is in point t's block iff each coordinate is in the block's range on its axis. -/
theorem mem_block (t : Fin cfg6.N) (i : S50000x256.Idx) :
    i ∈ ((cfg6.win 3).blk t).view.set ↔ ∀ a : Fin 2, win6_3.index t a * S2000x256.size a ≤ (i a).val
      ∧ (i a).val < win6_3.index t a * S2000x256.size a + S2000x256.size a := by
  show i ∈ ((View.whole main_v147).slice (win6_3.rect t)).set ↔ _
  rw [View.set_slice_whole, Rect.mem_set_unit]
  exact Iff.rfl

/-- Every entry of the output array is written by the point that takes its row's block. -/
theorem cover (i : S50000x256.Idx) :
    ∃ t : Fin cfg6.N, (cfg6.win 3).flush t = true ∧ i ∈ ((cfg6.win 3).blk t).view.set := by
  have hi0 : (i 0).val < 50000 := idx2_lt0 i
  have hi1 : (i 1).val < 256 := idx2_lt1 i
  obtain ⟨t, ht⟩ := block_onto ⟨(i 0).val / 2000, by omega⟩
  have q0 : win6_3.index t (0 : Fin 2) = (i 0).val / 2000 := congrFun ht 0
  have q1 : win6_3.index t (1 : Fin 2) = 0 := congrFun ht 1
  refine ⟨t, flush6_3 t, ?_⟩
  rw [mem_block]
  intro a
  match a with
  | ⟨0, _⟩ =>
    show win6_3.index t (0 : Fin 2) * 2000 ≤ (i 0).val ∧ (i 0).val < win6_3.index t (0 : Fin 2) * 2000 + 2000
    omega
  | ⟨1, _⟩ =>
    show win6_3.index t (1 : Fin 2) * 256 ≤ (i 1).val ∧ (i 1).val < win6_3.index t (1 : Fin 2) * 256 + 256
    omega

/-- After the region its output array is the dense layer of its input array, weight array and bias vector, as the
    region found them. -/
theorem value (c : Dev nD) :
    (dat6 V c).arrAt 3 cfg6.N
      = dense (M := 50000) (K := 256) (N := 256) elu (V c main_v144) (V c main_v146) (V c main_arg9) :=
  (dat6 V c).arrAt_eq_of_cover 3 _ (fun t _ => flushed V c t) cover

end Cert.KernelIdeal.Dense1

end
-- ==== Proof.Dense2.lean ====
/-
  The last dense layer of the head (a kernel region), read as one function of whole arrays.

  The region's body takes one block of 2000 rows of its input array, the whole 256 × 256 weight array and the whole bias
  vector, and stores in the same block of rows of its output array the matrix unit's product into a zero accumulator,
  plus the bias broadcast down the rows. The 25 grid points take the 25
  consecutive blocks of rows, so together they write every row of the output exactly once; an entry (r, c) of the result
  uses only row r of the input, column c of the weights and entry c of the bias. Hence after the region the output array
  is the dense layer of the input ARRAY.
-/
import proofs.«111732_j62783831933365_2_alg».proof.Proof.Gen.KernelIdeal.Frame
import proofs.«111732_j62783831933365_2_alg».proof.Proof.DenseStage
import Idealize.ShloMosaic.Lib.Pipeline.Value
import Idealize.ShloMosaic.Lib.ValueIdx
import Idealize.ShloMosaic.Lib.ValueLayout

set_option maxRecDepth 16384

noncomputable section

namespace Cert.KernelIdeal.Dense2

open Idealize.ShloMosaic Idealize.ShloMosaic.TcCoe Idealize.ShloMosaic.ValueIdx
open Idealize.ShloMosaic.Pipeline (Dat Cfg Window)
open Cert.KernelIdeal Cert.KernelIdeal.Gen Cert.RowsTimesWeights Cert.DenseStage

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- The body's arithmetic on a block of rows, the weights and the bias is their dense layer. -/
theorem payload (x0 : Vec Ideal S2000x256 .f32) (x1 : Vec Ideal S256x256 .bf16) (x2 : Vec Ideal S256 .f32) :
    k7_pay1 (F := Ideal) x0 x1 x2 = dense (M := 2000) (K := 256) (N := 256) (fun a => a) x0 x1 x2 := by
  funext j
  obtain ⟨p, q, rfl⟩ : ∃ (p : Fin 2000) (q : Fin 256), j = ix2 p q := ⟨j 0, j 1, eq_ix2 j⟩
  have hb : broadcastTo S2000x256 (shapeCast S1x256 x2 shapeCasts_S256_S1x256) broadcasts_S1x256_S2000x256 (ix2 p q)
      = x2 (ix1 q) :=
    (broadcastTo_1b_ab_apply _ _ p q).trans (shapeCast_a_1a_apply x2 _ 0 q)
  have hm : (matmul (F := Ideal) (φ₁ := .bf16) (φ₂ := .bf16) dot_S2000x256_S256x256_S2000x256_1_0_0_1_n_n none
        (truncf .bf16 (shapeCast S2000x256 x0 shapeCasts_S2000x256_S2000x256 : FVec Ideal S2000x256 .f32) bitsLt_bf16_f32)
        (shapeCast S256x256 x1 shapeCasts_S256x256_S256x256 : FVec Ideal S256x256 .bf16)
        (constant (F := Ideal) S2000x256 .f32 0x00000000#32) : FVec Ideal S2000x256 .f32) (ix2 p q)
      = prod (M := 2000) (K := 256) (N := 256) x0 x1 (ix2 p q) := by
    rw [shapeCast_self, shapeCast_self]
    exact congrFun (matmul_plain_zero none _ _) _
  unfold k7_pay1 dense
  exact congrArg (fun a => a) (congrArg₂ (· + ·) hm hb)

/-- The printed index maps over the grid: point t takes block t of the rows of the input and of the output, and the
    whole weight array and bias vector. -/
theorem index_maps : ∀ t : Fin cfg7.N, win7_0.index t (0 : Fin 2) = win7_3.index t (0 : Fin 2)
    ∧ win7_0.index t (1 : Fin 2) = 0 ∧ win7_1.index t (0 : Fin 2) = 0 ∧ win7_1.index t (1 : Fin 2) = 0
    ∧ win7_2.index t (0 : Fin 1) = 0 ∧ win7_3.index t (1 : Fin 2) = 0 :=
  (by decide +kernel : ∀ t : Fin grid7.N, _)

/-- Every block of rows is some point's. -/
theorem block_onto : ∀ q0 : Fin 25, ∃ t : Fin cfg7.N, win7_3.index t = ![q0.val, 0] :=
  (by decide +kernel : ∀ q0 : Fin 25, ∃ t : Fin grid7.N, win7_3.index t = ![q0.val, 0])

/-- What point t writes back is block t of the dense layer of the input array. -/
theorem flushed (c : Dev nD) (t : Fin cfg7.N) :
    (dat7 V c).flushed 3 t = ((cfg7.win 3).blk t).view.read (Elt Ideal)
      (dense (M := 50000) (K := 256) (N := 256) (fun a => a) (V c main_v147) (V c main_v149) (V c main_arg11)) := by
  show (cfg7.win 3).cut (grid7.coords t) ((dat7 V c).after 3 t) = _
  rw [after7_3]
  unfold out7_3
  rw [View.canon_unit_zero origin]
  simp only [View.ld_unit_zero (S := S2000x256) origin, View.ld_unit_zero (S := S256x256) origin,
    View.ld_unit_zero (S := S256) origin1]
  rw [payload]
  obtain ⟨e0, e1, e2, e3, e4, e5⟩ := index_maps t
  funext j
  show dense (M := 2000) (K := 256) (N := 256) (fun a => a) (iblk7 V c 0 t) (iblk7 V c 1 t) (iblk7 V c 2 t) j
    = dense (M := 50000) (K := 256) (N := 256) (fun a => a) (V c main_v147) (V c main_v149) (V c main_arg11)
        (((cfg7.win 3).blk t).view.emb j)
  unfold dense
  refine congrArg (fun a => a) (congrArg₂ (· + ·) ?_ ?_)
  · unfold prod
    refine Finset.sum_congr rfl fun k _ => ?_
    have hx : iblk7 V c 0 t (ix2 (j 0) k) = V c main_v147 (ix2 ((((cfg7.win 3).blk t).view.emb j) 0) k) := by
      show V c main_v147 (((cfg7.win 0).blk t).view.emb (ix2 (j 0) k)) = _
      refine congrArg _ (funext fun a => Fin.ext ?_)
      match a with
      | ⟨0, _⟩ =>
        show win7_0.index t (0 : Fin 2) * 2000 + 1 * (j 0).val = win7_3.index t (0 : Fin 2) * 2000 + 1 * (j 0).val
        omega
      | ⟨1, _⟩ =>
        show win7_0.index t (1 : Fin 2) * 256 + 1 * k.val = k.val
        omega
    have hw : iblk7 V c 1 t (ix2 k (j 1)) = V c main_v149 (ix2 k ((((cfg7.win 3).blk t).view.emb j) 1)) := by
      show V c main_v149 (((cfg7.win 1).blk t).view.emb (ix2 k (j 1))) = _
      refine congrArg _ (funext fun a => Fin.ext ?_)
      match a with
      | ⟨0, _⟩ =>
        show win7_1.index t (0 : Fin 2) * 256 + 1 * k.val = k.val
        omega
      | ⟨1, _⟩ =>
        show win7_1.index t (1 : Fin 2) * 256 + 1 * (j 1).val = win7_3.index t (1 : Fin 2) * 256 + 1 * (j 1).val
        omega
    rw [hx, hw]
  · show V c main_arg11 (((cfg7.win 2).blk t).view.emb (ix1 (j 1))) = V c main_arg11 (ix1 ((((cfg7.win 3).blk t).view.emb j) 1))
    refine congrArg _ (funext fun a => Fin.ext ?_)
    match a with
    | ⟨0, _⟩ =>
      show win7_2.index t (0 : Fin 1) * 256 + 1 * (j 1).val = win7_3.index t (1 : Fin 2) * 256 + 1 * (j 1).val
      omega

/-- An index of the output array is in point t's block iff each coordinate is in the block's range on its axis. -/
theorem mem_block (t : Fin cfg7.N) (i : S50000x256.Idx) :
    i ∈ ((cfg7.win 3).blk t).view.set ↔ ∀ a : Fin 2, win7_3.index t a * S2000x256.size a ≤ (i a).val
      ∧ (i a).val < win7_3.index t a * S2000x256.size a + S2000x256.size a := by
  show i ∈ ((View.whole main_v150).slice (win7_3.rect t)).set ↔ _
  rw [View.set_slice_whole, Rect.mem_set_unit]
  exact Iff.rfl

/-- Every entry of the output array is written by the point that takes its row's block. -/
theorem cover (i : S50000x256.Idx) :
    ∃ t : Fin cfg7.N, (cfg7.win 3).flush t = true ∧ i ∈ ((cfg7.win 3).blk t).view.set := by
  have hi0 : (i 0).val < 50000 := idx2_lt0 i
  have hi1 : (i 1).val < 256 := idx2_lt1 i
  obtain ⟨t, ht⟩ := block_onto ⟨(i 0).val / 2000, by omega⟩
  have q0 : win7_3.index t (0 : Fin 2) = (i 0).val / 2000 := congrFun ht 0
  have q1 : win7_3.index t (1 : Fin 2) = 0 := congrFun ht 1
  refine ⟨t, flush7_3 t, ?_⟩
  rw [mem_block]
  intro a
  match a with
  | ⟨0, _⟩ =>
    show win7_3.index t (0 : Fin 2) * 2000 ≤ (i 0).val ∧ (i 0).val < win7_3.index t (0 : Fin 2) * 2000 + 2000
    omega
  | ⟨1, _⟩ =>
    show win7_3.index t (1 : Fin 2) * 256 ≤ (i 1).val ∧ (i 1).val < win7_3.index t (1 : Fin 2) * 256 + 256
    omega

/-- After the region its output array is the dense layer of its input array, weight array and bias vector, as the
    region found them. -/
theorem value (c : Dev nD) :
    (dat7 V c).arrAt 3 cfg7.N
      = dense (M := 50000) (K := 256) (N := 256) (fun a => a) (V c main_v147) (V c main_v149) (V c main_arg11) :=
  (dat7 V c).arrAt_eq_of_cover 3 _ (fun t _ => flushed V c t) cover

end Cert.KernelIdeal.Dense2

end
-- ==== Proof.AggregateDef.lean ====
/- One graph layer's aggregation as a function of the layer's input rows `h`, the edges' source and destination
   vertices, and the bias: the degree of each vertex counted by a scatter-add of ones at the destinations `dstDeg` into
   zeros, plus one; its reciprocal square root `r`; each edge's coefficient `r[src] * r[dst]` (both index vectors first
   wrapped, a negative index `i` read as `i + 50000`); the messages `h[src] * coefficient` added into zeros at the rows
   `dst`; plus the vertex's own row `h * (r * r)`; plus the bias. The destinations the degree count reads are a parameter
   of their own, apart from the destinations the coefficients and the messages read. Each line is one host operation's
   function, spelt as the kernel program's launch module spells it in `hostOps1`, applied to the values of the buffers
   it reads; the value is the last line's. 53 operations. -/
import proofs.«111732_j62783831933365_2_alg».proof.Proof.Gen.KernelIdeal

noncomputable section

namespace Cert.Aggregate

open Cert.KernelIdeal Cert.KernelIdeal.Gen Idealize.ShloMosaic Idealize.SL.Sem

variable {F : FTy → Type} [FloatOps F]

/-- One layer's aggregation (see the head of this file). -/
def aggregate (h : FVec F S50000x256 .f32) (src dst dstDeg : IVec S800000 32) (b : FVec F S256 .f32) :
    FVec F S50000x256 .f32 :=
  let a_cst : (⟨S_, .f32⟩ : BufTy).Contents (Elt F) := (constant S_ .f32 0x3F800000#32)
  let a_v7 : (⟨S800000, .f32⟩ : BufTy).Contents (Elt F) := (broadcastInDim S800000 ![] bcast_S_S800000 : (⟨S_, .f32⟩ : BufTy).Contents (Elt F) → (⟨S800000, .f32⟩ : BufTy).Contents (Elt F)) a_cst
  let a_cst_0 : (⟨S_, .f32⟩ : BufTy).Contents (Elt F) := (constant S_ .f32 0x00000000#32)
  let a_v8 : (⟨S50000, .f32⟩ : BufTy).Contents (Elt F) := (broadcastInDim S50000 ![] bcast_S_S50000 : (⟨S_, .f32⟩ : BufTy).Contents (Elt F) → (⟨S50000, .f32⟩ : BufTy).Contents (Elt F)) a_cst_0
  let a_v9 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) dstDeg
  let a_v10 : (⟨S50000, .f32⟩ : BufTy).Contents (Elt F) := ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) a_v8 a_v9 a_v7
  let a_cst_1 : (⟨S_, .f32⟩ : BufTy).Contents (Elt F) := (constant S_ .f32 0x3F800000#32)
  let a_v11 : (⟨S50000, .f32⟩ : BufTy).Contents (Elt F) := (broadcastInDim S50000 ![] bcast_S_S50000 : (⟨S_, .f32⟩ : BufTy).Contents (Elt F) → (⟨S50000, .f32⟩ : BufTy).Contents (Elt F)) a_cst_1
  let a_v12 : (⟨S50000, .f32⟩ : BufTy).Contents (Elt F) := (addf : (⟨S50000, .f32⟩ : BufTy).Contents (Elt F) → (⟨S50000, .f32⟩ : BufTy).Contents (Elt F) → (⟨S50000, .f32⟩ : BufTy).Contents (Elt F)) a_v10 a_v11
  let a_v13 : (⟨S50000, .f32⟩ : BufTy).Contents (Elt F) := (Host.rsqrt : (⟨S50000, .f32⟩ : BufTy).Contents (Elt F) → (⟨S50000, .f32⟩ : BufTy).Contents (Elt F)) a_v12
  let a_c : (⟨S_, .i32⟩ : BufTy).Contents (Elt F) := (constantI S_ 32 0#32)
  let a_v14 : (⟨S800000, .i32⟩ : BufTy).Contents (Elt F) := (broadcastInDim S800000 ![] bcast_S_S800000 : (⟨S_, .i32⟩ : BufTy).Contents (Elt F) → (⟨S800000, .i32⟩ : BufTy).Contents (Elt F)) a_c
  let a_v15 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) src a_v14
  let a_c_2 : (⟨S_, .i32⟩ : BufTy).Contents (Elt F) := (constantI S_ 32 50000#32)
  let a_v16 : (⟨S800000, .i32⟩ : BufTy).Contents (Elt F) := (broadcastInDim S800000 ![] bcast_S_S800000 : (⟨S_, .i32⟩ : BufTy).Contents (Elt F) → (⟨S800000, .i32⟩ : BufTy).Contents (Elt F)) a_c_2
  let a_v17 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) src a_v16
  let a_v18 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) a_v15 a_v17 src
  let a_v19 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) a_v18
  let a_v20 : (⟨S800000, .f32⟩ : BufTy).Contents (Elt F) := ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) a_v13 a_v19
  let a_c_3 : (⟨S_, .i32⟩ : BufTy).Contents (Elt F) := (constantI S_ 32 0#32)
  let a_v21 : (⟨S800000, .i32⟩ : BufTy).Contents (Elt F) := (broadcastInDim S800000 ![] bcast_S_S800000 : (⟨S_, .i32⟩ : BufTy).Contents (Elt F) → (⟨S800000, .i32⟩ : BufTy).Contents (Elt F)) a_c_3
  let a_v22 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) dst a_v21
  let a_c_4 : (⟨S_, .i32⟩ : BufTy).Contents (Elt F) := (constantI S_ 32 50000#32)
  let a_v23 : (⟨S800000, .i32⟩ : BufTy).Contents (Elt F) := (broadcastInDim S800000 ![] bcast_S_S800000 : (⟨S_, .i32⟩ : BufTy).Contents (Elt F) → (⟨S800000, .i32⟩ : BufTy).Contents (Elt F)) a_c_4
  let a_v24 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) dst a_v23
  let a_v25 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) a_v22 a_v24 dst
  let a_v26 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) a_v25
  let a_v27 : (⟨S800000, .f32⟩ : BufTy).Contents (Elt F) := ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) a_v13 a_v26
  let a_v28 : (⟨S800000, .f32⟩ : BufTy).Contents (Elt F) := (mulf : (⟨S800000, .f32⟩ : BufTy).Contents (Elt F) → (⟨S800000, .f32⟩ : BufTy).Contents (Elt F) → (⟨S800000, .f32⟩ : BufTy).Contents (Elt F)) a_v20 a_v27
  let a_c_5 : (⟨S_, .i32⟩ : BufTy).Contents (Elt F) := (constantI S_ 32 0#32)
  let a_v29 : (⟨S800000, .i32⟩ : BufTy).Contents (Elt F) := (broadcastInDim S800000 ![] bcast_S_S800000 : (⟨S_, .i32⟩ : BufTy).Contents (Elt F) → (⟨S800000, .i32⟩ : BufTy).Contents (Elt F)) a_c_5
  let a_v30 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) src a_v29
  let a_c_6 : (⟨S_, .i32⟩ : BufTy).Contents (Elt F) := (constantI S_ 32 50000#32)
  let a_v31 : (⟨S800000, .i32⟩ : BufTy).Contents (Elt F) := (broadcastInDim S800000 ![] bcast_S_S800000 : (⟨S_, .i32⟩ : BufTy).Contents (Elt F) → (⟨S800000, .i32⟩ : BufTy).Contents (Elt F)) a_c_6
  let a_v32 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) src a_v31
  let a_v33 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) a_v30 a_v32 src
  let a_v34 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) a_v33
  let a_v35 : (⟨S800000x256, .f32⟩ : BufTy).Contents (Elt F) := ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) h a_v34
  let a_v36 : (⟨S800000x1, .f32⟩ : BufTy).Contents (Elt F) := (broadcastInDim S800000x1 ![0] bcast_S800000_S800000x1_0 : (⟨S800000, .f32⟩ : BufTy).Contents (Elt F) → (⟨S800000x1, .f32⟩ : BufTy).Contents (Elt F)) a_v28
  let a_v37 : (⟨S800000x256, .f32⟩ : BufTy).Contents (Elt F) := (broadcastInDim S800000x256 ![0, 1] bcast_S800000x1_S800000x256_0_1 : (⟨S800000x1, .f32⟩ : BufTy).Contents (Elt F) → (⟨S800000x256, .f32⟩ : BufTy).Contents (Elt F)) a_v36
  let a_v38 : (⟨S800000x256, .f32⟩ : BufTy).Contents (Elt F) := (mulf : (⟨S800000x256, .f32⟩ : BufTy).Contents (Elt F) → (⟨S800000x256, .f32⟩ : BufTy).Contents (Elt F) → (⟨S800000x256, .f32⟩ : BufTy).Contents (Elt F)) a_v35 a_v37
  let a_cst_7 : (⟨S_, .f32⟩ : BufTy).Contents (Elt F) := (constant S_ .f32 0x00000000#32)
  let a_v39 : (⟨S50000x256, .f32⟩ : BufTy).Contents (Elt F) := (broadcastInDim S50000x256 ![] bcast_S_S50000x256 : (⟨S_, .f32⟩ : BufTy).Contents (Elt F) → (⟨S50000x256, .f32⟩ : BufTy).Contents (Elt F)) a_cst_7
  let a_v40 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) dst
  let a_v41 : (⟨S50000x256, .f32⟩ : BufTy).Contents (Elt F) := ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) a_v39 a_v40 a_v38
  let a_v42 : (⟨S50000, .f32⟩ : BufTy).Contents (Elt F) := (mulf : (⟨S50000, .f32⟩ : BufTy).Contents (Elt F) → (⟨S50000, .f32⟩ : BufTy).Contents (Elt F) → (⟨S50000, .f32⟩ : BufTy).Contents (Elt F)) a_v13 a_v13
  let a_v43 : (⟨S50000x1, .f32⟩ : BufTy).Contents (Elt F) := (broadcastInDim S50000x1 ![0] bcast_S50000_S50000x1_0 : (⟨S50000, .f32⟩ : BufTy).Contents (Elt F) → (⟨S50000x1, .f32⟩ : BufTy).Contents (Elt F)) a_v42
  let a_v44 : (⟨S50000x256, .f32⟩ : BufTy).Contents (Elt F) := (broadcastInDim S50000x256 ![0, 1] bcast_S50000x1_S50000x256_0_1 : (⟨S50000x1, .f32⟩ : BufTy).Contents (Elt F) → (⟨S50000x256, .f32⟩ : BufTy).Contents (Elt F)) a_v43
  let a_v45 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) h a_v44
  let a_v46 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) a_v41 a_v45
  let a_v47 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) b
  let a_v48 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) a_v47
  let a_v49 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) a_v46 a_v48
  a_v49

end Cert.Aggregate

end
-- ==== Proof.Aggregate.lean ====
/- The kernel program's three stretches of host operations between its launches — one for each graph layer — compute one
   function of the layer's input rows, the edges' two index vectors and the bias: `Cert.Aggregate.aggregate`
   (AggregateDef.lean), with the destinations of the degree count the same vector as the destinations of the messages.
   Each stretch is a straight line of 53 operations; the buffer of its last operation holds, after the line, the
   operations' functions composed along the buffers (each operation's result read at the operations that consume it),
   which is the function's definition read at the stretch's own buffers. -/
import proofs.«111732_j62783831933365_2_alg».proof.Proof.AggregateDef
import proofs.«111732_j62783831933365_2_alg».proof.Proof.Gen.KernelIdeal.Launch
import Idealize.ShloMosaic.Lib.StableHlo.Run

noncomputable section

namespace Cert.Aggregate

open Cert.KernelIdeal Cert.KernelIdeal.Gen Idealize.ShloMosaic Idealize.ShloMosaic.TcCoe Idealize.SL.Sem Idealize.ShloMosaic.StableHlo

variable {F : FTy → Type} [FloatOps F]

/-! ## The kernel program's three stretches -/

set_option maxRecDepth 8192 in
set_option maxHeartbeats 4000000 in
theorem stretch1 (W : Valuation τ sig (Elt F)) :
    StableHlo.after (hostOps1 : List (HloOp τ sig (Elt F))) W (Proc.devRef .tc main_v49)
      = aggregate (W (Proc.devRef .tc main_v6)) (W (Proc.devRef .tc main_v1)) (W (Proc.devRef .tc main_v3))
          (W (Proc.devRef .tc main_v3)) (W (Proc.devRef .tc main_arg3)) := by
  simp only [hostOps1]
  after_results_simp
  rfl

set_option maxRecDepth 8192 in
set_option maxHeartbeats 4000000 in
theorem stretch3 (W : Valuation τ sig (Elt F)) :
    StableHlo.after (hostOps3 : List (HloOp τ sig (Elt F))) W (Proc.devRef .tc main_v96)
      = aggregate (W (Proc.devRef .tc main_v53)) (W (Proc.devRef .tc main_v1)) (W (Proc.devRef .tc main_v3))
          (W (Proc.devRef .tc main_v3)) (W (Proc.devRef .tc main_arg5)) := by
  simp only [hostOps3]
  after_results_simp
  rfl

set_option maxRecDepth 8192 in
set_option maxHeartbeats 4000000 in
theorem stretch5 (W : Valuation τ sig (Elt F)) :
    StableHlo.after (hostOps5 : List (HloOp τ sig (Elt F))) W (Proc.devRef .tc main_v143)
      = aggregate (W (Proc.devRef .tc main_v100)) (W (Proc.devRef .tc main_v1)) (W (Proc.devRef .tc main_v3))
          (W (Proc.devRef .tc main_v3)) (W (Proc.devRef .tc main_arg7)) := by
  simp only [hostOps5]
  after_results_simp
  rfl

end Cert.Aggregate

end
-- ==== Proof.Network.lean ====
/-
  The whole computation, once.

  From the node features `x`, the edge list `e` (its first row the source nodes, its second the destination nodes) and the
  weights and biases: three graph layers, then two dense layers. A graph layer multiplies the rows by the transposed
  weights, aggregates over the edges (the shared chain `aggregate`: degrees counted over the destination nodes, messages
  scaled by the inverse square roots of the two end points' degrees and summed into their destinations, the self-loop term
  and the bias added), and clips and normalizes every row. The dense layers are rows times transposed weights plus bias,
  the first followed by the exponential linear unit.

  The one thing the two programs do differently is the index vector at which the degrees are counted: the kernel's program
  counts at the destination nodes as given, the reference at the destination nodes with a negative index moved up by the
  number of nodes. `norm` is that choice; everything else is common.
-/
import proofs.«111732_j62783831933365_2_alg».proof.Proof.Aggregate
import proofs.«111732_j62783831933365_2_alg».proof.Proof.RowNormalize
import proofs.«111732_j62783831933365_2_alg».proof.Proof.DenseStage

noncomputable section

namespace Cert.Network

open Idealize.ShloMosaic Idealize.ShloMosaic.ValueIdx
open Cert.KernelIdeal Cert.KernelIdeal.Gen
open Cert.RowsTimesWeights Cert.DenseStage Cert.RowNormalize Cert.Aggregate

/-- The source nodes of the edges: the first row of the edge list. -/
def src (e : IVec S2x800000 32) : IVec S800000 32 :=
  shapeCast S800000 (extractStridedSlice S1x800000 ![0, 0] e slices_S2x800000_S1x800000_0_0) shapeCasts_S1x800000_S800000

/-- The destination nodes of the edges: the second row of the edge list. -/
def dst (e : IVec S2x800000 32) : IVec S800000 32 :=
  shapeCast S800000 (extractStridedSlice S1x800000 ![1, 0] e slices_S2x800000_S1x800000_1_0) shapeCasts_S1x800000_S800000

/-- An index vector with every negative index moved up by the number of nodes (the way an array library reads a negative
    index from the end). -/
def normalize (d : IVec S800000 32) : IVec S800000 32 :=
  select (cmpi .slt d (broadcastInDim S800000 ![] bcast_S_S800000 (constantI S_ 32 0#32)))
    (addi d (broadcastInDim S800000 ![] bcast_S_S800000 (constantI S_ 32 50000#32))) d

/-- One graph layer on already transposed weights. -/
def layer {K : Nat} (norm : IVec S800000 32 → IVec S800000 32) (x : (⟨2, ![50000, K]⟩ : Shape).Idx → EReal)
    (wT : (⟨2, ![K, 256]⟩ : Shape).Idx → EReal) (e : IVec S2x800000 32) (b : FVec Ideal S256 .f32) :
    (⟨2, ![50000, 256]⟩ : Shape).Idx → EReal :=
  rowNormalize (R := 50000)
    (aggregate (F := Ideal) (prod (M := 50000) (K := K) (N := 256) x wT) (src e) (dst e) (norm (dst e)) b)

/-- The network: three graph layers and the two dense layers of the head. -/
def net (norm : IVec S800000 32 → IVec S800000 32) (x : FVec Ideal S50000x2613 .f32) (e : IVec S2x800000 32)
    (wg0 : FVec Ideal S256x2613 .f32) (bg0 : FVec Ideal S256 .f32) (wg1 : FVec Ideal S256x256 .f32) (bg1 : FVec Ideal S256 .f32)
    (wg2 : FVec Ideal S256x256 .f32) (bg2 : FVec Ideal S256 .f32) (w1 : FVec Ideal S256x256 .f32) (b1 : FVec Ideal S256 .f32)
    (w2 : FVec Ideal S256x256 .f32) (b2 : FVec Ideal S256 .f32) : (⟨2, ![50000, 256]⟩ : Shape).Idx → EReal :=
  dense (M := 50000) (K := 256) (N := 256) (fun a => a)
    (dense (M := 50000) (K := 256) (N := 256) elu
      (layer norm
        (layer norm
          (layer norm x (transpose S2613x256 [1, 0] wg0 transposes_S256x2613_S2613x256_1_0) e bg0)
          (transpose S256x256 [1, 0] wg1 transposes_S256x256_S256x256_1_0) e bg1)
        (transpose S256x256 [1, 0] wg2 transposes_S256x256_S256x256_1_0) e bg2)
      (transpose S256x256 [1, 0] w1 transposes_S256x256_S256x256_1_0) b1)
    (transpose S256x256 [1, 0] w2 transposes_S256x256_S256x256_1_0) b2

end Cert.Network

end
-- ==== Proof.KernelValue.lean ====
/-
  What the kernel program's result buffer holds: the network, with the degrees counted at the destination nodes as given.

  The run is a fold of sixteen steps over the launch memory. Going up the fold, each theorem names what one buffer holds
  after one step, as a function of the argument arrays: after the first stretch the two rows of the edge list and the
  first transposed weight array; after the first region the first projection; after the second stretch its aggregate over
  the edges; after the second region that aggregate clipped and normalized, which is the first graph layer; and so on
  through the three graph layers and the two dense layers. A stretch is read with the operations' own terms, a region with
  its whole-array value, and a buffer that nothing writes in between is walked back to where it was written.
-/
import proofs.«111732_j62783831933365_2_alg».proof.Proof.KernelWalk
import proofs.«111732_j62783831933365_2_alg».proof.Proof.Project0
import proofs.«111732_j62783831933365_2_alg».proof.Proof.Project1
import proofs.«111732_j62783831933365_2_alg».proof.Proof.Project2
import proofs.«111732_j62783831933365_2_alg».proof.Proof.Normalize0
import proofs.«111732_j62783831933365_2_alg».proof.Proof.Normalize1
import proofs.«111732_j62783831933365_2_alg».proof.Proof.Normalize2
import proofs.«111732_j62783831933365_2_alg».proof.Proof.Dense1
import proofs.«111732_j62783831933365_2_alg».proof.Proof.Dense2
import proofs.«111732_j62783831933365_2_alg».proof.Proof.Network
import Idealize.ShloMosaic.Lib.StableHlo.Run

set_option maxRecDepth 16384

noncomputable section

namespace Cert.KernelIdeal.KValue

open Idealize.ShloMosaic Idealize.ShloMosaic.TcCoe Idealize.ShloMosaic.ValueIdx
open Cert.KernelIdeal Cert.KernelIdeal.Gen Cert.KernelIdeal.Walk
open Cert.RowsTimesWeights Cert.DenseStage Cert.RowNormalize Cert.Aggregate Cert.Network

variable (m : (ℓ : Loc nD τ sig) → Buf (Elt Ideal) ℓ) (ρ : Dev nD → PrngReg) (c : Dev nD)

/-- An argument array as launched. -/
abbrev arg (k : Ref sig .tc) : Buf (Elt Ideal) ((c : Thread nD τ).loc k) := m ((c : Thread nD τ).loc k)

/-! ## Before the first region -/

/-- After the first stretch: the source nodes. -/
theorem src1 : W1 m ρ c (Proc.devRef .tc main_v1) = src (arg m c main_arg1) := by
  show StableHlo.after (hostOps0 : List (HloOp τ sig (Elt Ideal))) (W0 m ρ c) (Proc.devRef .tc main_v1) = _
  simp only [hostOps0]
  after_results_simp
  rfl

/-- After the first stretch: the destination nodes. -/
theorem dst1 : W1 m ρ c (Proc.devRef .tc main_v3) = dst (arg m c main_arg1) := by
  show StableHlo.after (hostOps0 : List (HloOp τ sig (Elt Ideal))) (W0 m ρ c) (Proc.devRef .tc main_v3) = _
  simp only [hostOps0]
  after_results_simp
  rfl

/-- After stretch 0: the first weight array transposed (and narrowed, which at the ideal instance changes nothing). -/
theorem wT0 : W1 m ρ c (Proc.devRef .tc main_v5)
    = (truncf .bf16 (transpose S2613x256 [1, 0] (arg m c main_arg2) transposes_S256x2613_S2613x256_1_0 : FVec Ideal S2613x256 .f32) bitsLt_bf16_f32 : FVec Ideal S2613x256 .bf16) := by
  have h : W1 m ρ c (Proc.devRef .tc main_v5)
      = (truncf .bf16 (transpose S2613x256 [1, 0] (W0 m ρ c (Proc.devRef .tc main_arg2)) transposes_S256x2613_S2613x256_1_0 : FVec Ideal S2613x256 .f32) bitsLt_bf16_f32 : FVec Ideal S2613x256 .bf16) := by
    show StableHlo.after (hostOps0 : List (HloOp τ sig (Elt Ideal))) (W0 m ρ c) (Proc.devRef .tc main_v5) = _
    simp only [hostOps0]
    after_results_simp
  rw [h]

/-! ## The first graph layer -/

/-- After the first region: the first projection. -/
theorem proj0 : W2 m ρ c (Proc.devRef .tc main_v6) = (prod (M := 50000) (K := 2613) (N := 256) (arg m c main_arg0) (transpose S2613x256 [1, 0] (arg m c main_arg2) transposes_S256x2613_S2613x256_1_0)) := by
  refine (W2_arr m ρ c 2).trans ((Cert.KernelIdeal.Project0.value (V1 m ρ) c).trans ?_)
  show prod (M := 50000) (K := 2613) (N := 256) (W1 m ρ c (Proc.devRef .tc main_arg0)) (W1 m ρ c (Proc.devRef .tc main_v5)) = _
  rw [x_at0 m ρ c, wT0 m ρ c]
  rfl

/-- After the second stretch: the first projection aggregated over the edges. -/
theorem agg0 : W3 m ρ c (Proc.devRef .tc main_v49) = (aggregate (F := Ideal) (prod (M := 50000) (K := 2613) (N := 256) (arg m c main_arg0) (transpose S2613x256 [1, 0] (arg m c main_arg2) transposes_S256x2613_S2613x256_1_0)) (src (arg m c main_arg1)) (dst (arg m c main_arg1)) (dst (arg m c main_arg1)) (arg m c main_arg3)) := by
  show StableHlo.after (hostOps1 : List (HloOp τ sig (Elt Ideal))) (W2 m ρ c) (Proc.devRef .tc main_v49) = _
  rw [stretch1, proj0 m ρ c, src_at2 m ρ c, dst_at2 m ρ c, src1 m ρ c, dst1 m ρ c, bg0_at2 m ρ c]

/-- After the second region: the first graph layer. -/
theorem layer0 : W4 m ρ c (Proc.devRef .tc main_v50) = (layer (fun d => d) (arg m c main_arg0) (transpose S2613x256 [1, 0] (arg m c main_arg2) transposes_S256x2613_S2613x256_1_0) (arg m c main_arg1) (arg m c main_arg3)) := by
  refine (W4_arr m ρ c 1).trans ((Cert.KernelIdeal.Normalize0.value (V3 m ρ) c).trans ?_)
  show rowNormalize (R := 50000) (W3 m ρ c (Proc.devRef .tc main_v49)) = _
  rw [agg0 m ρ c]
  rfl

/-! ## The second graph layer -/

/-- After stretch 2: the next weight array transposed (and narrowed, which at the ideal instance changes nothing). -/
theorem wT1 : W5 m ρ c (Proc.devRef .tc main_v52)
    = (truncf .bf16 (transpose S256x256 [1, 0] (arg m c main_arg4) transposes_S256x256_S256x256_1_0 : FVec Ideal S256x256 .f32) bitsLt_bf16_f32 : FVec Ideal S256x256 .bf16) := by
  have h : W5 m ρ c (Proc.devRef .tc main_v52)
      = (truncf .bf16 (transpose S256x256 [1, 0] (W4 m ρ c (Proc.devRef .tc main_arg4)) transposes_S256x256_S256x256_1_0 : FVec Ideal S256x256 .f32) bitsLt_bf16_f32 : FVec Ideal S256x256 .bf16) := by
    show StableHlo.after (hostOps2 : List (HloOp τ sig (Elt Ideal))) (W4 m ρ c) (Proc.devRef .tc main_v52) = _
    simp only [hostOps2]
    after_results_simp
  rw [h, wg1_at4 m ρ c]

/-- After the third region: the second projection. -/
theorem proj1 : W6 m ρ c (Proc.devRef .tc main_v53) = (prod (M := 50000) (K := 256) (N := 256) (layer (fun d => d) (arg m c main_arg0) (transpose S2613x256 [1, 0] (arg m c main_arg2) transposes_S256x2613_S2613x256_1_0) (arg m c main_arg1) (arg m c main_arg3)) (transpose S256x256 [1, 0] (arg m c main_arg4) transposes_S256x256_S256x256_1_0)) := by
  refine (W6_arr m ρ c 2).trans ((Cert.KernelIdeal.Project1.value (V5 m ρ) c).trans ?_)
  show prod (M := 50000) (K := 256) (N := 256) (W5 m ρ c (Proc.devRef .tc main_v50)) (W5 m ρ c (Proc.devRef .tc main_v52)) = _
  rw [x1_at5 m ρ c, layer0 m ρ c, wT1 m ρ c]
  rfl

/-- After the fourth stretch: the second projection aggregated over the edges. -/
theorem agg1 : W7 m ρ c (Proc.devRef .tc main_v96) = (aggregate (F := Ideal) (prod (M := 50000) (K := 256) (N := 256) (layer (fun d => d) (arg m c main_arg0) (transpose S2613x256 [1, 0] (arg m c main_arg2) transposes_S256x2613_S2613x256_1_0) (arg m c main_arg1) (arg m c main_arg3)) (transpose S256x256 [1, 0] (arg m c main_arg4) transposes_S256x256_S256x256_1_0)) (src (arg m c main_arg1)) (dst (arg m c main_arg1)) (dst (arg m c main_arg1)) (arg m c main_arg5)) := by
  show StableHlo.after (hostOps3 : List (HloOp τ sig (Elt Ideal))) (W6 m ρ c) (Proc.devRef .tc main_v96) = _
  rw [stretch3, proj1 m ρ c, src_at6 m ρ c, dst_at6 m ρ c, src1 m ρ c, dst1 m ρ c, bg1_at6 m ρ c]

/-- After the fourth region: the second graph layer. -/
theorem layer1 : W8 m ρ c (Proc.devRef .tc main_v97) = (layer (fun d => d) (layer (fun d => d) (arg m c main_arg0) (transpose S2613x256 [1, 0] (arg m c main_arg2) transposes_S256x2613_S2613x256_1_0) (arg m c main_arg1) (arg m c main_arg3)) (transpose S256x256 [1, 0] (arg m c main_arg4) transposes_S256x256_S256x256_1_0) (arg m c main_arg1) (arg m c main_arg5)) := by
  refine (W8_arr m ρ c 1).trans ((Cert.KernelIdeal.Normalize1.value (V7 m ρ) c).trans ?_)
  show rowNormalize (R := 50000) (W7 m ρ c (Proc.devRef .tc main_v96)) = _
  rw [agg1 m ρ c]
  rfl

/-! ## The third graph layer -/

/-- After stretch 4: the next weight array transposed (and narrowed, which at the ideal instance changes nothing). -/
theorem wT2 : W9 m ρ c (Proc.devRef .tc main_v99)
    = (truncf .bf16 (transpose S256x256 [1, 0] (arg m c main_arg6) transposes_S256x256_S256x256_1_0 : FVec Ideal S256x256 .f32) bitsLt_bf16_f32 : FVec Ideal S256x256 .bf16) := by
  have h : W9 m ρ c (Proc.devRef .tc main_v99)
      = (truncf .bf16 (transpose S256x256 [1, 0] (W8 m ρ c (Proc.devRef .tc main_arg6)) transposes_S256x256_S256x256_1_0 : FVec Ideal S256x256 .f32) bitsLt_bf16_f32 : FVec Ideal S256x256 .bf16) := by
    show StableHlo.after (hostOps4 : List (HloOp τ sig (Elt Ideal))) (W8 m ρ c) (Proc.devRef .tc main_v99) = _
    simp only [hostOps4]
    after_results_simp
  rw [h, wg2_at8 m ρ c]

/-- After the fifth region: the third projection. -/
theorem proj2 : W10 m ρ c (Proc.devRef .tc main_v100) = (prod (M := 50000) (K := 256) (N := 256) (layer (fun d => d) (layer (fun d => d) (arg m c main_arg0) (transpose S2613x256 [1, 0] (arg m c main_arg2) transposes_S256x2613_S2613x256_1_0) (arg m c main_arg1) (arg m c main_arg3)) (transpose S256x256 [1, 0] (arg m c main_arg4) transposes_S256x256_S256x256_1_0) (arg m c main_arg1) (arg m c main_arg5)) (transpose S256x256 [1, 0] (arg m c main_arg6) transposes_S256x256_S256x256_1_0)) := by
  refine (W10_arr m ρ c 2).trans ((Cert.KernelIdeal.Project2.value (V9 m ρ) c).trans ?_)
  show prod (M := 50000) (K := 256) (N := 256) (W9 m ρ c (Proc.devRef .tc main_v97)) (W9 m ρ c (Proc.devRef .tc main_v99)) = _
  rw [x2_at9 m ρ c, layer1 m ρ c, wT2 m ρ c]
  rfl

/-- After the sixth stretch: the third projection aggregated over the edges. -/
theorem agg2 : W11 m ρ c (Proc.devRef .tc main_v143) = (aggregate (F := Ideal) (prod (M := 50000) (K := 256) (N := 256) (layer (fun d => d) (layer (fun d => d) (arg m c main_arg0) (transpose S2613x256 [1, 0] (arg m c main_arg2) transposes_S256x2613_S2613x256_1_0) (arg m c main_arg1) (arg m c main_arg3)) (transpose S256x256 [1, 0] (arg m c main_arg4) transposes_S256x256_S256x256_1_0) (arg m c main_arg1) (arg m c main_arg5)) (transpose S256x256 [1, 0] (arg m c main_arg6) transposes_S256x256_S256x256_1_0)) (src (arg m c main_arg1)) (dst (arg m c main_arg1)) (dst (arg m c main_arg1)) (arg m c main_arg7)) := by
  show StableHlo.after (hostOps5 : List (HloOp τ sig (Elt Ideal))) (W10 m ρ c) (Proc.devRef .tc main_v143) = _
  rw [stretch5, proj2 m ρ c, src_at10 m ρ c, dst_at10 m ρ c, src1 m ρ c, dst1 m ρ c, bg2_at10 m ρ c]

/-- After the sixth region: the third graph layer. -/
theorem layer2 : W12 m ρ c (Proc.devRef .tc main_v144) = (layer (fun d => d) (layer (fun d => d) (layer (fun d => d) (arg m c main_arg0) (transpose S2613x256 [1, 0] (arg m c main_arg2) transposes_S256x2613_S2613x256_1_0) (arg m c main_arg1) (arg m c main_arg3)) (transpose S256x256 [1, 0] (arg m c main_arg4) transposes_S256x256_S256x256_1_0) (arg m c main_arg1) (arg m c main_arg5)) (transpose S256x256 [1, 0] (arg m c main_arg6) transposes_S256x256_S256x256_1_0) (arg m c main_arg1) (arg m c main_arg7)) := by
  refine (W12_arr m ρ c 1).trans ((Cert.KernelIdeal.Normalize2.value (V11 m ρ) c).trans ?_)
  show rowNormalize (R := 50000) (W11 m ρ c (Proc.devRef .tc main_v143)) = _
  rw [agg2 m ρ c]
  rfl

/-! ## The head -/

/-- After stretch 6: the next weight array transposed (and narrowed, which at the ideal instance changes nothing). -/
theorem wT3 : W13 m ρ c (Proc.devRef .tc main_v146)
    = (truncf .bf16 (transpose S256x256 [1, 0] (arg m c main_arg8) transposes_S256x256_S256x256_1_0 : FVec Ideal S256x256 .f32) bitsLt_bf16_f32 : FVec Ideal S256x256 .bf16) := by
  have h : W13 m ρ c (Proc.devRef .tc main_v146)
      = (truncf .bf16 (transpose S256x256 [1, 0] (W12 m ρ c (Proc.devRef .tc main_arg8)) transposes_S256x256_S256x256_1_0 : FVec Ideal S256x256 .f32) bitsLt_bf16_f32 : FVec Ideal S256x256 .bf16) := by
    show StableHlo.after (hostOps6 : List (HloOp τ sig (Elt Ideal))) (W12 m ρ c) (Proc.devRef .tc main_v146) = _
    simp only [hostOps6]
    after_results_simp
  rw [h, w1_at12 m ρ c]

/-- After the seventh region: the first dense layer. -/
theorem dense1 : W14 m ρ c (Proc.devRef .tc main_v147) = (dense (M := 50000) (K := 256) (N := 256) elu (layer (fun d => d) (layer (fun d => d) (layer (fun d => d) (arg m c main_arg0) (transpose S2613x256 [1, 0] (arg m c main_arg2) transposes_S256x2613_S2613x256_1_0) (arg m c main_arg1) (arg m c main_arg3)) (transpose S256x256 [1, 0] (arg m c main_arg4) transposes_S256x256_S256x256_1_0) (arg m c main_arg1) (arg m c main_arg5)) (transpose S256x256 [1, 0] (arg m c main_arg6) transposes_S256x256_S256x256_1_0) (arg m c main_arg1) (arg m c main_arg7)) (transpose S256x256 [1, 0] (arg m c main_arg8) transposes_S256x256_S256x256_1_0) (arg m c main_arg9)) := by
  refine (W14_arr m ρ c 3).trans ((Cert.KernelIdeal.Dense1.value (V13 m ρ) c).trans ?_)
  show dense (M := 50000) (K := 256) (N := 256) elu (W13 m ρ c (Proc.devRef .tc main_v144)) (W13 m ρ c (Proc.devRef .tc main_v146))
    (W13 m ρ c (Proc.devRef .tc main_arg9)) = _
  rw [x3_at13 m ρ c, layer2 m ρ c, wT3 m ρ c, b1_at13 m ρ c]
  rfl

/-- After stretch 7: the next weight array transposed (and narrowed, which at the ideal instance changes nothing). -/
theorem wT4 : W15 m ρ c (Proc.devRef .tc main_v149)
    = (truncf .bf16 (transpose S256x256 [1, 0] (arg m c main_arg10) transposes_S256x256_S256x256_1_0 : FVec Ideal S256x256 .f32) bitsLt_bf16_f32 : FVec Ideal S256x256 .bf16) := by
  have h : W15 m ρ c (Proc.devRef .tc main_v149)
      = (truncf .bf16 (transpose S256x256 [1, 0] (W14 m ρ c (Proc.devRef .tc main_arg10)) transposes_S256x256_S256x256_1_0 : FVec Ideal S256x256 .f32) bitsLt_bf16_f32 : FVec Ideal S256x256 .bf16) := by
    show StableHlo.after (hostOps7 : List (HloOp τ sig (Elt Ideal))) (W14 m ρ c) (Proc.devRef .tc main_v149) = _
    simp only [hostOps7]
    after_results_simp
  rw [h, w2_at14 m ρ c]

/-- After the last region the result buffer holds the network of the argument arrays as launched, the degrees counted
    at the destination nodes as given. -/
theorem value : W16 m ρ c (Proc.devRef .tc main_v150)
    = net (fun d => d) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  refine (W16_arr m ρ c 3).trans ((Cert.KernelIdeal.Dense2.value (V15 m ρ) c).trans ?_)
  show dense (M := 50000) (K := 256) (N := 256) (fun a => a) (W15 m ρ c (Proc.devRef .tc main_v147)) (W15 m ρ c (Proc.devRef .tc main_v149))
    (W15 m ρ c (Proc.devRef .tc main_arg11)) = _
  rw [y1_at15 m ρ c, dense1 m ρ c, wT4 m ρ c, b2_at15 m ρ c]
  rfl

end Cert.KernelIdeal.KValue

end
-- ==== Proof.RefOps.lean ====
/- The reference program's host operations as lists, in program order, one list for each of the four consecutive
   stretches its @main is printed in. Where @main calls a function (@relu three times, @elu once, which itself calls
   @_where and @_where_0), the function's operations stand in the call's place, its parameters replaced by the call's
   operands and its own values by the buffers of that call's record. Beside each list: the buffers its operations
   write, one for each operation, in the same order. 254 operations in all. -/
import proofs.«111732_j62783831933365_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60 of 254. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)), -- 1: %0
    StableHlo.reshape main_v0 main_v1 rfl shapeCasts_S1x800000_S800000, -- 2: %1
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)), -- 3: %2
    StableHlo.reshape main_v2 main_v3 rfl shapeCasts_S1x800000_S800000, -- 4: %3
    StableHlo.unary main_arg2 main_v4 ((transpose S2613x256 [1, 0] · transposes_S256x2613_S2613x256_1_0) : (⟨S256x2613, .f32⟩ : BufTy).Contents (Elt F) → (⟨S2613x256, .f32⟩ : BufTy).Contents (Elt F)), -- 5: %4
    StableHlo.binary main_arg0 main_v4 main_v5 ((fun l r => Host.dotGeneral dot_S50000x2613_S2613x256_S50000x256_1_0_0_1_n_n none l r) : (⟨S50000x2613, .f32⟩ : BufTy).Contents (Elt F) → (⟨S2613x256, .f32⟩ : BufTy).Contents (Elt F) → (⟨S50000x256, .f32⟩ : BufTy).Contents (Elt F)), -- 6: %5
    StableHlo.nullary main_cst (constant S_ .f32 0x00000000#32), -- 7: %cst
    StableHlo.unary main_cst main_v6 (broadcastInDim S50000 ![] bcast_S_S50000 : (⟨S_, .f32⟩ : BufTy).Contents (Elt F) → (⟨S50000, .f32⟩ : BufTy).Contents (Elt F)), -- 8: %6
    StableHlo.nullary main_c (constantI S_ 32 0#32), -- 9: %c
    StableHlo.unary main_c main_v7 (broadcastInDim S800000 ![] bcast_S_S800000 : (⟨S_, .i32⟩ : BufTy).Contents (Elt F) → (⟨S800000, .i32⟩ : BufTy).Contents (Elt F)), -- 10: %7
    StableHlo.binary main_v3 main_v7 main_v8 (cmpi .slt : (⟨S800000, .i32⟩ : BufTy).Contents (Elt F) → (⟨S800000, .i32⟩ : BufTy).Contents (Elt F) → (⟨S800000, .i1⟩ : BufTy).Contents (Elt F)), -- 11: %8
    StableHlo.nullary main_c_0 (constantI S_ 32 50000#32), -- 12: %c_0
    StableHlo.unary main_c_0 main_v9 (broadcastInDim S800000 ![] bcast_S_S800000 : (⟨S_, .i32⟩ : BufTy).Contents (Elt F) → (⟨S800000, .i32⟩ : BufTy).Contents (Elt F)), -- 13: %9
    StableHlo.binary main_v3 main_v9 main_v10 (addi : (⟨S800000, .i32⟩ : BufTy).Contents (Elt F) → (⟨S800000, .i32⟩ : BufTy).Contents (Elt F) → (⟨S800000, .i32⟩ : BufTy).Contents (Elt F)), -- 14: %10
    StableHlo.ternary main_v8 main_v10 main_v3 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 15: %11
    StableHlo.unary main_v11 main_v12 (broadcastInDim S800000x1 ![0] bcast_S800000_S800000x1_0 : (⟨S800000, .i32⟩ : BufTy).Contents (Elt F) → (⟨S800000x1, .i32⟩ : BufTy).Contents (Elt F)), -- 16: %12
    StableHlo.nullary main_cst_1 (constant S_ .f32 0x3F800000#32), -- 17: %cst_1
    StableHlo.unary main_cst_1 main_v13 (broadcastInDim S800000 ![] bcast_S_S800000 : (⟨S_, .f32⟩ : BufTy).Contents (Elt F) → (⟨S800000, .f32⟩ : BufTy).Contents (Elt F)), -- 18: %13
    StableHlo.ternary main_v6 main_v12 main_v13 main_v14 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- 19: %14
    StableHlo.nullary main_cst_2 (constant S_ .f32 0x3F800000#32), -- 20: %cst_2
    StableHlo.unary main_cst_2 main_v15 (broadcastInDim S50000 ![] bcast_S_S50000 : (⟨S_, .f32⟩ : BufTy).Contents (Elt F) → (⟨S50000, .f32⟩ : BufTy).Contents (Elt F)), -- 21: %15
    StableHlo.binary main_v14 main_v15 main_v16 (addf : (⟨S50000, .f32⟩ : BufTy).Contents (Elt F) → (⟨S50000, .f32⟩ : BufTy).Contents (Elt F) → (⟨S50000, .f32⟩ : BufTy).Contents (Elt F)), -- 22: %16
    StableHlo.unary main_v16 main_v17 (Host.rsqrt : (⟨S50000, .f32⟩ : BufTy).Contents (Elt F) → (⟨S50000, .f32⟩ : BufTy).Contents (Elt F)), -- 23: %17
    StableHlo.nullary main_c_3 (constantI S_ 32 0#32), -- 24: %c_3
    StableHlo.unary main_c_3 main_v18 (broadcastInDim S800000 ![] bcast_S_S800000 : (⟨S_, .i32⟩ : BufTy).Contents (Elt F) → (⟨S800000, .i32⟩ : BufTy).Contents (Elt F)), -- 25: %18
    StableHlo.binary main_v1 main_v18 main_v19 (cmpi .slt : (⟨S800000, .i32⟩ : BufTy).Contents (Elt F) → (⟨S800000, .i32⟩ : BufTy).Contents (Elt F) → (⟨S800000, .i1⟩ : BufTy).Contents (Elt F)), -- 26: %19
    StableHlo.nullary main_c_4 (constantI S_ 32 50000#32), -- 27: %c_4
    StableHlo.unary main_c_4 main_v20 (broadcastInDim S800000 ![] bcast_S_S800000 : (⟨S_, .i32⟩ : BufTy).Contents (Elt F) → (⟨S800000, .i32⟩ : BufTy).Contents (Elt F)), -- 28: %20
    StableHlo.binary main_v1 main_v20 main_v21 (addi : (⟨S800000, .i32⟩ : BufTy).Contents (Elt F) → (⟨S800000, .i32⟩ : BufTy).Contents (Elt F) → (⟨S800000, .i32⟩ : BufTy).Contents (Elt F)), -- 29: %21
    StableHlo.ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 30: %22
    StableHlo.unary main_v22 main_v23 (broadcastInDim S800000x1 ![0] bcast_S800000_S800000x1_0 : (⟨S800000, .i32⟩ : BufTy).Contents (Elt F) → (⟨S800000x1, .i32⟩ : BufTy).Contents (Elt F)), -- 31: %23
    StableHlo.binary main_v17 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 32: %24
    StableHlo.nullary main_c_5 (constantI S_ 32 0#32), -- 33: %c_5
    StableHlo.unary main_c_5 main_v25 (broadcastInDim S800000 ![] bcast_S_S800000 : (⟨S_, .i32⟩ : BufTy).Contents (Elt F) → (⟨S800000, .i32⟩ : BufTy).Contents (Elt F)), -- 34: %25
    StableHlo.binary main_v3 main_v25 main_v26 (cmpi .slt : (⟨S800000, .i32⟩ : BufTy).Contents (Elt F) → (⟨S800000, .i32⟩ : BufTy).Contents (Elt F) → (⟨S800000, .i1⟩ : BufTy).Contents (Elt F)), -- 35: %26
    StableHlo.nullary main_c_6 (constantI S_ 32 50000#32), -- 36: %c_6
    StableHlo.unary main_c_6 main_v27 (broadcastInDim S800000 ![] bcast_S_S800000 : (⟨S_, .i32⟩ : BufTy).Contents (Elt F) → (⟨S800000, .i32⟩ : BufTy).Contents (Elt F)), -- 37: %27
    StableHlo.binary main_v3 main_v27 main_v28 (addi : (⟨S800000, .i32⟩ : BufTy).Contents (Elt F) → (⟨S800000, .i32⟩ : BufTy).Contents (Elt F) → (⟨S800000, .i32⟩ : BufTy).Contents (Elt F)), -- 38: %28
    StableHlo.ternary main_v26 main_v28 main_v3 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 39: %29
    StableHlo.unary main_v29 main_v30 (broadcastInDim S800000x1 ![0] bcast_S800000_S800000x1_0 : (⟨S800000, .i32⟩ : BufTy).Contents (Elt F) → (⟨S800000x1, .i32⟩ : BufTy).Contents (Elt F)), -- 40: %30
    StableHlo.binary main_v17 main_v30 main_v31 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 41: %31
    StableHlo.binary main_v24 main_v31 main_v32 (mulf : (⟨S800000, .f32⟩ : BufTy).Contents (Elt F) → (⟨S800000, .f32⟩ : BufTy).Contents (Elt F) → (⟨S800000, .f32⟩ : BufTy).Contents (Elt F)), -- 42: %32
    StableHlo.nullary main_c_7 (constantI S_ 32 0#32), -- 43: %c_7
    StableHlo.unary main_c_7 main_v33 (broadcastInDim S800000 ![] bcast_S_S800000 : (⟨S_, .i32⟩ : BufTy).Contents (Elt F) → (⟨S800000, .i32⟩ : BufTy).Contents (Elt F)), -- 44: %33
    StableHlo.binary main_v1 main_v33 main_v34 (cmpi .slt : (⟨S800000, .i32⟩ : BufTy).Contents (Elt F) → (⟨S800000, .i32⟩ : BufTy).Contents (Elt F) → (⟨S800000, .i1⟩ : BufTy).Contents (Elt F)), -- 45: %34
    StableHlo.nullary main_c_8 (constantI S_ 32 50000#32), -- 46: %c_8
    StableHlo.unary main_c_8 main_v35 (broadcastInDim S800000 ![] bcast_S_S800000 : (⟨S_, .i32⟩ : BufTy).Contents (Elt F) → (⟨S800000, .i32⟩ : BufTy).Contents (Elt F)), -- 47: %35
    StableHlo.binary main_v1 main_v35 main_v36 (addi : (⟨S800000, .i32⟩ : BufTy).Contents (Elt F) → (⟨S800000, .i32⟩ : BufTy).Contents (Elt F) → (⟨S800000, .i32⟩ : BufTy).Contents (Elt F)), -- 48: %36
    StableHlo.ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 49: %37
    StableHlo.unary main_v37 main_v38 (broadcastInDim S800000x1 ![0] bcast_S800000_S800000x1_0 : (⟨S800000, .i32⟩ : BufTy).Contents (Elt F) → (⟨S800000x1, .i32⟩ : BufTy).Contents (Elt F)), -- 50: %38
    StableHlo.binary main_v5 main_v38 main_v39 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)), -- 51: %39
    StableHlo.unary main_v32 main_v40 (broadcastInDim S800000x1 ![0] bcast_S800000_S800000x1_0 : (⟨S800000, .f32⟩ : BufTy).Contents (Elt F) → (⟨S800000x1, .f32⟩ : BufTy).Contents (Elt F)), -- 52: %40
    StableHlo.unary main_v40 main_v41 (broadcastInDim S800000x256 ![0, 1] bcast_S800000x1_S800000x256_0_1 : (⟨S800000x1, .f32⟩ : BufTy).Contents (Elt F) → (⟨S800000x256, .f32⟩ : BufTy).Contents (Elt F)), -- 53: %41
    StableHlo.binary main_v39 main_v41 main_v42 (mulf : (⟨S800000x256, .f32⟩ : BufTy).Contents (Elt F) → (⟨S800000x256, .f32⟩ : BufTy).Contents (Elt F) → (⟨S800000x256, .f32⟩ : BufTy).Contents (Elt F)), -- 54: %42
    StableHlo.nullary main_cst_9 (constant S_ .f32 0x00000000#32), -- 55: %cst_9
    StableHlo.unary main_cst_9 main_v43 (broadcastInDim S50000x256 ![] bcast_S_S50000x256 : (⟨S_, .f32⟩ : BufTy).Contents (Elt F) → (⟨S50000x256, .f32⟩ : BufTy).Contents (Elt F)), -- 56: %43
    StableHlo.unary main_v3 main_v44 (broadcastInDim S800000x1 ![0] bcast_S800000_S800000x1_0 : (⟨S800000, .i32⟩ : BufTy).Contents (Elt F) → (⟨S800000x1, .i32⟩ : BufTy).Contents (Elt F)), -- 57: %44
    StableHlo.ternary main_v43 main_v44 main_v42 main_v45 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)), -- 58: %45
    StableHlo.binary main_v17 main_v17 main_v46 (mulf : (⟨S50000, .f32⟩ : BufTy).Contents (Elt F) → (⟨S50000, .f32⟩ : BufTy).Contents (Elt F) → (⟨S50000, .f32⟩ : BufTy).Contents (Elt F)), -- 59: %46
    StableHlo.unary main_v46 main_v47 (broadcastInDim S50000x1 ![0] bcast_S50000_S50000x1_0 : (⟨S50000, .f32⟩ : BufTy).Contents (Elt F) → (⟨S50000x1, .f32⟩ : BufTy).Contents (Elt F)) ] -- 60: %47

/-- The buffers that operations 1 … 60 write, in order. -/
abbrev ops0_W : List (Ref sig .tc) :=
  [main_v0, main_v1, main_v2, main_v3, main_v4, main_v5, main_cst, main_v6, main_c, main_v7, main_v8, main_c_0, main_v9, main_v10, main_v11, main_v12, main_cst_1, main_v13, main_v14, main_cst_2, main_v15, main_v16, main_v17, main_c_3, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45, main_v46, main_v47]

/-- Operations 61 … 122 of 254. -/
abbrev ops1 : List (HloOp τ sig (Elt F)) :=
  [ StableHlo.unary main_v47 main_v48 (broadcastInDim S50000x256 ![0, 1] bcast_S50000x1_S50000x256_0_1 : (⟨S50000x1, .f32⟩ : BufTy).Contents (Elt F) → (⟨S50000x256, .f32⟩ : BufTy).Contents (Elt F)), -- 61: %48
    StableHlo.binary main_v5 main_v48 main_v49 (mulf : (⟨S50000x256, .f32⟩ : BufTy).Contents (Elt F) → (⟨S50000x256, .f32⟩ : BufTy).Contents (Elt F) → (⟨S50000x256, .f32⟩ : BufTy).Contents (Elt F)), -- 62: %49
    StableHlo.binary main_v45 main_v49 main_v50 (addf : (⟨S50000x256, .f32⟩ : BufTy).Contents (Elt F) → (⟨S50000x256, .f32⟩ : BufTy).Contents (Elt F) → (⟨S50000x256, .f32⟩ : BufTy).Contents (Elt F)), -- 63: %50
    StableHlo.unary main_arg3 main_v51 (broadcastInDim S1x256 ![1] bcast_S256_S1x256_1 : (⟨S256, .f32⟩ : BufTy).Contents (Elt F) → (⟨S1x256, .f32⟩ : BufTy).Contents (Elt F)), -- 64: %51
    StableHlo.unary main_v51 main_v52 (broadcastInDim S50000x256 ![0, 1] bcast_S1x256_S50000x256_0_1 : (⟨S1x256, .f32⟩ : BufTy).Contents (Elt F) → (⟨S50000x256, .f32⟩ : BufTy).Contents (Elt F)), -- 65: %52
    StableHlo.binary main_v50 main_v52 main_v53 (addf : (⟨S50000x256, .f32⟩ : BufTy).Contents (Elt F) → (⟨S50000x256, .f32⟩ : BufTy).Contents (Elt F) → (⟨S50000x256, .f32⟩ : BufTy).Contents (Elt F)), -- 66: %53
    StableHlo.TRef.nullary main_call0.cst (constant S_ .f32 0x00000000#32), -- 67: %54 is @relu %cst
    StableHlo.TRef.unary main_call0.cst main_call0.v0 (broadcastInDim S50000x256 ![] bcast_S_S50000x256), -- 68: %54 is @relu %0
    StableHlo.TRef.binary (.of main_v53 : StableHlo.TRef sig ⟨S50000x256, .f32⟩) main_call0.v0 main_call0.v1 maximumf, -- 69: %54 is @relu %1
    StableHlo.binary main_v54 main_v54 main_v55 (mulf : (⟨S50000x256, .f32⟩ : BufTy).Contents (Elt F) → (⟨S50000x256, .f32⟩ : BufTy).Contents (Elt F) → (⟨S50000x256, .f32⟩ : BufTy).Contents (Elt F)), -- 70: %55
    StableHlo.nullary main_cst_10 (constant S_ .f32 0x00000000#32), -- 71: %cst_10
    StableHlo.binary main_v55 main_cst_10 main_v56 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)), -- 72: %56
    StableHlo.unary main_v56 main_v57 (broadcastInDim S50000x1 ![0] bcast_S50000_S50000x1_0 : (⟨S50000, .f32⟩ : BufTy).Contents (Elt F) → (⟨S50000x1, .f32⟩ : BufTy).Contents (Elt F)), -- 73: %57
    StableHlo.unary main_v57 main_v58 (Host.sqrt : (⟨S50000x1, .f32⟩ : BufTy).Contents (Elt F) → (⟨S50000x1, .f32⟩ : BufTy).Contents (Elt F)), -- 74: %58
    StableHlo.nullary main_cst_11 (constant S_ .f32 0x2B8CBCCC#32), -- 75: %cst_11
    StableHlo.unary main_cst_11 main_v59 (broadcastInDim S50000x1 ![] bcast_S_S50000x1 : (⟨S_, .f32⟩ : BufTy).Contents (Elt F) → (⟨S50000x1, .f32⟩ : BufTy).Contents (Elt F)), -- 76: %59
    StableHlo.binary main_v58 main_v59 main_v60 (maximumf : (⟨S50000x1, .f32⟩ : BufTy).Contents (Elt F) → (⟨S50000x1, .f32⟩ : BufTy).Contents (Elt F) → (⟨S50000x1, .f32⟩ : BufTy).Contents (Elt F)), -- 77: %60
    StableHlo.unary main_v60 main_v61 (broadcastInDim S50000x256 ![0, 1] bcast_S50000x1_S50000x256_0_1 : (⟨S50000x1, .f32⟩ : BufTy).Contents (Elt F) → (⟨S50000x256, .f32⟩ : BufTy).Contents (Elt F)), -- 78: %61
    StableHlo.binary main_v54 main_v61 main_v62 (Host.divf : (⟨S50000x256, .f32⟩ : BufTy).Contents (Elt F) → (⟨S50000x256, .f32⟩ : BufTy).Contents (Elt F) → (⟨S50000x256, .f32⟩ : BufTy).Contents (Elt F)), -- 79: %62
    StableHlo.unary main_arg4 main_v63 ((transpose S256x256 [1, 0] · transposes_S256x256_S256x256_1_0) : (⟨S256x256, .f32⟩ : BufTy).Contents (Elt F) → (⟨S256x256, .f32⟩ : BufTy).Contents (Elt F)), -- 80: %63
    StableHlo.binary main_v62 main_v63 main_v64 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)), -- 81: %64
    StableHlo.nullary main_cst_12 (constant S_ .f32 0x00000000#32), -- 82: %cst_12
    StableHlo.unary main_cst_12 main_v65 (broadcastInDim S50000 ![] bcast_S_S50000 : (⟨S_, .f32⟩ : BufTy).Contents (Elt F) → (⟨S50000, .f32⟩ : BufTy).Contents (Elt F)), -- 83: %65
    StableHlo.nullary main_c_13 (constantI S_ 32 0#32), -- 84: %c_13
    StableHlo.unary main_c_13 main_v66 (broadcastInDim S800000 ![] bcast_S_S800000 : (⟨S_, .i32⟩ : BufTy).Contents (Elt F) → (⟨S800000, .i32⟩ : BufTy).Contents (Elt F)), -- 85: %66
    StableHlo.binary main_v3 main_v66 main_v67 (cmpi .slt : (⟨S800000, .i32⟩ : BufTy).Contents (Elt F) → (⟨S800000, .i32⟩ : BufTy).Contents (Elt F) → (⟨S800000, .i1⟩ : BufTy).Contents (Elt F)), -- 86: %67
    StableHlo.nullary main_c_14 (constantI S_ 32 50000#32), -- 87: %c_14
    StableHlo.unary main_c_14 main_v68 (broadcastInDim S800000 ![] bcast_S_S800000 : (⟨S_, .i32⟩ : BufTy).Contents (Elt F) → (⟨S800000, .i32⟩ : BufTy).Contents (Elt F)), -- 88: %68
    StableHlo.binary main_v3 main_v68 main_v69 (addi : (⟨S800000, .i32⟩ : BufTy).Contents (Elt F) → (⟨S800000, .i32⟩ : BufTy).Contents (Elt F) → (⟨S800000, .i32⟩ : BufTy).Contents (Elt F)), -- 89: %69
    StableHlo.ternary main_v67 main_v69 main_v3 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 90: %70
    StableHlo.unary main_v70 main_v71 (broadcastInDim S800000x1 ![0] bcast_S800000_S800000x1_0 : (⟨S800000, .i32⟩ : BufTy).Contents (Elt F) → (⟨S800000x1, .i32⟩ : BufTy).Contents (Elt F)), -- 91: %71
    StableHlo.nullary main_cst_15 (constant S_ .f32 0x3F800000#32), -- 92: %cst_15
    StableHlo.unary main_cst_15 main_v72 (broadcastInDim S800000 ![] bcast_S_S800000 : (⟨S_, .f32⟩ : BufTy).Contents (Elt F) → (⟨S800000, .f32⟩ : BufTy).Contents (Elt F)), -- 93: %72
    StableHlo.ternary main_v65 main_v71 main_v72 main_v73 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- 94: %73
    StableHlo.nullary main_cst_16 (constant S_ .f32 0x3F800000#32), -- 95: %cst_16
    StableHlo.unary main_cst_16 main_v74 (broadcastInDim S50000 ![] bcast_S_S50000 : (⟨S_, .f32⟩ : BufTy).Contents (Elt F) → (⟨S50000, .f32⟩ : BufTy).Contents (Elt F)), -- 96: %74
    StableHlo.binary main_v73 main_v74 main_v75 (addf : (⟨S50000, .f32⟩ : BufTy).Contents (Elt F) → (⟨S50000, .f32⟩ : BufTy).Contents (Elt F) → (⟨S50000, .f32⟩ : BufTy).Contents (Elt F)), -- 97: %75
    StableHlo.unary main_v75 main_v76 (Host.rsqrt : (⟨S50000, .f32⟩ : BufTy).Contents (Elt F) → (⟨S50000, .f32⟩ : BufTy).Contents (Elt F)), -- 98: %76
    StableHlo.nullary main_c_17 (constantI S_ 32 0#32), -- 99: %c_17
    StableHlo.unary main_c_17 main_v77 (broadcastInDim S800000 ![] bcast_S_S800000 : (⟨S_, .i32⟩ : BufTy).Contents (Elt F) → (⟨S800000, .i32⟩ : BufTy).Contents (Elt F)), -- 100: %77
    StableHlo.binary main_v1 main_v77 main_v78 (cmpi .slt : (⟨S800000, .i32⟩ : BufTy).Contents (Elt F) → (⟨S800000, .i32⟩ : BufTy).Contents (Elt F) → (⟨S800000, .i1⟩ : BufTy).Contents (Elt F)), -- 101: %78
    StableHlo.nullary main_c_18 (constantI S_ 32 50000#32), -- 102: %c_18
    StableHlo.unary main_c_18 main_v79 (broadcastInDim S800000 ![] bcast_S_S800000 : (⟨S_, .i32⟩ : BufTy).Contents (Elt F) → (⟨S800000, .i32⟩ : BufTy).Contents (Elt F)), -- 103: %79
    StableHlo.binary main_v1 main_v79 main_v80 (addi : (⟨S800000, .i32⟩ : BufTy).Contents (Elt F) → (⟨S800000, .i32⟩ : BufTy).Contents (Elt F) → (⟨S800000, .i32⟩ : BufTy).Contents (Elt F)), -- 104: %80
    StableHlo.ternary main_v78 main_v80 main_v1 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 105: %81
    StableHlo.unary main_v81 main_v82 (broadcastInDim S800000x1 ![0] bcast_S800000_S800000x1_0 : (⟨S800000, .i32⟩ : BufTy).Contents (Elt F) → (⟨S800000x1, .i32⟩ : BufTy).Contents (Elt F)), -- 106: %82
    StableHlo.binary main_v76 main_v82 main_v83 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 107: %83
    StableHlo.nullary main_c_19 (constantI S_ 32 0#32), -- 108: %c_19
    StableHlo.unary main_c_19 main_v84 (broadcastInDim S800000 ![] bcast_S_S800000 : (⟨S_, .i32⟩ : BufTy).Contents (Elt F) → (⟨S800000, .i32⟩ : BufTy).Contents (Elt F)), -- 109: %84
    StableHlo.binary main_v3 main_v84 main_v85 (cmpi .slt : (⟨S800000, .i32⟩ : BufTy).Contents (Elt F) → (⟨S800000, .i32⟩ : BufTy).Contents (Elt F) → (⟨S800000, .i1⟩ : BufTy).Contents (Elt F)), -- 110: %85
    StableHlo.nullary main_c_20 (constantI S_ 32 50000#32), -- 111: %c_20
    StableHlo.unary main_c_20 main_v86 (broadcastInDim S800000 ![] bcast_S_S800000 : (⟨S_, .i32⟩ : BufTy).Contents (Elt F) → (⟨S800000, .i32⟩ : BufTy).Contents (Elt F)), -- 112: %86
    StableHlo.binary main_v3 main_v86 main_v87 (addi : (⟨S800000, .i32⟩ : BufTy).Contents (Elt F) → (⟨S800000, .i32⟩ : BufTy).Contents (Elt F) → (⟨S800000, .i32⟩ : BufTy).Contents (Elt F)), -- 113: %87
    StableHlo.ternary main_v85 main_v87 main_v3 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 114: %88
    StableHlo.unary main_v88 main_v89 (broadcastInDim S800000x1 ![0] bcast_S800000_S800000x1_0 : (⟨S800000, .i32⟩ : BufTy).Contents (Elt F) → (⟨S800000x1, .i32⟩ : BufTy).Contents (Elt F)), -- 115: %89
    StableHlo.binary main_v76 main_v89 main_v90 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 116: %90
    StableHlo.binary main_v83 main_v90 main_v91 (mulf : (⟨S800000, .f32⟩ : BufTy).Contents (Elt F) → (⟨S800000, .f32⟩ : BufTy).Contents (Elt F) → (⟨S800000, .f32⟩ : BufTy).Contents (Elt F)), -- 117: %91
    StableHlo.nullary main_c_21 (constantI S_ 32 0#32), -- 118: %c_21
    StableHlo.unary main_c_21 main_v92 (broadcastInDim S800000 ![] bcast_S_S800000 : (⟨S_, .i32⟩ : BufTy).Contents (Elt F) → (⟨S800000, .i32⟩ : BufTy).Contents (Elt F)), -- 119: %92
    StableHlo.binary main_v1 main_v92 main_v93 (cmpi .slt : (⟨S800000, .i32⟩ : BufTy).Contents (Elt F) → (⟨S800000, .i32⟩ : BufTy).Contents (Elt F) → (⟨S800000, .i1⟩ : BufTy).Contents (Elt F)), -- 120: %93
    StableHlo.nullary main_c_22 (constantI S_ 32 50000#32), -- 121: %c_22
    StableHlo.unary main_c_22 main_v94 (broadcastInDim S800000 ![] bcast_S_S800000 : (⟨S_, .i32⟩ : BufTy).Contents (Elt F) → (⟨S800000, .i32⟩ : BufTy).Contents (Elt F)) ] -- 122: %94

/-- The buffers that operations 61 … 122 write, in order. -/
abbrev ops1_W : List (Ref sig .tc) :=
  [main_v48, main_v49, main_v50, main_v51, main_v52, main_v53, main_call0.cst.ref, main_call0.v0.ref, main_call0.v1.ref, main_v55, main_cst_10, main_v56, main_v57, main_v58, main_cst_11, main_v59, main_v60, main_v61, main_v62, main_v63, main_v64, main_cst_12, main_v65, main_c_13, main_v66, main_v67, main_c_14, main_v68, main_v69, main_v70, main_v71, main_cst_15, main_v72, main_v73, main_cst_16, main_v74, main_v75, main_v76, main_c_17, main_v77, main_v78, main_c_18, main_v79, main_v80, main_v81, main_v82, main_v83, main_c_19, main_v84, main_v85, main_c_20, main_v86, main_v87, main_v88, main_v89, main_v90, main_v91, main_c_21, main_v92, main_v93, main_c_22, main_v94]

/-- Operations 123 … 184 of 254. -/
abbrev ops2 : List (HloOp τ sig (Elt F)) :=
  [ StableHlo.binary main_v1 main_v94 main_v95 (addi : (⟨S800000, .i32⟩ : BufTy).Contents (Elt F) → (⟨S800000, .i32⟩ : BufTy).Contents (Elt F) → (⟨S800000, .i32⟩ : BufTy).Contents (Elt F)), -- 123: %95
    StableHlo.ternary main_v93 main_v95 main_v1 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 124: %96
    StableHlo.unary main_v96 main_v97 (broadcastInDim S800000x1 ![0] bcast_S800000_S800000x1_0 : (⟨S800000, .i32⟩ : BufTy).Contents (Elt F) → (⟨S800000x1, .i32⟩ : BufTy).Contents (Elt F)), -- 125: %97
    StableHlo.binary main_v64 main_v97 main_v98 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)), -- 126: %98
    StableHlo.unary main_v91 main_v99 (broadcastInDim S800000x1 ![0] bcast_S800000_S800000x1_0 : (⟨S800000, .f32⟩ : BufTy).Contents (Elt F) → (⟨S800000x1, .f32⟩ : BufTy).Contents (Elt F)), -- 127: %99
    StableHlo.unary main_v99 main_v100 (broadcastInDim S800000x256 ![0, 1] bcast_S800000x1_S800000x256_0_1 : (⟨S800000x1, .f32⟩ : BufTy).Contents (Elt F) → (⟨S800000x256, .f32⟩ : BufTy).Contents (Elt F)), -- 128: %100
    StableHlo.binary main_v98 main_v100 main_v101 (mulf : (⟨S800000x256, .f32⟩ : BufTy).Contents (Elt F) → (⟨S800000x256, .f32⟩ : BufTy).Contents (Elt F) → (⟨S800000x256, .f32⟩ : BufTy).Contents (Elt F)), -- 129: %101
    StableHlo.nullary main_cst_23 (constant S_ .f32 0x00000000#32), -- 130: %cst_23
    StableHlo.unary main_cst_23 main_v102 (broadcastInDim S50000x256 ![] bcast_S_S50000x256 : (⟨S_, .f32⟩ : BufTy).Contents (Elt F) → (⟨S50000x256, .f32⟩ : BufTy).Contents (Elt F)), -- 131: %102
    StableHlo.unary main_v3 main_v103 (broadcastInDim S800000x1 ![0] bcast_S800000_S800000x1_0 : (⟨S800000, .i32⟩ : BufTy).Contents (Elt F) → (⟨S800000x1, .i32⟩ : BufTy).Contents (Elt F)), -- 132: %103
    StableHlo.ternary main_v102 main_v103 main_v101 main_v104 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)), -- 133: %104
    StableHlo.binary main_v76 main_v76 main_v105 (mulf : (⟨S50000, .f32⟩ : BufTy).Contents (Elt F) → (⟨S50000, .f32⟩ : BufTy).Contents (Elt F) → (⟨S50000, .f32⟩ : BufTy).Contents (Elt F)), -- 134: %105
    StableHlo.unary main_v105 main_v106 (broadcastInDim S50000x1 ![0] bcast_S50000_S50000x1_0 : (⟨S50000, .f32⟩ : BufTy).Contents (Elt F) → (⟨S50000x1, .f32⟩ : BufTy).Contents (Elt F)), -- 135: %106
    StableHlo.unary main_v106 main_v107 (broadcastInDim S50000x256 ![0, 1] bcast_S50000x1_S50000x256_0_1 : (⟨S50000x1, .f32⟩ : BufTy).Contents (Elt F) → (⟨S50000x256, .f32⟩ : BufTy).Contents (Elt F)), -- 136: %107
    StableHlo.binary main_v64 main_v107 main_v108 (mulf : (⟨S50000x256, .f32⟩ : BufTy).Contents (Elt F) → (⟨S50000x256, .f32⟩ : BufTy).Contents (Elt F) → (⟨S50000x256, .f32⟩ : BufTy).Contents (Elt F)), -- 137: %108
    StableHlo.binary main_v104 main_v108 main_v109 (addf : (⟨S50000x256, .f32⟩ : BufTy).Contents (Elt F) → (⟨S50000x256, .f32⟩ : BufTy).Contents (Elt F) → (⟨S50000x256, .f32⟩ : BufTy).Contents (Elt F)), -- 138: %109
    StableHlo.unary main_arg5 main_v110 (broadcastInDim S1x256 ![1] bcast_S256_S1x256_1 : (⟨S256, .f32⟩ : BufTy).Contents (Elt F) → (⟨S1x256, .f32⟩ : BufTy).Contents (Elt F)), -- 139: %110
    StableHlo.unary main_v110 main_v111 (broadcastInDim S50000x256 ![0, 1] bcast_S1x256_S50000x256_0_1 : (⟨S1x256, .f32⟩ : BufTy).Contents (Elt F) → (⟨S50000x256, .f32⟩ : BufTy).Contents (Elt F)), -- 140: %111
    StableHlo.binary main_v109 main_v111 main_v112 (addf : (⟨S50000x256, .f32⟩ : BufTy).Contents (Elt F) → (⟨S50000x256, .f32⟩ : BufTy).Contents (Elt F) → (⟨S50000x256, .f32⟩ : BufTy).Contents (Elt F)), -- 141: %112
    StableHlo.TRef.nullary main_call1.cst (constant S_ .f32 0x00000000#32), -- 142: %113 is @relu %cst
    StableHlo.TRef.unary main_call1.cst main_call1.v0 (broadcastInDim S50000x256 ![] bcast_S_S50000x256), -- 143: %113 is @relu %0
    StableHlo.TRef.binary (.of main_v112 : StableHlo.TRef sig ⟨S50000x256, .f32⟩) main_call1.v0 main_call1.v1 maximumf, -- 144: %113 is @relu %1
    StableHlo.binary main_v113 main_v113 main_v114 (mulf : (⟨S50000x256, .f32⟩ : BufTy).Contents (Elt F) → (⟨S50000x256, .f32⟩ : BufTy).Contents (Elt F) → (⟨S50000x256, .f32⟩ : BufTy).Contents (Elt F)), -- 145: %114
    StableHlo.nullary main_cst_24 (constant S_ .f32 0x00000000#32), -- 146: %cst_24
    StableHlo.binary main_v114 main_cst_24 main_v115 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)), -- 147: %115
    StableHlo.unary main_v115 main_v116 (broadcastInDim S50000x1 ![0] bcast_S50000_S50000x1_0 : (⟨S50000, .f32⟩ : BufTy).Contents (Elt F) → (⟨S50000x1, .f32⟩ : BufTy).Contents (Elt F)), -- 148: %116
    StableHlo.unary main_v116 main_v117 (Host.sqrt : (⟨S50000x1, .f32⟩ : BufTy).Contents (Elt F) → (⟨S50000x1, .f32⟩ : BufTy).Contents (Elt F)), -- 149: %117
    StableHlo.nullary main_cst_25 (constant S_ .f32 0x2B8CBCCC#32), -- 150: %cst_25
    StableHlo.unary main_cst_25 main_v118 (broadcastInDim S50000x1 ![] bcast_S_S50000x1 : (⟨S_, .f32⟩ : BufTy).Contents (Elt F) → (⟨S50000x1, .f32⟩ : BufTy).Contents (Elt F)), -- 151: %118
    StableHlo.binary main_v117 main_v118 main_v119 (maximumf : (⟨S50000x1, .f32⟩ : BufTy).Contents (Elt F) → (⟨S50000x1, .f32⟩ : BufTy).Contents (Elt F) → (⟨S50000x1, .f32⟩ : BufTy).Contents (Elt F)), -- 152: %119
    StableHlo.unary main_v119 main_v120 (broadcastInDim S50000x256 ![0, 1] bcast_S50000x1_S50000x256_0_1 : (⟨S50000x1, .f32⟩ : BufTy).Contents (Elt F) → (⟨S50000x256, .f32⟩ : BufTy).Contents (Elt F)), -- 153: %120
    StableHlo.binary main_v113 main_v120 main_v121 (Host.divf : (⟨S50000x256, .f32⟩ : BufTy).Contents (Elt F) → (⟨S50000x256, .f32⟩ : BufTy).Contents (Elt F) → (⟨S50000x256, .f32⟩ : BufTy).Contents (Elt F)), -- 154: %121
    StableHlo.unary main_arg6 main_v122 ((transpose S256x256 [1, 0] · transposes_S256x256_S256x256_1_0) : (⟨S256x256, .f32⟩ : BufTy).Contents (Elt F) → (⟨S256x256, .f32⟩ : BufTy).Contents (Elt F)), -- 155: %122
    StableHlo.binary main_v121 main_v122 main_v123 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)), -- 156: %123
    StableHlo.nullary main_cst_26 (constant S_ .f32 0x00000000#32), -- 157: %cst_26
    StableHlo.unary main_cst_26 main_v124 (broadcastInDim S50000 ![] bcast_S_S50000 : (⟨S_, .f32⟩ : BufTy).Contents (Elt F) → (⟨S50000, .f32⟩ : BufTy).Contents (Elt F)), -- 158: %124
    StableHlo.nullary main_c_27 (constantI S_ 32 0#32), -- 159: %c_27
    StableHlo.unary main_c_27 main_v125 (broadcastInDim S800000 ![] bcast_S_S800000 : (⟨S_, .i32⟩ : BufTy).Contents (Elt F) → (⟨S800000, .i32⟩ : BufTy).Contents (Elt F)), -- 160: %125
    StableHlo.binary main_v3 main_v125 main_v126 (cmpi .slt : (⟨S800000, .i32⟩ : BufTy).Contents (Elt F) → (⟨S800000, .i32⟩ : BufTy).Contents (Elt F) → (⟨S800000, .i1⟩ : BufTy).Contents (Elt F)), -- 161: %126
    StableHlo.nullary main_c_28 (constantI S_ 32 50000#32), -- 162: %c_28
    StableHlo.unary main_c_28 main_v127 (broadcastInDim S800000 ![] bcast_S_S800000 : (⟨S_, .i32⟩ : BufTy).Contents (Elt F) → (⟨S800000, .i32⟩ : BufTy).Contents (Elt F)), -- 163: %127
    StableHlo.binary main_v3 main_v127 main_v128 (addi : (⟨S800000, .i32⟩ : BufTy).Contents (Elt F) → (⟨S800000, .i32⟩ : BufTy).Contents (Elt F) → (⟨S800000, .i32⟩ : BufTy).Contents (Elt F)), -- 164: %128
    StableHlo.ternary main_v126 main_v128 main_v3 main_v129 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 165: %129
    StableHlo.unary main_v129 main_v130 (broadcastInDim S800000x1 ![0] bcast_S800000_S800000x1_0 : (⟨S800000, .i32⟩ : BufTy).Contents (Elt F) → (⟨S800000x1, .i32⟩ : BufTy).Contents (Elt F)), -- 166: %130
    StableHlo.nullary main_cst_29 (constant S_ .f32 0x3F800000#32), -- 167: %cst_29
    StableHlo.unary main_cst_29 main_v131 (broadcastInDim S800000 ![] bcast_S_S800000 : (⟨S_, .f32⟩ : BufTy).Contents (Elt F) → (⟨S800000, .f32⟩ : BufTy).Contents (Elt F)), -- 168: %131
    StableHlo.ternary main_v124 main_v130 main_v131 main_v132 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- 169: %132
    StableHlo.nullary main_cst_30 (constant S_ .f32 0x3F800000#32), -- 170: %cst_30
    StableHlo.unary main_cst_30 main_v133 (broadcastInDim S50000 ![] bcast_S_S50000 : (⟨S_, .f32⟩ : BufTy).Contents (Elt F) → (⟨S50000, .f32⟩ : BufTy).Contents (Elt F)), -- 171: %133
    StableHlo.binary main_v132 main_v133 main_v134 (addf : (⟨S50000, .f32⟩ : BufTy).Contents (Elt F) → (⟨S50000, .f32⟩ : BufTy).Contents (Elt F) → (⟨S50000, .f32⟩ : BufTy).Contents (Elt F)), -- 172: %134
    StableHlo.unary main_v134 main_v135 (Host.rsqrt : (⟨S50000, .f32⟩ : BufTy).Contents (Elt F) → (⟨S50000, .f32⟩ : BufTy).Contents (Elt F)), -- 173: %135
    StableHlo.nullary main_c_31 (constantI S_ 32 0#32), -- 174: %c_31
    StableHlo.unary main_c_31 main_v136 (broadcastInDim S800000 ![] bcast_S_S800000 : (⟨S_, .i32⟩ : BufTy).Contents (Elt F) → (⟨S800000, .i32⟩ : BufTy).Contents (Elt F)), -- 175: %136
    StableHlo.binary main_v1 main_v136 main_v137 (cmpi .slt : (⟨S800000, .i32⟩ : BufTy).Contents (Elt F) → (⟨S800000, .i32⟩ : BufTy).Contents (Elt F) → (⟨S800000, .i1⟩ : BufTy).Contents (Elt F)), -- 176: %137
    StableHlo.nullary main_c_32 (constantI S_ 32 50000#32), -- 177: %c_32
    StableHlo.unary main_c_32 main_v138 (broadcastInDim S800000 ![] bcast_S_S800000 : (⟨S_, .i32⟩ : BufTy).Contents (Elt F) → (⟨S800000, .i32⟩ : BufTy).Contents (Elt F)), -- 178: %138
    StableHlo.binary main_v1 main_v138 main_v139 (addi : (⟨S800000, .i32⟩ : BufTy).Contents (Elt F) → (⟨S800000, .i32⟩ : BufTy).Contents (Elt F) → (⟨S800000, .i32⟩ : BufTy).Contents (Elt F)), -- 179: %139
    StableHlo.ternary main_v137 main_v139 main_v1 main_v140 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 180: %140
    StableHlo.unary main_v140 main_v141 (broadcastInDim S800000x1 ![0] bcast_S800000_S800000x1_0 : (⟨S800000, .i32⟩ : BufTy).Contents (Elt F) → (⟨S800000x1, .i32⟩ : BufTy).Contents (Elt F)), -- 181: %141
    StableHlo.binary main_v135 main_v141 main_v142 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 182: %142
    StableHlo.nullary main_c_33 (constantI S_ 32 0#32), -- 183: %c_33
    StableHlo.unary main_c_33 main_v143 (broadcastInDim S800000 ![] bcast_S_S800000 : (⟨S_, .i32⟩ : BufTy).Contents (Elt F) → (⟨S800000, .i32⟩ : BufTy).Contents (Elt F)) ] -- 184: %143

/-- The buffers that operations 123 … 184 write, in order. -/
abbrev ops2_W : List (Ref sig .tc) :=
  [main_v95, main_v96, main_v97, main_v98, main_v99, main_v100, main_v101, main_cst_23, main_v102, main_v103, main_v104, main_v105, main_v106, main_v107, main_v108, main_v109, main_v110, main_v111, main_v112, main_call1.cst.ref, main_call1.v0.ref, main_call1.v1.ref, main_v114, main_cst_24, main_v115, main_v116, main_v117, main_cst_25, main_v118, main_v119, main_v120, main_v121, main_v122, main_v123, main_cst_26, main_v124, main_c_27, main_v125, main_v126, main_c_28, main_v127, main_v128, main_v129, main_v130, main_cst_29, main_v131, main_v132, main_cst_30, main_v133, main_v134, main_v135, main_c_31, main_v136, main_v137, main_c_32, main_v138, main_v139, main_v140, main_v141, main_v142, main_c_33, main_v143]

/-- Operations 185 … 254 of 254. -/
abbrev ops3 : List (HloOp τ sig (Elt F)) :=
  [ StableHlo.binary main_v3 main_v143 main_v144 (cmpi .slt : (⟨S800000, .i32⟩ : BufTy).Contents (Elt F) → (⟨S800000, .i32⟩ : BufTy).Contents (Elt F) → (⟨S800000, .i1⟩ : BufTy).Contents (Elt F)), -- 185: %144
    StableHlo.nullary main_c_34 (constantI S_ 32 50000#32), -- 186: %c_34
    StableHlo.unary main_c_34 main_v145 (broadcastInDim S800000 ![] bcast_S_S800000 : (⟨S_, .i32⟩ : BufTy).Contents (Elt F) → (⟨S800000, .i32⟩ : BufTy).Contents (Elt F)), -- 187: %145
    StableHlo.binary main_v3 main_v145 main_v146 (addi : (⟨S800000, .i32⟩ : BufTy).Contents (Elt F) → (⟨S800000, .i32⟩ : BufTy).Contents (Elt F) → (⟨S800000, .i32⟩ : BufTy).Contents (Elt F)), -- 188: %146
    StableHlo.ternary main_v144 main_v146 main_v3 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 189: %147
    StableHlo.unary main_v147 main_v148 (broadcastInDim S800000x1 ![0] bcast_S800000_S800000x1_0 : (⟨S800000, .i32⟩ : BufTy).Contents (Elt F) → (⟨S800000x1, .i32⟩ : BufTy).Contents (Elt F)), -- 190: %148
    StableHlo.binary main_v135 main_v148 main_v149 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 191: %149
    StableHlo.binary main_v142 main_v149 main_v150 (mulf : (⟨S800000, .f32⟩ : BufTy).Contents (Elt F) → (⟨S800000, .f32⟩ : BufTy).Contents (Elt F) → (⟨S800000, .f32⟩ : BufTy).Contents (Elt F)), -- 192: %150
    StableHlo.nullary main_c_35 (constantI S_ 32 0#32), -- 193: %c_35
    StableHlo.unary main_c_35 main_v151 (broadcastInDim S800000 ![] bcast_S_S800000 : (⟨S_, .i32⟩ : BufTy).Contents (Elt F) → (⟨S800000, .i32⟩ : BufTy).Contents (Elt F)), -- 194: %151
    StableHlo.binary main_v1 main_v151 main_v152 (cmpi .slt : (⟨S800000, .i32⟩ : BufTy).Contents (Elt F) → (⟨S800000, .i32⟩ : BufTy).Contents (Elt F) → (⟨S800000, .i1⟩ : BufTy).Contents (Elt F)), -- 195: %152
    StableHlo.nullary main_c_36 (constantI S_ 32 50000#32), -- 196: %c_36
    StableHlo.unary main_c_36 main_v153 (broadcastInDim S800000 ![] bcast_S_S800000 : (⟨S_, .i32⟩ : BufTy).Contents (Elt F) → (⟨S800000, .i32⟩ : BufTy).Contents (Elt F)), -- 197: %153
    StableHlo.binary main_v1 main_v153 main_v154 (addi : (⟨S800000, .i32⟩ : BufTy).Contents (Elt F) → (⟨S800000, .i32⟩ : BufTy).Contents (Elt F) → (⟨S800000, .i32⟩ : BufTy).Contents (Elt F)), -- 198: %154
    StableHlo.ternary main_v152 main_v154 main_v1 main_v155 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 199: %155
    StableHlo.unary main_v155 main_v156 (broadcastInDim S800000x1 ![0] bcast_S800000_S800000x1_0 : (⟨S800000, .i32⟩ : BufTy).Contents (Elt F) → (⟨S800000x1, .i32⟩ : BufTy).Contents (Elt F)), -- 200: %156
    StableHlo.binary main_v123 main_v156 main_v157 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)), -- 201: %157
    StableHlo.unary main_v150 main_v158 (broadcastInDim S800000x1 ![0] bcast_S800000_S800000x1_0 : (⟨S800000, .f32⟩ : BufTy).Contents (Elt F) → (⟨S800000x1, .f32⟩ : BufTy).Contents (Elt F)), -- 202: %158
    StableHlo.unary main_v158 main_v159 (broadcastInDim S800000x256 ![0, 1] bcast_S800000x1_S800000x256_0_1 : (⟨S800000x1, .f32⟩ : BufTy).Contents (Elt F) → (⟨S800000x256, .f32⟩ : BufTy).Contents (Elt F)), -- 203: %159
    StableHlo.binary main_v157 main_v159 main_v160 (mulf : (⟨S800000x256, .f32⟩ : BufTy).Contents (Elt F) → (⟨S800000x256, .f32⟩ : BufTy).Contents (Elt F) → (⟨S800000x256, .f32⟩ : BufTy).Contents (Elt F)), -- 204: %160
    StableHlo.nullary main_cst_37 (constant S_ .f32 0x00000000#32), -- 205: %cst_37
    StableHlo.unary main_cst_37 main_v161 (broadcastInDim S50000x256 ![] bcast_S_S50000x256 : (⟨S_, .f32⟩ : BufTy).Contents (Elt F) → (⟨S50000x256, .f32⟩ : BufTy).Contents (Elt F)), -- 206: %161
    StableHlo.unary main_v3 main_v162 (broadcastInDim S800000x1 ![0] bcast_S800000_S800000x1_0 : (⟨S800000, .i32⟩ : BufTy).Contents (Elt F) → (⟨S800000x1, .i32⟩ : BufTy).Contents (Elt F)), -- 207: %162
    StableHlo.ternary main_v161 main_v162 main_v160 main_v163 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)), -- 208: %163
    StableHlo.binary main_v135 main_v135 main_v164 (mulf : (⟨S50000, .f32⟩ : BufTy).Contents (Elt F) → (⟨S50000, .f32⟩ : BufTy).Contents (Elt F) → (⟨S50000, .f32⟩ : BufTy).Contents (Elt F)), -- 209: %164
    StableHlo.unary main_v164 main_v165 (broadcastInDim S50000x1 ![0] bcast_S50000_S50000x1_0 : (⟨S50000, .f32⟩ : BufTy).Contents (Elt F) → (⟨S50000x1, .f32⟩ : BufTy).Contents (Elt F)), -- 210: %165
    StableHlo.unary main_v165 main_v166 (broadcastInDim S50000x256 ![0, 1] bcast_S50000x1_S50000x256_0_1 : (⟨S50000x1, .f32⟩ : BufTy).Contents (Elt F) → (⟨S50000x256, .f32⟩ : BufTy).Contents (Elt F)), -- 211: %166
    StableHlo.binary main_v123 main_v166 main_v167 (mulf : (⟨S50000x256, .f32⟩ : BufTy).Contents (Elt F) → (⟨S50000x256, .f32⟩ : BufTy).Contents (Elt F) → (⟨S50000x256, .f32⟩ : BufTy).Contents (Elt F)), -- 212: %167
    StableHlo.binary main_v163 main_v167 main_v168 (addf : (⟨S50000x256, .f32⟩ : BufTy).Contents (Elt F) → (⟨S50000x256, .f32⟩ : BufTy).Contents (Elt F) → (⟨S50000x256, .f32⟩ : BufTy).Contents (Elt F)), -- 213: %168
    StableHlo.unary main_arg7 main_v169 (broadcastInDim S1x256 ![1] bcast_S256_S1x256_1 : (⟨S256, .f32⟩ : BufTy).Contents (Elt F) → (⟨S1x256, .f32⟩ : BufTy).Contents (Elt F)), -- 214: %169
    StableHlo.unary main_v169 main_v170 (broadcastInDim S50000x256 ![0, 1] bcast_S1x256_S50000x256_0_1 : (⟨S1x256, .f32⟩ : BufTy).Contents (Elt F) → (⟨S50000x256, .f32⟩ : BufTy).Contents (Elt F)), -- 215: %170
    StableHlo.binary main_v168 main_v170 main_v171 (addf : (⟨S50000x256, .f32⟩ : BufTy).Contents (Elt F) → (⟨S50000x256, .f32⟩ : BufTy).Contents (Elt F) → (⟨S50000x256, .f32⟩ : BufTy).Contents (Elt F)), -- 216: %171
    StableHlo.TRef.nullary main_call2.cst (constant S_ .f32 0x00000000#32), -- 217: %172 is @relu %cst
    StableHlo.TRef.unary main_call2.cst main_call2.v0 (broadcastInDim S50000x256 ![] bcast_S_S50000x256), -- 218: %172 is @relu %0
    StableHlo.TRef.binary (.of main_v171 : StableHlo.TRef sig ⟨S50000x256, .f32⟩) main_call2.v0 main_call2.v1 maximumf, -- 219: %172 is @relu %1
    StableHlo.binary main_v172 main_v172 main_v173 (mulf : (⟨S50000x256, .f32⟩ : BufTy).Contents (Elt F) → (⟨S50000x256, .f32⟩ : BufTy).Contents (Elt F) → (⟨S50000x256, .f32⟩ : BufTy).Contents (Elt F)), -- 220: %173
    StableHlo.nullary main_cst_38 (constant S_ .f32 0x00000000#32), -- 221: %cst_38
    StableHlo.binary main_v173 main_cst_38 main_v174 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)), -- 222: %174
    StableHlo.unary main_v174 main_v175 (broadcastInDim S50000x1 ![0] bcast_S50000_S50000x1_0 : (⟨S50000, .f32⟩ : BufTy).Contents (Elt F) → (⟨S50000x1, .f32⟩ : BufTy).Contents (Elt F)), -- 223: %175
    StableHlo.unary main_v175 main_v176 (Host.sqrt : (⟨S50000x1, .f32⟩ : BufTy).Contents (Elt F) → (⟨S50000x1, .f32⟩ : BufTy).Contents (Elt F)), -- 224: %176
    StableHlo.nullary main_cst_39 (constant S_ .f32 0x2B8CBCCC#32), -- 225: %cst_39
    StableHlo.unary main_cst_39 main_v177 (broadcastInDim S50000x1 ![] bcast_S_S50000x1 : (⟨S_, .f32⟩ : BufTy).Contents (Elt F) → (⟨S50000x1, .f32⟩ : BufTy).Contents (Elt F)), -- 226: %177
    StableHlo.binary main_v176 main_v177 main_v178 (maximumf : (⟨S50000x1, .f32⟩ : BufTy).Contents (Elt F) → (⟨S50000x1, .f32⟩ : BufTy).Contents (Elt F) → (⟨S50000x1, .f32⟩ : BufTy).Contents (Elt F)), -- 227: %178
    StableHlo.unary main_v178 main_v179 (broadcastInDim S50000x256 ![0, 1] bcast_S50000x1_S50000x256_0_1 : (⟨S50000x1, .f32⟩ : BufTy).Contents (Elt F) → (⟨S50000x256, .f32⟩ : BufTy).Contents (Elt F)), -- 228: %179
    StableHlo.binary main_v172 main_v179 main_v180 (Host.divf : (⟨S50000x256, .f32⟩ : BufTy).Contents (Elt F) → (⟨S50000x256, .f32⟩ : BufTy).Contents (Elt F) → (⟨S50000x256, .f32⟩ : BufTy).Contents (Elt F)), -- 229: %180
    StableHlo.unary main_arg8 main_v181 ((transpose S256x256 [1, 0] · transposes_S256x256_S256x256_1_0) : (⟨S256x256, .f32⟩ : BufTy).Contents (Elt F) → (⟨S256x256, .f32⟩ : BufTy).Contents (Elt F)), -- 230: %181
    StableHlo.binary main_v180 main_v181 main_v182 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)), -- 231: %182
    StableHlo.unary main_arg9 main_v183 (broadcastInDim S1x256 ![1] bcast_S256_S1x256_1 : (⟨S256, .f32⟩ : BufTy).Contents (Elt F) → (⟨S1x256, .f32⟩ : BufTy).Contents (Elt F)), -- 232: %183
    StableHlo.unary main_v183 main_v184 (broadcastInDim S50000x256 ![0, 1] bcast_S1x256_S50000x256_0_1 : (⟨S1x256, .f32⟩ : BufTy).Contents (Elt F) → (⟨S50000x256, .f32⟩ : BufTy).Contents (Elt F)), -- 233: %184
    StableHlo.binary main_v182 main_v184 main_v185 (addf : (⟨S50000x256, .f32⟩ : BufTy).Contents (Elt F) → (⟨S50000x256, .f32⟩ : BufTy).Contents (Elt F) → (⟨S50000x256, .f32⟩ : BufTy).Contents (Elt F)), -- 234: %185
    StableHlo.TRef.nullary main_call3.cst (constant S_ .f32 0x00000000#32), -- 235: %186 is @elu %cst
    StableHlo.TRef.unary main_call3.cst main_call3.v0 (broadcastInDim S50000x256 ![] bcast_S_S50000x256), -- 236: %186 is @elu %0
    StableHlo.TRef.binary (.of main_v185 : StableHlo.TRef sig ⟨S50000x256, .f32⟩) main_call3.v0 main_call3.v1 (cmpf .ogt), -- 237: %186 is @elu %1
    StableHlo.TRef.nullary main_call3.cst_0 (constant S_ .f32 0x00000000#32), -- 238: %186 is @elu %cst_0
    StableHlo.TRef.unary main_call3.cst_0 main_call3.v2 (broadcastInDim S50000x256 ![] bcast_S_S50000x256), -- 239: %186 is @elu %2
    StableHlo.TRef.binary (.of main_v185 : StableHlo.TRef sig ⟨S50000x256, .f32⟩) main_call3.v2 main_call3.v3 (cmpf .ogt), -- 240: %186 is @elu %3
    StableHlo.TRef.nullary main_call3.cst_1 (constant S_ .f32 0x00000000#32), -- 241: %186 is @elu %cst_1
    StableHlo.TRef.unary main_call3.cst_1 main_call3.call0.v0 id, -- 242: %186 is @elu @where %0
    StableHlo.TRef.unary main_call3.call0.v0 main_call3.call0.v1 (broadcastInDim S50000x256 ![] bcast_S_S50000x256), -- 243: %186 is @elu @where %1
    StableHlo.TRef.ternary main_call3.v3 main_call3.call0.v1 (.of main_v185 : StableHlo.TRef sig ⟨S50000x256, .f32⟩) main_call3.call0.v2 select, -- 244: %186 is @elu @where %2
    StableHlo.TRef.unary main_call3.call0.v2 main_call3.v5 Host.expm1, -- 245: %186 is @elu %5
    StableHlo.TRef.nullary main_call3.cst_2 (constant S_ .f32 0x3F800000#32), -- 246: %186 is @elu %cst_2
    StableHlo.TRef.unary main_call3.cst_2 main_call3.v6 (broadcastInDim S50000x256 ![] bcast_S_S50000x256), -- 247: %186 is @elu %6
    StableHlo.TRef.binary main_call3.v6 main_call3.v5 main_call3.v7 mulf, -- 248: %186 is @elu %7
    StableHlo.TRef.ternary main_call3.v1 (.of main_v185 : StableHlo.TRef sig ⟨S50000x256, .f32⟩) main_call3.v7 main_call3.call1.v0 select, -- 249: %186 is @elu @where_0 %0
    StableHlo.unary main_arg10 main_v187 ((transpose S256x256 [1, 0] · transposes_S256x256_S256x256_1_0) : (⟨S256x256, .f32⟩ : BufTy).Contents (Elt F) → (⟨S256x256, .f32⟩ : BufTy).Contents (Elt F)), -- 250: %187
    StableHlo.binary main_v186 main_v187 main_v188 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)), -- 251: %188
    StableHlo.unary main_arg11 main_v189 (broadcastInDim S1x256 ![1] bcast_S256_S1x256_1 : (⟨S256, .f32⟩ : BufTy).Contents (Elt F) → (⟨S1x256, .f32⟩ : BufTy).Contents (Elt F)), -- 252: %189
    StableHlo.unary main_v189 main_v190 (broadcastInDim S50000x256 ![0, 1] bcast_S1x256_S50000x256_0_1 : (⟨S1x256, .f32⟩ : BufTy).Contents (Elt F) → (⟨S50000x256, .f32⟩ : BufTy).Contents (Elt F)), -- 253: %190
    StableHlo.binary main_v188 main_v190 main_v191 (addf : (⟨S50000x256, .f32⟩ : BufTy).Contents (Elt F) → (⟨S50000x256, .f32⟩ : BufTy).Contents (Elt F) → (⟨S50000x256, .f32⟩ : BufTy).Contents (Elt F)) ] -- 254: %191

/-- The buffers that operations 185 … 254 write, in order. -/
abbrev ops3_W : List (Ref sig .tc) :=
  [main_v144, main_c_34, main_v145, main_v146, main_v147, main_v148, main_v149, main_v150, main_c_35, main_v151, main_v152, main_c_36, main_v153, main_v154, main_v155, main_v156, main_v157, main_v158, main_v159, main_v160, main_cst_37, main_v161, main_v162, main_v163, main_v164, main_v165, main_v166, main_v167, main_v168, main_v169, main_v170, main_v171, main_call2.cst.ref, main_call2.v0.ref, main_call2.v1.ref, main_v173, main_cst_38, main_v174, main_v175, main_v176, main_cst_39, main_v177, main_v178, main_v179, main_v180, main_v181, main_v182, main_v183, main_v184, main_v185, main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref, main_v187, main_v188, main_v189, main_v190, main_v191]

/-- All 254 operations, in order. -/
abbrev ops : List (HloOp τ sig (Elt F)) :=
  ops0 ++ (ops1 ++ (ops2 ++ ops3))

/-- The buffers they write, in order. -/
abbrev ops_W : List (Ref sig .tc) :=
  ops0_W ++ (ops1_W ++ (ops2_W ++ ops3_W))

end Cert.ReferenceIdeal.RefRun

end
-- ==== Proof.RefRun.lean ====
/- The run of the reference program. Its @main is a straight line of host operations: four consecutive stretches run one
   after the other, three of which call a function whose body is again a straight line (one of them calls two more). So
   @main is the sequence of the operations listed in RefOps.lean, stretch by stretch (`main_part0_eq` … `main_part3_eq`)
   and as a whole (`main_eq`); every operation touches buffers of the TensorCore only (`ops_sub`) and determines what it
   writes (`ops_fresh`). A straight line of such operations runs to its end from any memory, and each buffer then holds
   the fold of the operations' results over what the device held at launch (Lib/StableHlo/Run.lean `run_seq`). A buffer
   that no operation writes keeps its contents (`keep`): the twelve arguments are such buffers. The result buffer
   `main_v191` (the last addition) is stated AT THE FOLD `after ops (launchContents m c)`, not opened: what the fold is,
   as a function of the arguments, is read elsewhere, stage by stage. -/
import proofs.«111732_j62783831933365_2_alg».proof.Defs
import proofs.«111732_j62783831933365_2_alg».proof.Proof.RefOps
import proofs.«111732_j62783831933365_2_alg».proof.Proof.Gen.Pre_finite_inputs
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the sequence of the operations

Each stretch is a chain of `hlo` steps, a called function's body spliced in at its call; sequencing a chain before a
continuation pushes the continuation to the chain's end, by computation, so both sides are one chain. -/

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl

/-- @main runs its four stretches in order, and a sequence of two lists run one after the other is the sequence of
    their concatenation (`seq_append`). -/
theorem main_eq (c : Dev nD) : main (F := F) c = seq ops := by
  simp only [ops, seq_append, ← main_part0_eq c, ← main_part1_eq c, ← main_part2_eq c, ← main_part3_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-! Every operation touches TensorCore buffers only: each is one of the builders, whose buffers are its operands' and
    its result's. -/

set_option maxRecDepth 8192 in
theorem ops0_sub : (ops0 : List (HloOp τ sig (Elt F))).Forall fun op => op.bufs ⊆ tcRefs τ sig := by
  repeat' apply And.intro
  all_goals
    show HloOp.bufs _ ⊆ tcRefs τ sig
    first
      | with_reducible exact nullary_bufs_sub ..
      | with_reducible exact unary_bufs_sub ..
      | with_reducible exact binary_bufs_sub ..
      | with_reducible exact ternary_bufs_sub ..
      | with_reducible exact reshape_bufs_sub ..

set_option maxRecDepth 8192 in
theorem ops1_sub : (ops1 : List (HloOp τ sig (Elt F))).Forall fun op => op.bufs ⊆ tcRefs τ sig := by
  repeat' apply And.intro
  all_goals
    show HloOp.bufs _ ⊆ tcRefs τ sig
    first
      | with_reducible exact nullary_bufs_sub ..
      | with_reducible exact unary_bufs_sub ..
      | with_reducible exact binary_bufs_sub ..
      | with_reducible exact ternary_bufs_sub ..
      | with_reducible exact reshape_bufs_sub ..

set_option maxRecDepth 8192 in
theorem ops2_sub : (ops2 : List (HloOp τ sig (Elt F))).Forall fun op => op.bufs ⊆ tcRefs τ sig := by
  repeat' apply And.intro
  all_goals
    show HloOp.bufs _ ⊆ tcRefs τ sig
    first
      | with_reducible exact nullary_bufs_sub ..
      | with_reducible exact unary_bufs_sub ..
      | with_reducible exact binary_bufs_sub ..
      | with_reducible exact ternary_bufs_sub ..
      | with_reducible exact reshape_bufs_sub ..

set_option maxRecDepth 8192 in
theorem ops3_sub : (ops3 : List (HloOp τ sig (Elt F))).Forall fun op => op.bufs ⊆ tcRefs τ sig := by
  repeat' apply And.intro
  all_goals
    show HloOp.bufs _ ⊆ tcRefs τ sig
    first
      | with_reducible exact nullary_bufs_sub ..
      | with_reducible exact unary_bufs_sub ..
      | with_reducible exact binary_bufs_sub ..
      | with_reducible exact ternary_bufs_sub ..
      | with_reducible exact reshape_bufs_sub ..

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-! Every operation determines what it writes (none leaves a buffer at contents of the machine's choosing). -/

set_option maxRecDepth 8192 in
theorem ops0_fresh : (ops0 : List (HloOp τ sig (Elt F))).Forall fun op => op.fresh = ∅ := by
  repeat' apply And.intro
  all_goals rfl

set_option maxRecDepth 8192 in
theorem ops1_fresh : (ops1 : List (HloOp τ sig (Elt F))).Forall fun op => op.fresh = ∅ := by
  repeat' apply And.intro
  all_goals rfl

set_option maxRecDepth 8192 in
theorem ops2_fresh : (ops2 : List (HloOp τ sig (Elt F))).Forall fun op => op.fresh = ∅ := by
  repeat' apply And.intro
  all_goals rfl

set_option maxRecDepth 8192 in
theorem ops3_fresh : (ops3 : List (HloOp τ sig (Elt F))).Forall fun op => op.fresh = ∅ := by
  repeat' apply And.intro
  all_goals rfl

theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-! ## A buffer no operation writes keeps its contents

Each operation writes exactly its result buffer, and the lists `opsK_W` name these buffers in order; a reference that is
not in the list is then written by no operation of the stretch (`after_of_writes_sub`). Through all four stretches:
`after` of a concatenation is `after` of the second list at `after` of the first (`after_append`). -/

set_option maxRecDepth 8192 in
theorem ops0_writes : (ops0 : List (HloOp τ sig (Elt F))).Forall fun op =>
    op.writes ⊆ (ops0_W.map (Proc.devRef (τ := τ) .tc)).toFinset := by
  repeat' apply And.intro
  all_goals exact Finset.singleton_subset_iff.mpr (List.mem_toFinset.mpr (List.mem_map_of_mem (by decide)))

set_option maxRecDepth 8192 in
theorem ops1_writes : (ops1 : List (HloOp τ sig (Elt F))).Forall fun op =>
    op.writes ⊆ (ops1_W.map (Proc.devRef (τ := τ) .tc)).toFinset := by
  repeat' apply And.intro
  all_goals exact Finset.singleton_subset_iff.mpr (List.mem_toFinset.mpr (List.mem_map_of_mem (by decide)))

set_option maxRecDepth 8192 in
theorem ops2_writes : (ops2 : List (HloOp τ sig (Elt F))).Forall fun op =>
    op.writes ⊆ (ops2_W.map (Proc.devRef (τ := τ) .tc)).toFinset := by
  repeat' apply And.intro
  all_goals exact Finset.singleton_subset_iff.mpr (List.mem_toFinset.mpr (List.mem_map_of_mem (by decide)))

set_option maxRecDepth 8192 in
theorem ops3_writes : (ops3 : List (HloOp τ sig (Elt F))).Forall fun op =>
    op.writes ⊆ (ops3_W.map (Proc.devRef (τ := τ) .tc)).toFinset := by
  repeat' apply And.intro
  all_goals exact Finset.singleton_subset_iff.mpr (List.mem_toFinset.mpr (List.mem_map_of_mem (by decide)))

/-- The fold over all the operations is the fold over the four stretches in turn. -/
theorem after_ops (V : Valuation τ sig (Elt F)) : after ops V = after ops3 (after ops2 (after ops1 (after ops0 V))) := by
  simp only [ops, after_append]

/-- A buffer written by none of the operations holds after them what it held before. -/
theorem keep (V : Valuation τ sig (Elt F)) (r : Ref sig .tc) (h : r ∉ ops_W) :
    after ops V (Proc.devRef .tc r) = V (Proc.devRef .tc r) := by
  simp only [ops_W, List.mem_append, not_or] at h
  obtain ⟨h0, h1, h2, h3⟩ := h
  rw [after_ops, after_of_writes_sub ops3 _ ops3_writes h3, after_of_writes_sub ops2 _ ops2_writes h2,
    after_of_writes_sub ops1 _ ops1_writes h1, after_of_writes_sub ops0 _ ops0_writes h0]

/-! ## The run -/

/-- On every device, for any float values, from any memory with zero counters: every weakly fair execution of @main
    terminates; the result buffer then holds the fold of the operations' results over the device's launch contents, at
    that buffer, and each of the twelve argument buffers what it held at launch. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v191) = after ops (launchContents m c) (Proc.devRef .tc main_v191)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v191,
      (h c main_arg0).trans (keep _ main_arg0 (by decide)),
      (h c main_arg1).trans (keep _ main_arg1 (by decide)),
      (h c main_arg2).trans (keep _ main_arg2 (by decide)),
      (h c main_arg3).trans (keep _ main_arg3 (by decide)),
      (h c main_arg4).trans (keep _ main_arg4 (by decide)),
      (h c main_arg5).trans (keep _ main_arg5 (by decide)),
      (h c main_arg6).trans (keep _ main_arg6 (by decide)),
      (h c main_arg7).trans (keep _ main_arg7 (by decide)),
      (h c main_arg8).trans (keep _ main_arg8 (by decide)),
      (h c main_arg9).trans (keep _ main_arg9 (by decide)),
      (h c main_arg10).trans (keep _ main_arg10 (by decide)),
      (h c main_arg11).trans (keep _ main_arg11 (by decide))⟩)
    (run_seq scopedRefs_eq scopedSems_eq defs main (fun _ => ops) main_eq (fun _ => ops_sub) m ρ (fun _ => ops_fresh))

/-- The reference program terminates without a fault and leaves its argument arrays as they were: the run, its
    statement about the result dropped (the precondition is not needed). -/
theorem frame : Cert.frame_ReferenceIdeal := fun m ρ _ =>
  (θ_run Cert.ReferenceIdeal.defs _ _).mono (fun _ h c => (h c).2) (run (F := Ideal) m ρ)

end Cert.ReferenceIdeal.RefRun

end
-- ==== Proof.RefLayers.lean ====
/- The reference program's host operations once more, in the same order, cut where its three graph layers' aggregations
   begin and end: a list for each aggregation (from the zeros its degree count starts from to the sum with the bias), and
   a list for what lies before the first, between two, and after the last; beside each list the buffers its operations
   write, in the same order. 254 operations in all. -/
import proofs.«111732_j62783831933365_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 6 of 254. -/
abbrev before : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)), -- 1: %0
    StableHlo.reshape main_v0 main_v1 rfl shapeCasts_S1x800000_S800000, -- 2: %1
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)), -- 3: %2
    StableHlo.reshape main_v2 main_v3 rfl shapeCasts_S1x800000_S800000, -- 4: %3
    StableHlo.unary main_arg2 main_v4 ((transpose S2613x256 [1, 0] · transposes_S256x2613_S2613x256_1_0) : (⟨S256x2613, .f32⟩ : BufTy).Contents (Elt F) → (⟨S2613x256, .f32⟩ : BufTy).Contents (Elt F)), -- 5: %4
    StableHlo.binary main_arg0 main_v4 main_v5 ((fun l r => Host.dotGeneral dot_S50000x2613_S2613x256_S50000x256_1_0_0_1_n_n none l r) : (⟨S50000x2613, .f32⟩ : BufTy).Contents (Elt F) → (⟨S2613x256, .f32⟩ : BufTy).Contents (Elt F) → (⟨S50000x256, .f32⟩ : BufTy).Contents (Elt F)) ] -- 6: %5

/-- The buffers that operations 1 … 6 write, in order. -/
abbrev before_W : List (Ref sig .tc) :=
  [main_v0, main_v1, main_v2, main_v3, main_v4, main_v5]

/-- Operations 7 … 66 of 254. -/
abbrev layer0 : List (HloOp τ sig (Elt F)) :=
  [ StableHlo.nullary main_cst (constant S_ .f32 0x00000000#32), -- 7: %cst
    StableHlo.unary main_cst main_v6 (broadcastInDim S50000 ![] bcast_S_S50000 : (⟨S_, .f32⟩ : BufTy).Contents (Elt F) → (⟨S50000, .f32⟩ : BufTy).Contents (Elt F)), -- 8: %6
    StableHlo.nullary main_c (constantI S_ 32 0#32), -- 9: %c
    StableHlo.unary main_c main_v7 (broadcastInDim S800000 ![] bcast_S_S800000 : (⟨S_, .i32⟩ : BufTy).Contents (Elt F) → (⟨S800000, .i32⟩ : BufTy).Contents (Elt F)), -- 10: %7
    StableHlo.binary main_v3 main_v7 main_v8 (cmpi .slt : (⟨S800000, .i32⟩ : BufTy).Contents (Elt F) → (⟨S800000, .i32⟩ : BufTy).Contents (Elt F) → (⟨S800000, .i1⟩ : BufTy).Contents (Elt F)), -- 11: %8
    StableHlo.nullary main_c_0 (constantI S_ 32 50000#32), -- 12: %c_0
    StableHlo.unary main_c_0 main_v9 (broadcastInDim S800000 ![] bcast_S_S800000 : (⟨S_, .i32⟩ : BufTy).Contents (Elt F) → (⟨S800000, .i32⟩ : BufTy).Contents (Elt F)), -- 13: %9
    StableHlo.binary main_v3 main_v9 main_v10 (addi : (⟨S800000, .i32⟩ : BufTy).Contents (Elt F) → (⟨S800000, .i32⟩ : BufTy).Contents (Elt F) → (⟨S800000, .i32⟩ : BufTy).Contents (Elt F)), -- 14: %10
    StableHlo.ternary main_v8 main_v10 main_v3 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 15: %11
    StableHlo.unary main_v11 main_v12 (broadcastInDim S800000x1 ![0] bcast_S800000_S800000x1_0 : (⟨S800000, .i32⟩ : BufTy).Contents (Elt F) → (⟨S800000x1, .i32⟩ : BufTy).Contents (Elt F)), -- 16: %12
    StableHlo.nullary main_cst_1 (constant S_ .f32 0x3F800000#32), -- 17: %cst_1
    StableHlo.unary main_cst_1 main_v13 (broadcastInDim S800000 ![] bcast_S_S800000 : (⟨S_, .f32⟩ : BufTy).Contents (Elt F) → (⟨S800000, .f32⟩ : BufTy).Contents (Elt F)), -- 18: %13
    StableHlo.ternary main_v6 main_v12 main_v13 main_v14 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- 19: %14
    StableHlo.nullary main_cst_2 (constant S_ .f32 0x3F800000#32), -- 20: %cst_2
    StableHlo.unary main_cst_2 main_v15 (broadcastInDim S50000 ![] bcast_S_S50000 : (⟨S_, .f32⟩ : BufTy).Contents (Elt F) → (⟨S50000, .f32⟩ : BufTy).Contents (Elt F)), -- 21: %15
    StableHlo.binary main_v14 main_v15 main_v16 (addf : (⟨S50000, .f32⟩ : BufTy).Contents (Elt F) → (⟨S50000, .f32⟩ : BufTy).Contents (Elt F) → (⟨S50000, .f32⟩ : BufTy).Contents (Elt F)), -- 22: %16
    StableHlo.unary main_v16 main_v17 (Host.rsqrt : (⟨S50000, .f32⟩ : BufTy).Contents (Elt F) → (⟨S50000, .f32⟩ : BufTy).Contents (Elt F)), -- 23: %17
    StableHlo.nullary main_c_3 (constantI S_ 32 0#32), -- 24: %c_3
    StableHlo.unary main_c_3 main_v18 (broadcastInDim S800000 ![] bcast_S_S800000 : (⟨S_, .i32⟩ : BufTy).Contents (Elt F) → (⟨S800000, .i32⟩ : BufTy).Contents (Elt F)), -- 25: %18
    StableHlo.binary main_v1 main_v18 main_v19 (cmpi .slt : (⟨S800000, .i32⟩ : BufTy).Contents (Elt F) → (⟨S800000, .i32⟩ : BufTy).Contents (Elt F) → (⟨S800000, .i1⟩ : BufTy).Contents (Elt F)), -- 26: %19
    StableHlo.nullary main_c_4 (constantI S_ 32 50000#32), -- 27: %c_4
    StableHlo.unary main_c_4 main_v20 (broadcastInDim S800000 ![] bcast_S_S800000 : (⟨S_, .i32⟩ : BufTy).Contents (Elt F) → (⟨S800000, .i32⟩ : BufTy).Contents (Elt F)), -- 28: %20
    StableHlo.binary main_v1 main_v20 main_v21 (addi : (⟨S800000, .i32⟩ : BufTy).Contents (Elt F) → (⟨S800000, .i32⟩ : BufTy).Contents (Elt F) → (⟨S800000, .i32⟩ : BufTy).Contents (Elt F)), -- 29: %21
    StableHlo.ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 30: %22
    StableHlo.unary main_v22 main_v23 (broadcastInDim S800000x1 ![0] bcast_S800000_S800000x1_0 : (⟨S800000, .i32⟩ : BufTy).Contents (Elt F) → (⟨S800000x1, .i32⟩ : BufTy).Contents (Elt F)), -- 31: %23
    StableHlo.binary main_v17 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 32: %24
    StableHlo.nullary main_c_5 (constantI S_ 32 0#32), -- 33: %c_5
    StableHlo.unary main_c_5 main_v25 (broadcastInDim S800000 ![] bcast_S_S800000 : (⟨S_, .i32⟩ : BufTy).Contents (Elt F) → (⟨S800000, .i32⟩ : BufTy).Contents (Elt F)), -- 34: %25
    StableHlo.binary main_v3 main_v25 main_v26 (cmpi .slt : (⟨S800000, .i32⟩ : BufTy).Contents (Elt F) → (⟨S800000, .i32⟩ : BufTy).Contents (Elt F) → (⟨S800000, .i1⟩ : BufTy).Contents (Elt F)), -- 35: %26
    StableHlo.nullary main_c_6 (constantI S_ 32 50000#32), -- 36: %c_6
    StableHlo.unary main_c_6 main_v27 (broadcastInDim S800000 ![] bcast_S_S800000 : (⟨S_, .i32⟩ : BufTy).Contents (Elt F) → (⟨S800000, .i32⟩ : BufTy).Contents (Elt F)), -- 37: %27
    StableHlo.binary main_v3 main_v27 main_v28 (addi : (⟨S800000, .i32⟩ : BufTy).Contents (Elt F) → (⟨S800000, .i32⟩ : BufTy).Contents (Elt F) → (⟨S800000, .i32⟩ : BufTy).Contents (Elt F)), -- 38: %28
    StableHlo.ternary main_v26 main_v28 main_v3 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 39: %29
    StableHlo.unary main_v29 main_v30 (broadcastInDim S800000x1 ![0] bcast_S800000_S800000x1_0 : (⟨S800000, .i32⟩ : BufTy).Contents (Elt F) → (⟨S800000x1, .i32⟩ : BufTy).Contents (Elt F)), -- 40: %30
    StableHlo.binary main_v17 main_v30 main_v31 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 41: %31
    StableHlo.binary main_v24 main_v31 main_v32 (mulf : (⟨S800000, .f32⟩ : BufTy).Contents (Elt F) → (⟨S800000, .f32⟩ : BufTy).Contents (Elt F) → (⟨S800000, .f32⟩ : BufTy).Contents (Elt F)), -- 42: %32
    StableHlo.nullary main_c_7 (constantI S_ 32 0#32), -- 43: %c_7
    StableHlo.unary main_c_7 main_v33 (broadcastInDim S800000 ![] bcast_S_S800000 : (⟨S_, .i32⟩ : BufTy).Contents (Elt F) → (⟨S800000, .i32⟩ : BufTy).Contents (Elt F)), -- 44: %33
    StableHlo.binary main_v1 main_v33 main_v34 (cmpi .slt : (⟨S800000, .i32⟩ : BufTy).Contents (Elt F) → (⟨S800000, .i32⟩ : BufTy).Contents (Elt F) → (⟨S800000, .i1⟩ : BufTy).Contents (Elt F)), -- 45: %34
    StableHlo.nullary main_c_8 (constantI S_ 32 50000#32), -- 46: %c_8
    StableHlo.unary main_c_8 main_v35 (broadcastInDim S800000 ![] bcast_S_S800000 : (⟨S_, .i32⟩ : BufTy).Contents (Elt F) → (⟨S800000, .i32⟩ : BufTy).Contents (Elt F)), -- 47: %35
    StableHlo.binary main_v1 main_v35 main_v36 (addi : (⟨S800000, .i32⟩ : BufTy).Contents (Elt F) → (⟨S800000, .i32⟩ : BufTy).Contents (Elt F) → (⟨S800000, .i32⟩ : BufTy).Contents (Elt F)), -- 48: %36
    StableHlo.ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 49: %37
    StableHlo.unary main_v37 main_v38 (broadcastInDim S800000x1 ![0] bcast_S800000_S800000x1_0 : (⟨S800000, .i32⟩ : BufTy).Contents (Elt F) → (⟨S800000x1, .i32⟩ : BufTy).Contents (Elt F)), -- 50: %38
    StableHlo.binary main_v5 main_v38 main_v39 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)), -- 51: %39
    StableHlo.unary main_v32 main_v40 (broadcastInDim S800000x1 ![0] bcast_S800000_S800000x1_0 : (⟨S800000, .f32⟩ : BufTy).Contents (Elt F) → (⟨S800000x1, .f32⟩ : BufTy).Contents (Elt F)), -- 52: %40
    StableHlo.unary main_v40 main_v41 (broadcastInDim S800000x256 ![0, 1] bcast_S800000x1_S800000x256_0_1 : (⟨S800000x1, .f32⟩ : BufTy).Contents (Elt F) → (⟨S800000x256, .f32⟩ : BufTy).Contents (Elt F)), -- 53: %41
    StableHlo.binary main_v39 main_v41 main_v42 (mulf : (⟨S800000x256, .f32⟩ : BufTy).Contents (Elt F) → (⟨S800000x256, .f32⟩ : BufTy).Contents (Elt F) → (⟨S800000x256, .f32⟩ : BufTy).Contents (Elt F)), -- 54: %42
    StableHlo.nullary main_cst_9 (constant S_ .f32 0x00000000#32), -- 55: %cst_9
    StableHlo.unary main_cst_9 main_v43 (broadcastInDim S50000x256 ![] bcast_S_S50000x256 : (⟨S_, .f32⟩ : BufTy).Contents (Elt F) → (⟨S50000x256, .f32⟩ : BufTy).Contents (Elt F)), -- 56: %43
    StableHlo.unary main_v3 main_v44 (broadcastInDim S800000x1 ![0] bcast_S800000_S800000x1_0 : (⟨S800000, .i32⟩ : BufTy).Contents (Elt F) → (⟨S800000x1, .i32⟩ : BufTy).Contents (Elt F)), -- 57: %44
    StableHlo.ternary main_v43 main_v44 main_v42 main_v45 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)), -- 58: %45
    StableHlo.binary main_v17 main_v17 main_v46 (mulf : (⟨S50000, .f32⟩ : BufTy).Contents (Elt F) → (⟨S50000, .f32⟩ : BufTy).Contents (Elt F) → (⟨S50000, .f32⟩ : BufTy).Contents (Elt F)), -- 59: %46
    StableHlo.unary main_v46 main_v47 (broadcastInDim S50000x1 ![0] bcast_S50000_S50000x1_0 : (⟨S50000, .f32⟩ : BufTy).Contents (Elt F) → (⟨S50000x1, .f32⟩ : BufTy).Contents (Elt F)), -- 60: %47
    StableHlo.unary main_v47 main_v48 (broadcastInDim S50000x256 ![0, 1] bcast_S50000x1_S50000x256_0_1 : (⟨S50000x1, .f32⟩ : BufTy).Contents (Elt F) → (⟨S50000x256, .f32⟩ : BufTy).Contents (Elt F)), -- 61: %48
    StableHlo.binary main_v5 main_v48 main_v49 (mulf : (⟨S50000x256, .f32⟩ : BufTy).Contents (Elt F) → (⟨S50000x256, .f32⟩ : BufTy).Contents (Elt F) → (⟨S50000x256, .f32⟩ : BufTy).Contents (Elt F)), -- 62: %49
    StableHlo.binary main_v45 main_v49 main_v50 (addf : (⟨S50000x256, .f32⟩ : BufTy).Contents (Elt F) → (⟨S50000x256, .f32⟩ : BufTy).Contents (Elt F) → (⟨S50000x256, .f32⟩ : BufTy).Contents (Elt F)), -- 63: %50
    StableHlo.unary main_arg3 main_v51 (broadcastInDim S1x256 ![1] bcast_S256_S1x256_1 : (⟨S256, .f32⟩ : BufTy).Contents (Elt F) → (⟨S1x256, .f32⟩ : BufTy).Contents (Elt F)), -- 64: %51
    StableHlo.unary main_v51 main_v52 (broadcastInDim S50000x256 ![0, 1] bcast_S1x256_S50000x256_0_1 : (⟨S1x256, .f32⟩ : BufTy).Contents (Elt F) → (⟨S50000x256, .f32⟩ : BufTy).Contents (Elt F)), -- 65: %52
    StableHlo.binary main_v50 main_v52 main_v53 (addf : (⟨S50000x256, .f32⟩ : BufTy).Contents (Elt F) → (⟨S50000x256, .f32⟩ : BufTy).Contents (Elt F) → (⟨S50000x256, .f32⟩ : BufTy).Contents (Elt F)) ] -- 66: %53

/-- The buffers that operations 7 … 66 write, in order. -/
abbrev layer0_W : List (Ref sig .tc) :=
  [main_cst, main_v6, main_c, main_v7, main_v8, main_c_0, main_v9, main_v10, main_v11, main_v12, main_cst_1, main_v13, main_v14, main_cst_2, main_v15, main_v16, main_v17, main_c_3, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45, main_v46, main_v47, main_v48, main_v49, main_v50, main_v51, main_v52, main_v53]

/-- Operations 67 … 81 of 254. -/
abbrev between1 : List (HloOp τ sig (Elt F)) :=
  [ StableHlo.TRef.nullary main_call0.cst (constant S_ .f32 0x00000000#32), -- 67: %54 is @relu %cst
    StableHlo.TRef.unary main_call0.cst main_call0.v0 (broadcastInDim S50000x256 ![] bcast_S_S50000x256), -- 68: %54 is @relu %0
    StableHlo.TRef.binary (.of main_v53 : StableHlo.TRef sig ⟨S50000x256, .f32⟩) main_call0.v0 main_call0.v1 maximumf, -- 69: %54 is @relu %1
    StableHlo.binary main_v54 main_v54 main_v55 (mulf : (⟨S50000x256, .f32⟩ : BufTy).Contents (Elt F) → (⟨S50000x256, .f32⟩ : BufTy).Contents (Elt F) → (⟨S50000x256, .f32⟩ : BufTy).Contents (Elt F)), -- 70: %55
    StableHlo.nullary main_cst_10 (constant S_ .f32 0x00000000#32), -- 71: %cst_10
    StableHlo.binary main_v55 main_cst_10 main_v56 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)), -- 72: %56
    StableHlo.unary main_v56 main_v57 (broadcastInDim S50000x1 ![0] bcast_S50000_S50000x1_0 : (⟨S50000, .f32⟩ : BufTy).Contents (Elt F) → (⟨S50000x1, .f32⟩ : BufTy).Contents (Elt F)), -- 73: %57
    StableHlo.unary main_v57 main_v58 (Host.sqrt : (⟨S50000x1, .f32⟩ : BufTy).Contents (Elt F) → (⟨S50000x1, .f32⟩ : BufTy).Contents (Elt F)), -- 74: %58
    StableHlo.nullary main_cst_11 (constant S_ .f32 0x2B8CBCCC#32), -- 75: %cst_11
    StableHlo.unary main_cst_11 main_v59 (broadcastInDim S50000x1 ![] bcast_S_S50000x1 : (⟨S_, .f32⟩ : BufTy).Contents (Elt F) → (⟨S50000x1, .f32⟩ : BufTy).Contents (Elt F)), -- 76: %59
    StableHlo.binary main_v58 main_v59 main_v60 (maximumf : (⟨S50000x1, .f32⟩ : BufTy).Contents (Elt F) → (⟨S50000x1, .f32⟩ : BufTy).Contents (Elt F) → (⟨S50000x1, .f32⟩ : BufTy).Contents (Elt F)), -- 77: %60
    StableHlo.unary main_v60 main_v61 (broadcastInDim S50000x256 ![0, 1] bcast_S50000x1_S50000x256_0_1 : (⟨S50000x1, .f32⟩ : BufTy).Contents (Elt F) → (⟨S50000x256, .f32⟩ : BufTy).Contents (Elt F)), -- 78: %61
    StableHlo.binary main_v54 main_v61 main_v62 (Host.divf : (⟨S50000x256, .f32⟩ : BufTy).Contents (Elt F) → (⟨S50000x256, .f32⟩ : BufTy).Contents (Elt F) → (⟨S50000x256, .f32⟩ : BufTy).Contents (Elt F)), -- 79: %62
    StableHlo.unary main_arg4 main_v63 ((transpose S256x256 [1, 0] · transposes_S256x256_S256x256_1_0) : (⟨S256x256, .f32⟩ : BufTy).Contents (Elt F) → (⟨S256x256, .f32⟩ : BufTy).Contents (Elt F)), -- 80: %63
    StableHlo.binary main_v62 main_v63 main_v64 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ] -- 81: %64

/-- The buffers that operations 67 … 81 write, in order. -/
abbrev between1_W : List (Ref sig .tc) :=
  [main_call0.cst.ref, main_call0.v0.ref, main_call0.v1.ref, main_v55, main_cst_10, main_v56, main_v57, main_v58, main_cst_11, main_v59, main_v60, main_v61, main_v62, main_v63, main_v64]

/-- Operations 82 … 141 of 254. -/
abbrev layer1 : List (HloOp τ sig (Elt F)) :=
  [ StableHlo.nullary main_cst_12 (constant S_ .f32 0x00000000#32), -- 82: %cst_12
    StableHlo.unary main_cst_12 main_v65 (broadcastInDim S50000 ![] bcast_S_S50000 : (⟨S_, .f32⟩ : BufTy).Contents (Elt F) → (⟨S50000, .f32⟩ : BufTy).Contents (Elt F)), -- 83: %65
    StableHlo.nullary main_c_13 (constantI S_ 32 0#32), -- 84: %c_13
    StableHlo.unary main_c_13 main_v66 (broadcastInDim S800000 ![] bcast_S_S800000 : (⟨S_, .i32⟩ : BufTy).Contents (Elt F) → (⟨S800000, .i32⟩ : BufTy).Contents (Elt F)), -- 85: %66
    StableHlo.binary main_v3 main_v66 main_v67 (cmpi .slt : (⟨S800000, .i32⟩ : BufTy).Contents (Elt F) → (⟨S800000, .i32⟩ : BufTy).Contents (Elt F) → (⟨S800000, .i1⟩ : BufTy).Contents (Elt F)), -- 86: %67
    StableHlo.nullary main_c_14 (constantI S_ 32 50000#32), -- 87: %c_14
    StableHlo.unary main_c_14 main_v68 (broadcastInDim S800000 ![] bcast_S_S800000 : (⟨S_, .i32⟩ : BufTy).Contents (Elt F) → (⟨S800000, .i32⟩ : BufTy).Contents (Elt F)), -- 88: %68
    StableHlo.binary main_v3 main_v68 main_v69 (addi : (⟨S800000, .i32⟩ : BufTy).Contents (Elt F) → (⟨S800000, .i32⟩ : BufTy).Contents (Elt F) → (⟨S800000, .i32⟩ : BufTy).Contents (Elt F)), -- 89: %69
    StableHlo.ternary main_v67 main_v69 main_v3 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 90: %70
    StableHlo.unary main_v70 main_v71 (broadcastInDim S800000x1 ![0] bcast_S800000_S800000x1_0 : (⟨S800000, .i32⟩ : BufTy).Contents (Elt F) → (⟨S800000x1, .i32⟩ : BufTy).Contents (Elt F)), -- 91: %71
    StableHlo.nullary main_cst_15 (constant S_ .f32 0x3F800000#32), -- 92: %cst_15
    StableHlo.unary main_cst_15 main_v72 (broadcastInDim S800000 ![] bcast_S_S800000 : (⟨S_, .f32⟩ : BufTy).Contents (Elt F) → (⟨S800000, .f32⟩ : BufTy).Contents (Elt F)), -- 93: %72
    StableHlo.ternary main_v65 main_v71 main_v72 main_v73 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- 94: %73
    StableHlo.nullary main_cst_16 (constant S_ .f32 0x3F800000#32), -- 95: %cst_16
    StableHlo.unary main_cst_16 main_v74 (broadcastInDim S50000 ![] bcast_S_S50000 : (⟨S_, .f32⟩ : BufTy).Contents (Elt F) → (⟨S50000, .f32⟩ : BufTy).Contents (Elt F)), -- 96: %74
    StableHlo.binary main_v73 main_v74 main_v75 (addf : (⟨S50000, .f32⟩ : BufTy).Contents (Elt F) → (⟨S50000, .f32⟩ : BufTy).Contents (Elt F) → (⟨S50000, .f32⟩ : BufTy).Contents (Elt F)), -- 97: %75
    StableHlo.unary main_v75 main_v76 (Host.rsqrt : (⟨S50000, .f32⟩ : BufTy).Contents (Elt F) → (⟨S50000, .f32⟩ : BufTy).Contents (Elt F)), -- 98: %76
    StableHlo.nullary main_c_17 (constantI S_ 32 0#32), -- 99: %c_17
    StableHlo.unary main_c_17 main_v77 (broadcastInDim S800000 ![] bcast_S_S800000 : (⟨S_, .i32⟩ : BufTy).Contents (Elt F) → (⟨S800000, .i32⟩ : BufTy).Contents (Elt F)), -- 100: %77
    StableHlo.binary main_v1 main_v77 main_v78 (cmpi .slt : (⟨S800000, .i32⟩ : BufTy).Contents (Elt F) → (⟨S800000, .i32⟩ : BufTy).Contents (Elt F) → (⟨S800000, .i1⟩ : BufTy).Contents (Elt F)), -- 101: %78
    StableHlo.nullary main_c_18 (constantI S_ 32 50000#32), -- 102: %c_18
    StableHlo.unary main_c_18 main_v79 (broadcastInDim S800000 ![] bcast_S_S800000 : (⟨S_, .i32⟩ : BufTy).Contents (Elt F) → (⟨S800000, .i32⟩ : BufTy).Contents (Elt F)), -- 103: %79
    StableHlo.binary main_v1 main_v79 main_v80 (addi : (⟨S800000, .i32⟩ : BufTy).Contents (Elt F) → (⟨S800000, .i32⟩ : BufTy).Contents (Elt F) → (⟨S800000, .i32⟩ : BufTy).Contents (Elt F)), -- 104: %80
    StableHlo.ternary main_v78 main_v80 main_v1 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 105: %81
    StableHlo.unary main_v81 main_v82 (broadcastInDim S800000x1 ![0] bcast_S800000_S800000x1_0 : (⟨S800000, .i32⟩ : BufTy).Contents (Elt F) → (⟨S800000x1, .i32⟩ : BufTy).Contents (Elt F)), -- 106: %82
    StableHlo.binary main_v76 main_v82 main_v83 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 107: %83
    StableHlo.nullary main_c_19 (constantI S_ 32 0#32), -- 108: %c_19
    StableHlo.unary main_c_19 main_v84 (broadcastInDim S800000 ![] bcast_S_S800000 : (⟨S_, .i32⟩ : BufTy).Contents (Elt F) → (⟨S800000, .i32⟩ : BufTy).Contents (Elt F)), -- 109: %84
    StableHlo.binary main_v3 main_v84 main_v85 (cmpi .slt : (⟨S800000, .i32⟩ : BufTy).Contents (Elt F) → (⟨S800000, .i32⟩ : BufTy).Contents (Elt F) → (⟨S800000, .i1⟩ : BufTy).Contents (Elt F)), -- 110: %85
    StableHlo.nullary main_c_20 (constantI S_ 32 50000#32), -- 111: %c_20
    StableHlo.unary main_c_20 main_v86 (broadcastInDim S800000 ![] bcast_S_S800000 : (⟨S_, .i32⟩ : BufTy).Contents (Elt F) → (⟨S800000, .i32⟩ : BufTy).Contents (Elt F)), -- 112: %86
    StableHlo.binary main_v3 main_v86 main_v87 (addi : (⟨S800000, .i32⟩ : BufTy).Contents (Elt F) → (⟨S800000, .i32⟩ : BufTy).Contents (Elt F) → (⟨S800000, .i32⟩ : BufTy).Contents (Elt F)), -- 113: %87
    StableHlo.ternary main_v85 main_v87 main_v3 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 114: %88
    StableHlo.unary main_v88 main_v89 (broadcastInDim S800000x1 ![0] bcast_S800000_S800000x1_0 : (⟨S800000, .i32⟩ : BufTy).Contents (Elt F) → (⟨S800000x1, .i32⟩ : BufTy).Contents (Elt F)), -- 115: %89
    StableHlo.binary main_v76 main_v89 main_v90 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 116: %90
    StableHlo.binary main_v83 main_v90 main_v91 (mulf : (⟨S800000, .f32⟩ : BufTy).Contents (Elt F) → (⟨S800000, .f32⟩ : BufTy).Contents (Elt F) → (⟨S800000, .f32⟩ : BufTy).Contents (Elt F)), -- 117: %91
    StableHlo.nullary main_c_21 (constantI S_ 32 0#32), -- 118: %c_21
    StableHlo.unary main_c_21 main_v92 (broadcastInDim S800000 ![] bcast_S_S800000 : (⟨S_, .i32⟩ : BufTy).Contents (Elt F) → (⟨S800000, .i32⟩ : BufTy).Contents (Elt F)), -- 119: %92
    StableHlo.binary main_v1 main_v92 main_v93 (cmpi .slt : (⟨S800000, .i32⟩ : BufTy).Contents (Elt F) → (⟨S800000, .i32⟩ : BufTy).Contents (Elt F) → (⟨S800000, .i1⟩ : BufTy).Contents (Elt F)), -- 120: %93
    StableHlo.nullary main_c_22 (constantI S_ 32 50000#32), -- 121: %c_22
    StableHlo.unary main_c_22 main_v94 (broadcastInDim S800000 ![] bcast_S_S800000 : (⟨S_, .i32⟩ : BufTy).Contents (Elt F) → (⟨S800000, .i32⟩ : BufTy).Contents (Elt F)), -- 122: %94
    StableHlo.binary main_v1 main_v94 main_v95 (addi : (⟨S800000, .i32⟩ : BufTy).Contents (Elt F) → (⟨S800000, .i32⟩ : BufTy).Contents (Elt F) → (⟨S800000, .i32⟩ : BufTy).Contents (Elt F)), -- 123: %95
    StableHlo.ternary main_v93 main_v95 main_v1 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 124: %96
    StableHlo.unary main_v96 main_v97 (broadcastInDim S800000x1 ![0] bcast_S800000_S800000x1_0 : (⟨S800000, .i32⟩ : BufTy).Contents (Elt F) → (⟨S800000x1, .i32⟩ : BufTy).Contents (Elt F)), -- 125: %97
    StableHlo.binary main_v64 main_v97 main_v98 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)), -- 126: %98
    StableHlo.unary main_v91 main_v99 (broadcastInDim S800000x1 ![0] bcast_S800000_S800000x1_0 : (⟨S800000, .f32⟩ : BufTy).Contents (Elt F) → (⟨S800000x1, .f32⟩ : BufTy).Contents (Elt F)), -- 127: %99
    StableHlo.unary main_v99 main_v100 (broadcastInDim S800000x256 ![0, 1] bcast_S800000x1_S800000x256_0_1 : (⟨S800000x1, .f32⟩ : BufTy).Contents (Elt F) → (⟨S800000x256, .f32⟩ : BufTy).Contents (Elt F)), -- 128: %100
    StableHlo.binary main_v98 main_v100 main_v101 (mulf : (⟨S800000x256, .f32⟩ : BufTy).Contents (Elt F) → (⟨S800000x256, .f32⟩ : BufTy).Contents (Elt F) → (⟨S800000x256, .f32⟩ : BufTy).Contents (Elt F)), -- 129: %101
    StableHlo.nullary main_cst_23 (constant S_ .f32 0x00000000#32), -- 130: %cst_23
    StableHlo.unary main_cst_23 main_v102 (broadcastInDim S50000x256 ![] bcast_S_S50000x256 : (⟨S_, .f32⟩ : BufTy).Contents (Elt F) → (⟨S50000x256, .f32⟩ : BufTy).Contents (Elt F)), -- 131: %102
    StableHlo.unary main_v3 main_v103 (broadcastInDim S800000x1 ![0] bcast_S800000_S800000x1_0 : (⟨S800000, .i32⟩ : BufTy).Contents (Elt F) → (⟨S800000x1, .i32⟩ : BufTy).Contents (Elt F)), -- 132: %103
    StableHlo.ternary main_v102 main_v103 main_v101 main_v104 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)), -- 133: %104
    StableHlo.binary main_v76 main_v76 main_v105 (mulf : (⟨S50000, .f32⟩ : BufTy).Contents (Elt F) → (⟨S50000, .f32⟩ : BufTy).Contents (Elt F) → (⟨S50000, .f32⟩ : BufTy).Contents (Elt F)), -- 134: %105
    StableHlo.unary main_v105 main_v106 (broadcastInDim S50000x1 ![0] bcast_S50000_S50000x1_0 : (⟨S50000, .f32⟩ : BufTy).Contents (Elt F) → (⟨S50000x1, .f32⟩ : BufTy).Contents (Elt F)), -- 135: %106
    StableHlo.unary main_v106 main_v107 (broadcastInDim S50000x256 ![0, 1] bcast_S50000x1_S50000x256_0_1 : (⟨S50000x1, .f32⟩ : BufTy).Contents (Elt F) → (⟨S50000x256, .f32⟩ : BufTy).Contents (Elt F)), -- 136: %107
    StableHlo.binary main_v64 main_v107 main_v108 (mulf : (⟨S50000x256, .f32⟩ : BufTy).Contents (Elt F) → (⟨S50000x256, .f32⟩ : BufTy).Contents (Elt F) → (⟨S50000x256, .f32⟩ : BufTy).Contents (Elt F)), -- 137: %108
    StableHlo.binary main_v104 main_v108 main_v109 (addf : (⟨S50000x256, .f32⟩ : BufTy).Contents (Elt F) → (⟨S50000x256, .f32⟩ : BufTy).Contents (Elt F) → (⟨S50000x256, .f32⟩ : BufTy).Contents (Elt F)), -- 138: %109
    StableHlo.unary main_arg5 main_v110 (broadcastInDim S1x256 ![1] bcast_S256_S1x256_1 : (⟨S256, .f32⟩ : BufTy).Contents (Elt F) → (⟨S1x256, .f32⟩ : BufTy).Contents (Elt F)), -- 139: %110
    StableHlo.unary main_v110 main_v111 (broadcastInDim S50000x256 ![0, 1] bcast_S1x256_S50000x256_0_1 : (⟨S1x256, .f32⟩ : BufTy).Contents (Elt F) → (⟨S50000x256, .f32⟩ : BufTy).Contents (Elt F)), -- 140: %111
    StableHlo.binary main_v109 main_v111 main_v112 (addf : (⟨S50000x256, .f32⟩ : BufTy).Contents (Elt F) → (⟨S50000x256, .f32⟩ : BufTy).Contents (Elt F) → (⟨S50000x256, .f32⟩ : BufTy).Contents (Elt F)) ] -- 141: %112

/-- The buffers that operations 82 … 141 write, in order. -/
abbrev layer1_W : List (Ref sig .tc) :=
  [main_cst_12, main_v65, main_c_13, main_v66, main_v67, main_c_14, main_v68, main_v69, main_v70, main_v71, main_cst_15, main_v72, main_v73, main_cst_16, main_v74, main_v75, main_v76, main_c_17, main_v77, main_v78, main_c_18, main_v79, main_v80, main_v81, main_v82, main_v83, main_c_19, main_v84, main_v85, main_c_20, main_v86, main_v87, main_v88, main_v89, main_v90, main_v91, main_c_21, main_v92, main_v93, main_c_22, main_v94, main_v95, main_v96, main_v97, main_v98, main_v99, main_v100, main_v101, main_cst_23, main_v102, main_v103, main_v104, main_v105, main_v106, main_v107, main_v108, main_v109, main_v110, main_v111, main_v112]

/-- Operations 142 … 156 of 254. -/
abbrev between2 : List (HloOp τ sig (Elt F)) :=
  [ StableHlo.TRef.nullary main_call1.cst (constant S_ .f32 0x00000000#32), -- 142: %113 is @relu %cst
    StableHlo.TRef.unary main_call1.cst main_call1.v0 (broadcastInDim S50000x256 ![] bcast_S_S50000x256), -- 143: %113 is @relu %0
    StableHlo.TRef.binary (.of main_v112 : StableHlo.TRef sig ⟨S50000x256, .f32⟩) main_call1.v0 main_call1.v1 maximumf, -- 144: %113 is @relu %1
    StableHlo.binary main_v113 main_v113 main_v114 (mulf : (⟨S50000x256, .f32⟩ : BufTy).Contents (Elt F) → (⟨S50000x256, .f32⟩ : BufTy).Contents (Elt F) → (⟨S50000x256, .f32⟩ : BufTy).Contents (Elt F)), -- 145: %114
    StableHlo.nullary main_cst_24 (constant S_ .f32 0x00000000#32), -- 146: %cst_24
    StableHlo.binary main_v114 main_cst_24 main_v115 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)), -- 147: %115
    StableHlo.unary main_v115 main_v116 (broadcastInDim S50000x1 ![0] bcast_S50000_S50000x1_0 : (⟨S50000, .f32⟩ : BufTy).Contents (Elt F) → (⟨S50000x1, .f32⟩ : BufTy).Contents (Elt F)), -- 148: %116
    StableHlo.unary main_v116 main_v117 (Host.sqrt : (⟨S50000x1, .f32⟩ : BufTy).Contents (Elt F) → (⟨S50000x1, .f32⟩ : BufTy).Contents (Elt F)), -- 149: %117
    StableHlo.nullary main_cst_25 (constant S_ .f32 0x2B8CBCCC#32), -- 150: %cst_25
    StableHlo.unary main_cst_25 main_v118 (broadcastInDim S50000x1 ![] bcast_S_S50000x1 : (⟨S_, .f32⟩ : BufTy).Contents (Elt F) → (⟨S50000x1, .f32⟩ : BufTy).Contents (Elt F)), -- 151: %118
    StableHlo.binary main_v117 main_v118 main_v119 (maximumf : (⟨S50000x1, .f32⟩ : BufTy).Contents (Elt F) → (⟨S50000x1, .f32⟩ : BufTy).Contents (Elt F) → (⟨S50000x1, .f32⟩ : BufTy).Contents (Elt F)), -- 152: %119
    StableHlo.unary main_v119 main_v120 (broadcastInDim S50000x256 ![0, 1] bcast_S50000x1_S50000x256_0_1 : (⟨S50000x1, .f32⟩ : BufTy).Contents (Elt F) → (⟨S50000x256, .f32⟩ : BufTy).Contents (Elt F)), -- 153: %120
    StableHlo.binary main_v113 main_v120 main_v121 (Host.divf : (⟨S50000x256, .f32⟩ : BufTy).Contents (Elt F) → (⟨S50000x256, .f32⟩ : BufTy).Contents (Elt F) → (⟨S50000x256, .f32⟩ : BufTy).Contents (Elt F)), -- 154: %121
    StableHlo.unary main_arg6 main_v122 ((transpose S256x256 [1, 0] · transposes_S256x256_S256x256_1_0) : (⟨S256x256, .f32⟩ : BufTy).Contents (Elt F) → (⟨S256x256, .f32⟩ : BufTy).Contents (Elt F)), -- 155: %122
    StableHlo.binary main_v121 main_v122 main_v123 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ] -- 156: %123

/-- The buffers that operations 142 … 156 write, in order. -/
abbrev between2_W : List (Ref sig .tc) :=
  [main_call1.cst.ref, main_call1.v0.ref, main_call1.v1.ref, main_v114, main_cst_24, main_v115, main_v116, main_v117, main_cst_25, main_v118, main_v119, main_v120, main_v121, main_v122, main_v123]

/-- Operations 157 … 216 of 254. -/
abbrev layer2 : List (HloOp τ sig (Elt F)) :=
  [ StableHlo.nullary main_cst_26 (constant S_ .f32 0x00000000#32), -- 157: %cst_26
    StableHlo.unary main_cst_26 main_v124 (broadcastInDim S50000 ![] bcast_S_S50000 : (⟨S_, .f32⟩ : BufTy).Contents (Elt F) → (⟨S50000, .f32⟩ : BufTy).Contents (Elt F)), -- 158: %124
    StableHlo.nullary main_c_27 (constantI S_ 32 0#32), -- 159: %c_27
    StableHlo.unary main_c_27 main_v125 (broadcastInDim S800000 ![] bcast_S_S800000 : (⟨S_, .i32⟩ : BufTy).Contents (Elt F) → (⟨S800000, .i32⟩ : BufTy).Contents (Elt F)), -- 160: %125
    StableHlo.binary main_v3 main_v125 main_v126 (cmpi .slt : (⟨S800000, .i32⟩ : BufTy).Contents (Elt F) → (⟨S800000, .i32⟩ : BufTy).Contents (Elt F) → (⟨S800000, .i1⟩ : BufTy).Contents (Elt F)), -- 161: %126
    StableHlo.nullary main_c_28 (constantI S_ 32 50000#32), -- 162: %c_28
    StableHlo.unary main_c_28 main_v127 (broadcastInDim S800000 ![] bcast_S_S800000 : (⟨S_, .i32⟩ : BufTy).Contents (Elt F) → (⟨S800000, .i32⟩ : BufTy).Contents (Elt F)), -- 163: %127
    StableHlo.binary main_v3 main_v127 main_v128 (addi : (⟨S800000, .i32⟩ : BufTy).Contents (Elt F) → (⟨S800000, .i32⟩ : BufTy).Contents (Elt F) → (⟨S800000, .i32⟩ : BufTy).Contents (Elt F)), -- 164: %128
    StableHlo.ternary main_v126 main_v128 main_v3 main_v129 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 165: %129
    StableHlo.unary main_v129 main_v130 (broadcastInDim S800000x1 ![0] bcast_S800000_S800000x1_0 : (⟨S800000, .i32⟩ : BufTy).Contents (Elt F) → (⟨S800000x1, .i32⟩ : BufTy).Contents (Elt F)), -- 166: %130
    StableHlo.nullary main_cst_29 (constant S_ .f32 0x3F800000#32), -- 167: %cst_29
    StableHlo.unary main_cst_29 main_v131 (broadcastInDim S800000 ![] bcast_S_S800000 : (⟨S_, .f32⟩ : BufTy).Contents (Elt F) → (⟨S800000, .f32⟩ : BufTy).Contents (Elt F)), -- 168: %131
    StableHlo.ternary main_v124 main_v130 main_v131 main_v132 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- 169: %132
    StableHlo.nullary main_cst_30 (constant S_ .f32 0x3F800000#32), -- 170: %cst_30
    StableHlo.unary main_cst_30 main_v133 (broadcastInDim S50000 ![] bcast_S_S50000 : (⟨S_, .f32⟩ : BufTy).Contents (Elt F) → (⟨S50000, .f32⟩ : BufTy).Contents (Elt F)), -- 171: %133
    StableHlo.binary main_v132 main_v133 main_v134 (addf : (⟨S50000, .f32⟩ : BufTy).Contents (Elt F) → (⟨S50000, .f32⟩ : BufTy).Contents (Elt F) → (⟨S50000, .f32⟩ : BufTy).Contents (Elt F)), -- 172: %134
    StableHlo.unary main_v134 main_v135 (Host.rsqrt : (⟨S50000, .f32⟩ : BufTy).Contents (Elt F) → (⟨S50000, .f32⟩ : BufTy).Contents (Elt F)), -- 173: %135
    StableHlo.nullary main_c_31 (constantI S_ 32 0#32), -- 174: %c_31
    StableHlo.unary main_c_31 main_v136 (broadcastInDim S800000 ![] bcast_S_S800000 : (⟨S_, .i32⟩ : BufTy).Contents (Elt F) → (⟨S800000, .i32⟩ : BufTy).Contents (Elt F)), -- 175: %136
    StableHlo.binary main_v1 main_v136 main_v137 (cmpi .slt : (⟨S800000, .i32⟩ : BufTy).Contents (Elt F) → (⟨S800000, .i32⟩ : BufTy).Contents (Elt F) → (⟨S800000, .i1⟩ : BufTy).Contents (Elt F)), -- 176: %137
    StableHlo.nullary main_c_32 (constantI S_ 32 50000#32), -- 177: %c_32
    StableHlo.unary main_c_32 main_v138 (broadcastInDim S800000 ![] bcast_S_S800000 : (⟨S_, .i32⟩ : BufTy).Contents (Elt F) → (⟨S800000, .i32⟩ : BufTy).Contents (Elt F)), -- 178: %138
    StableHlo.binary main_v1 main_v138 main_v139 (addi : (⟨S800000, .i32⟩ : BufTy).Contents (Elt F) → (⟨S800000, .i32⟩ : BufTy).Contents (Elt F) → (⟨S800000, .i32⟩ : BufTy).Contents (Elt F)), -- 179: %139
    StableHlo.ternary main_v137 main_v139 main_v1 main_v140 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 180: %140
    StableHlo.unary main_v140 main_v141 (broadcastInDim S800000x1 ![0] bcast_S800000_S800000x1_0 : (⟨S800000, .i32⟩ : BufTy).Contents (Elt F) → (⟨S800000x1, .i32⟩ : BufTy).Contents (Elt F)), -- 181: %141
    StableHlo.binary main_v135 main_v141 main_v142 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 182: %142
    StableHlo.nullary main_c_33 (constantI S_ 32 0#32), -- 183: %c_33
    StableHlo.unary main_c_33 main_v143 (broadcastInDim S800000 ![] bcast_S_S800000 : (⟨S_, .i32⟩ : BufTy).Contents (Elt F) → (⟨S800000, .i32⟩ : BufTy).Contents (Elt F)), -- 184: %143
    StableHlo.binary main_v3 main_v143 main_v144 (cmpi .slt : (⟨S800000, .i32⟩ : BufTy).Contents (Elt F) → (⟨S800000, .i32⟩ : BufTy).Contents (Elt F) → (⟨S800000, .i1⟩ : BufTy).Contents (Elt F)), -- 185: %144
    StableHlo.nullary main_c_34 (constantI S_ 32 50000#32), -- 186: %c_34
    StableHlo.unary main_c_34 main_v145 (broadcastInDim S800000 ![] bcast_S_S800000 : (⟨S_, .i32⟩ : BufTy).Contents (Elt F) → (⟨S800000, .i32⟩ : BufTy).Contents (Elt F)), -- 187: %145
    StableHlo.binary main_v3 main_v145 main_v146 (addi : (⟨S800000, .i32⟩ : BufTy).Contents (Elt F) → (⟨S800000, .i32⟩ : BufTy).Contents (Elt F) → (⟨S800000, .i32⟩ : BufTy).Contents (Elt F)), -- 188: %146
    StableHlo.ternary main_v144 main_v146 main_v3 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 189: %147
    StableHlo.unary main_v147 main_v148 (broadcastInDim S800000x1 ![0] bcast_S800000_S800000x1_0 : (⟨S800000, .i32⟩ : BufTy).Contents (Elt F) → (⟨S800000x1, .i32⟩ : BufTy).Contents (Elt F)), -- 190: %148
    StableHlo.binary main_v135 main_v148 main_v149 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- 191: %149
    StableHlo.binary main_v142 main_v149 main_v150 (mulf : (⟨S800000, .f32⟩ : BufTy).Contents (Elt F) → (⟨S800000, .f32⟩ : BufTy).Contents (Elt F) → (⟨S800000, .f32⟩ : BufTy).Contents (Elt F)), -- 192: %150
    StableHlo.nullary main_c_35 (constantI S_ 32 0#32), -- 193: %c_35
    StableHlo.unary main_c_35 main_v151 (broadcastInDim S800000 ![] bcast_S_S800000 : (⟨S_, .i32⟩ : BufTy).Contents (Elt F) → (⟨S800000, .i32⟩ : BufTy).Contents (Elt F)), -- 194: %151
    StableHlo.binary main_v1 main_v151 main_v152 (cmpi .slt : (⟨S800000, .i32⟩ : BufTy).Contents (Elt F) → (⟨S800000, .i32⟩ : BufTy).Contents (Elt F) → (⟨S800000, .i1⟩ : BufTy).Contents (Elt F)), -- 195: %152
    StableHlo.nullary main_c_36 (constantI S_ 32 50000#32), -- 196: %c_36
    StableHlo.unary main_c_36 main_v153 (broadcastInDim S800000 ![] bcast_S_S800000 : (⟨S_, .i32⟩ : BufTy).Contents (Elt F) → (⟨S800000, .i32⟩ : BufTy).Contents (Elt F)), -- 197: %153
    StableHlo.binary main_v1 main_v153 main_v154 (addi : (⟨S800000, .i32⟩ : BufTy).Contents (Elt F) → (⟨S800000, .i32⟩ : BufTy).Contents (Elt F) → (⟨S800000, .i32⟩ : BufTy).Contents (Elt F)), -- 198: %154
    StableHlo.ternary main_v152 main_v154 main_v1 main_v155 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- 199: %155
    StableHlo.unary main_v155 main_v156 (broadcastInDim S800000x1 ![0] bcast_S800000_S800000x1_0 : (⟨S800000, .i32⟩ : BufTy).Contents (Elt F) → (⟨S800000x1, .i32⟩ : BufTy).Contents (Elt F)), -- 200: %156
    StableHlo.binary main_v123 main_v156 main_v157 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)), -- 201: %157
    StableHlo.unary main_v150 main_v158 (broadcastInDim S800000x1 ![0] bcast_S800000_S800000x1_0 : (⟨S800000, .f32⟩ : BufTy).Contents (Elt F) → (⟨S800000x1, .f32⟩ : BufTy).Contents (Elt F)), -- 202: %158
    StableHlo.unary main_v158 main_v159 (broadcastInDim S800000x256 ![0, 1] bcast_S800000x1_S800000x256_0_1 : (⟨S800000x1, .f32⟩ : BufTy).Contents (Elt F) → (⟨S800000x256, .f32⟩ : BufTy).Contents (Elt F)), -- 203: %159
    StableHlo.binary main_v157 main_v159 main_v160 (mulf : (⟨S800000x256, .f32⟩ : BufTy).Contents (Elt F) → (⟨S800000x256, .f32⟩ : BufTy).Contents (Elt F) → (⟨S800000x256, .f32⟩ : BufTy).Contents (Elt F)), -- 204: %160
    StableHlo.nullary main_cst_37 (constant S_ .f32 0x00000000#32), -- 205: %cst_37
    StableHlo.unary main_cst_37 main_v161 (broadcastInDim S50000x256 ![] bcast_S_S50000x256 : (⟨S_, .f32⟩ : BufTy).Contents (Elt F) → (⟨S50000x256, .f32⟩ : BufTy).Contents (Elt F)), -- 206: %161
    StableHlo.unary main_v3 main_v162 (broadcastInDim S800000x1 ![0] bcast_S800000_S800000x1_0 : (⟨S800000, .i32⟩ : BufTy).Contents (Elt F) → (⟨S800000x1, .i32⟩ : BufTy).Contents (Elt F)), -- 207: %162
    StableHlo.ternary main_v161 main_v162 main_v160 main_v163 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)), -- 208: %163
    StableHlo.binary main_v135 main_v135 main_v164 (mulf : (⟨S50000, .f32⟩ : BufTy).Contents (Elt F) → (⟨S50000, .f32⟩ : BufTy).Contents (Elt F) → (⟨S50000, .f32⟩ : BufTy).Contents (Elt F)), -- 209: %164
    StableHlo.unary main_v164 main_v165 (broadcastInDim S50000x1 ![0] bcast_S50000_S50000x1_0 : (⟨S50000, .f32⟩ : BufTy).Contents (Elt F) → (⟨S50000x1, .f32⟩ : BufTy).Contents (Elt F)), -- 210: %165
    StableHlo.unary main_v165 main_v166 (broadcastInDim S50000x256 ![0, 1] bcast_S50000x1_S50000x256_0_1 : (⟨S50000x1, .f32⟩ : BufTy).Contents (Elt F) → (⟨S50000x256, .f32⟩ : BufTy).Contents (Elt F)), -- 211: %166
    StableHlo.binary main_v123 main_v166 main_v167 (mulf : (⟨S50000x256, .f32⟩ : BufTy).Contents (Elt F) → (⟨S50000x256, .f32⟩ : BufTy).Contents (Elt F) → (⟨S50000x256, .f32⟩ : BufTy).Contents (Elt F)), -- 212: %167
    StableHlo.binary main_v163 main_v167 main_v168 (addf : (⟨S50000x256, .f32⟩ : BufTy).Contents (Elt F) → (⟨S50000x256, .f32⟩ : BufTy).Contents (Elt F) → (⟨S50000x256, .f32⟩ : BufTy).Contents (Elt F)), -- 213: %168
    StableHlo.unary main_arg7 main_v169 (broadcastInDim S1x256 ![1] bcast_S256_S1x256_1 : (⟨S256, .f32⟩ : BufTy).Contents (Elt F) → (⟨S1x256, .f32⟩ : BufTy).Contents (Elt F)), -- 214: %169
    StableHlo.unary main_v169 main_v170 (broadcastInDim S50000x256 ![0, 1] bcast_S1x256_S50000x256_0_1 : (⟨S1x256, .f32⟩ : BufTy).Contents (Elt F) → (⟨S50000x256, .f32⟩ : BufTy).Contents (Elt F)), -- 215: %170
    StableHlo.binary main_v168 main_v170 main_v171 (addf : (⟨S50000x256, .f32⟩ : BufTy).Contents (Elt F) → (⟨S50000x256, .f32⟩ : BufTy).Contents (Elt F) → (⟨S50000x256, .f32⟩ : BufTy).Contents (Elt F)) ] -- 216: %171

/-- The buffers that operations 157 … 216 write, in order. -/
abbrev layer2_W : List (Ref sig .tc) :=
  [main_cst_26, main_v124, main_c_27, main_v125, main_v126, main_c_28, main_v127, main_v128, main_v129, main_v130, main_cst_29, main_v131, main_v132, main_cst_30, main_v133, main_v134, main_v135, main_c_31, main_v136, main_v137, main_c_32, main_v138, main_v139, main_v140, main_v141, main_v142, main_c_33, main_v143, main_v144, main_c_34, main_v145, main_v146, main_v147, main_v148, main_v149, main_v150, main_c_35, main_v151, main_v152, main_c_36, main_v153, main_v154, main_v155, main_v156, main_v157, main_v158, main_v159, main_v160, main_cst_37, main_v161, main_v162, main_v163, main_v164, main_v165, main_v166, main_v167, main_v168, main_v169, main_v170, main_v171]

/-- Operations 217 … 254 of 254. -/
abbrev rest : List (HloOp τ sig (Elt F)) :=
  [ StableHlo.TRef.nullary main_call2.cst (constant S_ .f32 0x00000000#32), -- 217: %172 is @relu %cst
    StableHlo.TRef.unary main_call2.cst main_call2.v0 (broadcastInDim S50000x256 ![] bcast_S_S50000x256), -- 218: %172 is @relu %0
    StableHlo.TRef.binary (.of main_v171 : StableHlo.TRef sig ⟨S50000x256, .f32⟩) main_call2.v0 main_call2.v1 maximumf, -- 219: %172 is @relu %1
    StableHlo.binary main_v172 main_v172 main_v173 (mulf : (⟨S50000x256, .f32⟩ : BufTy).Contents (Elt F) → (⟨S50000x256, .f32⟩ : BufTy).Contents (Elt F) → (⟨S50000x256, .f32⟩ : BufTy).Contents (Elt F)), -- 220: %173
    StableHlo.nullary main_cst_38 (constant S_ .f32 0x00000000#32), -- 221: %cst_38
    StableHlo.binary main_v173 main_cst_38 main_v174 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)), -- 222: %174
    StableHlo.unary main_v174 main_v175 (broadcastInDim S50000x1 ![0] bcast_S50000_S50000x1_0 : (⟨S50000, .f32⟩ : BufTy).Contents (Elt F) → (⟨S50000x1, .f32⟩ : BufTy).Contents (Elt F)), -- 223: %175
    StableHlo.unary main_v175 main_v176 (Host.sqrt : (⟨S50000x1, .f32⟩ : BufTy).Contents (Elt F) → (⟨S50000x1, .f32⟩ : BufTy).Contents (Elt F)), -- 224: %176
    StableHlo.nullary main_cst_39 (constant S_ .f32 0x2B8CBCCC#32), -- 225: %cst_39
    StableHlo.unary main_cst_39 main_v177 (broadcastInDim S50000x1 ![] bcast_S_S50000x1 : (⟨S_, .f32⟩ : BufTy).Contents (Elt F) → (⟨S50000x1, .f32⟩ : BufTy).Contents (Elt F)), -- 226: %177
    StableHlo.binary main_v176 main_v177 main_v178 (maximumf : (⟨S50000x1, .f32⟩ : BufTy).Contents (Elt F) → (⟨S50000x1, .f32⟩ : BufTy).Contents (Elt F) → (⟨S50000x1, .f32⟩ : BufTy).Contents (Elt F)), -- 227: %178
    StableHlo.unary main_v178 main_v179 (broadcastInDim S50000x256 ![0, 1] bcast_S50000x1_S50000x256_0_1 : (⟨S50000x1, .f32⟩ : BufTy).Contents (Elt F) → (⟨S50000x256, .f32⟩ : BufTy).Contents (Elt F)), -- 228: %179
    StableHlo.binary main_v172 main_v179 main_v180 (Host.divf : (⟨S50000x256, .f32⟩ : BufTy).Contents (Elt F) → (⟨S50000x256, .f32⟩ : BufTy).Contents (Elt F) → (⟨S50000x256, .f32⟩ : BufTy).Contents (Elt F)), -- 229: %180
    StableHlo.unary main_arg8 main_v181 ((transpose S256x256 [1, 0] · transposes_S256x256_S256x256_1_0) : (⟨S256x256, .f32⟩ : BufTy).Contents (Elt F) → (⟨S256x256, .f32⟩ : BufTy).Contents (Elt F)), -- 230: %181
    StableHlo.binary main_v180 main_v181 main_v182 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)), -- 231: %182
    StableHlo.unary main_arg9 main_v183 (broadcastInDim S1x256 ![1] bcast_S256_S1x256_1 : (⟨S256, .f32⟩ : BufTy).Contents (Elt F) → (⟨S1x256, .f32⟩ : BufTy).Contents (Elt F)), -- 232: %183
    StableHlo.unary main_v183 main_v184 (broadcastInDim S50000x256 ![0, 1] bcast_S1x256_S50000x256_0_1 : (⟨S1x256, .f32⟩ : BufTy).Contents (Elt F) → (⟨S50000x256, .f32⟩ : BufTy).Contents (Elt F)), -- 233: %184
    StableHlo.binary main_v182 main_v184 main_v185 (addf : (⟨S50000x256, .f32⟩ : BufTy).Contents (Elt F) → (⟨S50000x256, .f32⟩ : BufTy).Contents (Elt F) → (⟨S50000x256, .f32⟩ : BufTy).Contents (Elt F)), -- 234: %185
    StableHlo.TRef.nullary main_call3.cst (constant S_ .f32 0x00000000#32), -- 235: %186 is @elu %cst
    StableHlo.TRef.unary main_call3.cst main_call3.v0 (broadcastInDim S50000x256 ![] bcast_S_S50000x256), -- 236: %186 is @elu %0
    StableHlo.TRef.binary (.of main_v185 : StableHlo.TRef sig ⟨S50000x256, .f32⟩) main_call3.v0 main_call3.v1 (cmpf .ogt), -- 237: %186 is @elu %1
    StableHlo.TRef.nullary main_call3.cst_0 (constant S_ .f32 0x00000000#32), -- 238: %186 is @elu %cst_0
    StableHlo.TRef.unary main_call3.cst_0 main_call3.v2 (broadcastInDim S50000x256 ![] bcast_S_S50000x256), -- 239: %186 is @elu %2
    StableHlo.TRef.binary (.of main_v185 : StableHlo.TRef sig ⟨S50000x256, .f32⟩) main_call3.v2 main_call3.v3 (cmpf .ogt), -- 240: %186 is @elu %3
    StableHlo.TRef.nullary main_call3.cst_1 (constant S_ .f32 0x00000000#32), -- 241: %186 is @elu %cst_1
    StableHlo.TRef.unary main_call3.cst_1 main_call3.call0.v0 id, -- 242: %186 is @elu @where %0
    StableHlo.TRef.unary main_call3.call0.v0 main_call3.call0.v1 (broadcastInDim S50000x256 ![] bcast_S_S50000x256), -- 243: %186 is @elu @where %1
    StableHlo.TRef.ternary main_call3.v3 main_call3.call0.v1 (.of main_v185 : StableHlo.TRef sig ⟨S50000x256, .f32⟩) main_call3.call0.v2 select, -- 244: %186 is @elu @where %2
    StableHlo.TRef.unary main_call3.call0.v2 main_call3.v5 Host.expm1, -- 245: %186 is @elu %5
    StableHlo.TRef.nullary main_call3.cst_2 (constant S_ .f32 0x3F800000#32), -- 246: %186 is @elu %cst_2
    StableHlo.TRef.unary main_call3.cst_2 main_call3.v6 (broadcastInDim S50000x256 ![] bcast_S_S50000x256), -- 247: %186 is @elu %6
    StableHlo.TRef.binary main_call3.v6 main_call3.v5 main_call3.v7 mulf, -- 248: %186 is @elu %7
    StableHlo.TRef.ternary main_call3.v1 (.of main_v185 : StableHlo.TRef sig ⟨S50000x256, .f32⟩) main_call3.v7 main_call3.call1.v0 select, -- 249: %186 is @elu @where_0 %0
    StableHlo.unary main_arg10 main_v187 ((transpose S256x256 [1, 0] · transposes_S256x256_S256x256_1_0) : (⟨S256x256, .f32⟩ : BufTy).Contents (Elt F) → (⟨S256x256, .f32⟩ : BufTy).Contents (Elt F)), -- 250: %187
    StableHlo.binary main_v186 main_v187 main_v188 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)), -- 251: %188
    StableHlo.unary main_arg11 main_v189 (broadcastInDim S1x256 ![1] bcast_S256_S1x256_1 : (⟨S256, .f32⟩ : BufTy).Contents (Elt F) → (⟨S1x256, .f32⟩ : BufTy).Contents (Elt F)), -- 252: %189
    StableHlo.unary main_v189 main_v190 (broadcastInDim S50000x256 ![0, 1] bcast_S1x256_S50000x256_0_1 : (⟨S1x256, .f32⟩ : BufTy).Contents (Elt F) → (⟨S50000x256, .f32⟩ : BufTy).Contents (Elt F)), -- 253: %190
    StableHlo.binary main_v188 main_v190 main_v191 (addf : (⟨S50000x256, .f32⟩ : BufTy).Contents (Elt F) → (⟨S50000x256, .f32⟩ : BufTy).Contents (Elt F) → (⟨S50000x256, .f32⟩ : BufTy).Contents (Elt F)) ] -- 254: %191

/-- The buffers that operations 217 … 254 write, in order. -/
abbrev rest_W : List (Ref sig .tc) :=
  [main_call2.cst.ref, main_call2.v0.ref, main_call2.v1.ref, main_v173, main_cst_38, main_v174, main_v175, main_v176, main_cst_39, main_v177, main_v178, main_v179, main_v180, main_v181, main_v182, main_v183, main_v184, main_v185, main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref, main_v187, main_v188, main_v189, main_v190, main_v191]

/-- All 254 operations, in order. -/
abbrev opsL : List (HloOp τ sig (Elt F)) :=
  before ++ (layer0 ++ (between1 ++ (layer1 ++ (between2 ++ (layer2 ++ rest)))))

end Cert.ReferenceIdeal.RefRun

end
-- ==== Proof.RefAggregate.lean ====
/- The reference program's three graph layers each compute the kernel program's aggregation function
   (`Cert.Aggregate.aggregate`, AggregateDef.lean) of the layer's input rows, the edges' two index vectors and the bias —
   with ONE difference, which the function carries as a parameter of its own: the degree count of the reference adds its
   ones at the destinations WRAPPED (`wrapped d = select (d < 0) (d + 50000) d`, the reference's own four operations),
   where the kernel program's adds them at the destinations as given. Every other operation is the same function on both
   sides, read at the same places of the dataflow; the two programs' shapes are the same literals and their dimension
   records differ only in the proof each carries, so the two composed terms are equal by computation.

   The operations of the reference are those of RefOps.lean, cut a second way (RefLayers.lean): before the first
   aggregation, each aggregation, what lies between two, and the rest. -/
import proofs.«111732_j62783831933365_2_alg».proof.Proof.RefOps
import proofs.«111732_j62783831933365_2_alg».proof.Proof.RefLayers
import proofs.«111732_j62783831933365_2_alg».proof.Proof.AggregateDef
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The two cuts list the same operations -/

set_option maxRecDepth 8192 in
/-- Both sides are the same 254 operations in the same order: concatenation computes. -/
theorem ops_eq_opsL : (ops : List (HloOp τ sig (Elt F))) = opsL := rfl

/-- The fold over all the operations is the fold over the seven pieces in turn. -/
theorem after_opsL (V : Valuation τ sig (Elt F)) :
    after ops V = after rest (after layer2 (after between2 (after layer1 (after between1 (after layer0 (after before V)))))) := by
  rw [ops_eq_opsL]
  simp only [opsL, after_append]

/-! ## Each layer's aggregation -/

/-- An index vector wrapped the way NumPy reads a negative index: `d + 50000` where `d < 0` (signed), `d` elsewhere — the
    reference's comparison with the broadcast constant 0, its sum with the broadcast constant 50000, its select. -/
abbrev wrapped (d : IVec S800000 32) : IVec S800000 32 :=
  select (cmpi .slt d (broadcastInDim S800000 ![] bcast_S_S800000 (constantI S_ 32 0#32)))
    (addi d (broadcastInDim S800000 ![] bcast_S_S800000 (constantI S_ 32 50000#32))) d

set_option maxRecDepth 8192 in
set_option maxHeartbeats 4000000 in
theorem ref_layer0 (V : Valuation τ sig (Elt F)) :
    after (layer0 : List (HloOp τ sig (Elt F))) V (Proc.devRef .tc main_v53)
      = Cert.Aggregate.aggregate (V (Proc.devRef .tc main_v5)) (V (Proc.devRef .tc main_v1)) (V (Proc.devRef .tc main_v3))
          (wrapped (V (Proc.devRef .tc main_v3))) (V (Proc.devRef .tc main_arg3)) := by
  simp only [layer0]
  after_results_simp
  rfl

set_option maxRecDepth 8192 in
set_option maxHeartbeats 4000000 in
theorem ref_layer1 (V : Valuation τ sig (Elt F)) :
    after (layer1 : List (HloOp τ sig (Elt F))) V (Proc.devRef .tc main_v112)
      = Cert.Aggregate.aggregate (V (Proc.devRef .tc main_v64)) (V (Proc.devRef .tc main_v1)) (V (Proc.devRef .tc main_v3))
          (wrapped (V (Proc.devRef .tc main_v3))) (V (Proc.devRef .tc main_arg5)) := by
  simp only [layer1]
  after_results_simp
  rfl

set_option maxRecDepth 8192 in
set_option maxHeartbeats 4000000 in
theorem ref_layer2 (V : Valuation τ sig (Elt F)) :
    after (layer2 : List (HloOp τ sig (Elt F))) V (Proc.devRef .tc main_v171)
      = Cert.Aggregate.aggregate (V (Proc.devRef .tc main_v123)) (V (Proc.devRef .tc main_v1)) (V (Proc.devRef .tc main_v3))
          (wrapped (V (Proc.devRef .tc main_v3))) (V (Proc.devRef .tc main_arg7)) := by
  simp only [layer2]
  after_results_simp
  rfl

end Cert.ReferenceIdeal.RefRun

end
-- ==== Proof.RefHead.lean ====
/-
  The reference's head: two dense layers, the first followed by the exponential linear unit.

  A dense layer is rows times weights plus a bias along the columns. The reference prints the
  product as a `dot_general` with the plain dimension numbers (contract the left operand's columns
  with the right operand's rows), and the bias as two `broadcast_in_dim`s, `[256]` to `[1, 256]` to
  `[50000, 256]`, which read at `(r, c)` the bias at `c`. Its `elu` is a select on the comparison
  `y > 0`: where the bit is 1 the value is `y`; where it is 0 the inner select leaves `y`, the host's
  `exp(s) - 1` is taken of it and multiplied by the value of the word `0x3F800000`, which is 1.
-/
import proofs.«111732_j62783831933365_2_alg».proof.Defs
import proofs.«111732_j62783831933365_2_alg».proof.Proof.DenseStage
import Idealize.ShloMosaic.Lib.ValueIdx
import Idealize.ShloMosaic.Lib.ValueLayout
import Idealize.ShloMosaic.Lib.IdealHost

noncomputable section

namespace Cert.RefHead

open Idealize.ShloMosaic Idealize.SL.Sem Idealize.ShloMosaic.ValueIdx
open scoped BigOperators

/-! ## Layout: a bias spread along the columns -/

section Layout

variable {α : Type}

/-- The host's `broadcast_in_dim` of a `[b]` array to `[1, b]` along axis 1 reads, at `(u, k)`, the operand at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- The host's `broadcast_in_dim` of a `[1, b]` row to `[a, b]` along axes 0, 1 reads, at `(i, k)`, the row at `k`. -/
theorem broadcastInDim_1b_ab_apply {a b : ℕ} (x : (⟨2, ![1, b]⟩ : Shape).Idx → α)
    (h : (⟨2, ![1, b]⟩ : Shape).BroadcastsInDim ⟨2, ![a, b]⟩ ![0, 1]) (i : Fin a) (k : Fin b) :
    broadcastInDim ⟨2, ![a, b]⟩ ![0, 1] h x (ix2 i k) = x (ix2 (0 : Fin 1) k) := by
  refine broadcastInDim_apply ![0, 1] h x (ix2 i k) (ix2 (0 : Fin 1) k) fun ax => ?_
  match ax with
  | ⟨0, _⟩ => rfl
  | ⟨1, _⟩ =>
    show k.val = if b = 1 then 0 else k.val
    split
    · have := k.isLt; omega
    · rfl

end Layout

/-- The host's `exp(x) - 1` at an index is the ideal exponential of the element, minus one. -/
theorem hostExpm1_apply {s : Shape} {φ : FTy} (a : FVec Ideal s φ) (i : s.Idx) : Host.expm1 a i = Ideal.exp (a i) - 1 := rfl

section R

variable [Cert.ReferenceIdeal.Facts]
open Cert.ReferenceIdeal Cert.ReferenceIdeal.Facts₀ Cert.ReferenceIdeal.Facts

/-! ## The product -/

/-- The reference's first projection, `[50000, 2613]` by `[2613, 256]`, is rows times weights. -/
theorem proj0_eq (x : FVec Ideal S50000x2613 .f32) (wT : FVec Ideal S2613x256 .f32) :
    Host.dotGeneral dot_S50000x2613_S2613x256_S50000x256_1_0_0_1_n_n none x wT
      = Cert.RowsTimesWeights.prod (M := 50000) (K := 2613) (N := 256) x wT :=
  Cert.RowsTimesWeights.dotGeneral_plain none .single x wT

/-- The reference's `[50000, 256]` by `[256, 256]` products are rows times weights. -/
theorem proj_eq (y : FVec Ideal S50000x256 .f32) (wT : FVec Ideal S256x256 .f32) :
    Host.dotGeneral dot_S50000x256_S256x256_S50000x256_1_0_0_1_n_n none y wT
      = Cert.RowsTimesWeights.prod (M := 50000) (K := 256) (N := 256) y wT :=
  Cert.RowsTimesWeights.dotGeneral_plain none .single y wT

/-! ## The exponential linear unit -/

/-- A constant word broadcast to the whole array reads, at every index, the word's value. -/
theorem bcast_const_apply (w : BitVec 32) (i : S50000x256.Idx) :
    broadcastInDim S50000x256 ![] bcast_S_S50000x256 (constant (F := Ideal) S_ .f32 w) i = Ideal.ofBits .f32 w := by
  rw [broadcastInDim_scalar_apply, constant_apply]

/-- The reference's `elu`, its printed operations composed in dataflow order: the comparison `y > 0` (taken
    twice, identically), the inner select of the zero word's broadcast or `y`, `exp - 1`, the product with
    the one word's broadcast, and the outer select of `y` or that product. -/
def refElu (y : FVec Ideal S50000x256 .f32) : FVec Ideal S50000x256 .f32 :=
  select
    (cmpf .ogt y (broadcastInDim S50000x256 ![] bcast_S_S50000x256 (constant (F := Ideal) S_ .f32 0x00000000#32)))
    y
    (mulf (broadcastInDim S50000x256 ![] bcast_S_S50000x256 (constant (F := Ideal) S_ .f32 0x3F800000#32))
      (Host.expm1
        (select
          (cmpf .ogt y (broadcastInDim S50000x256 ![] bcast_S_S50000x256 (constant (F := Ideal) S_ .f32 0x00000000#32)))
          (broadcastInDim S50000x256 ![] bcast_S_S50000x256 (id (constant (F := Ideal) S_ .f32 0x00000000#32)))
          y)))

theorem refElu_eq (y : FVec Ideal S50000x256 .f32) : refElu y = fun i => Cert.DenseStage.elu (y i) := by
  funext i
  unfold refElu Cert.DenseStage.elu
  simp only [select_apply, cmpf_apply, mulf_apply, hostExpm1_apply, id_eq]
  rw [bcast_const_apply 0x00000000#32, bcast_const_apply 0x3F800000#32, Ideal.ofBits_one_f32, one_mul]
  by_cases hc : FloatOps.cmpf (F := Ideal) (φ := .f32) .ogt (y i) (Ideal.ofBits .f32 0x00000000#32) = 1#1
  · rw [hc, select_one, select_one]
  · rw [eq_zero_of_ne_one hc, select_zero, select_zero, select_zero]

/-! ## The dense layers -/

/-- One dense layer of the reference's head as printed: the product of the rows with the (already
    transposed) weights, plus the bias broadcast to one row and then to every row. -/
def refDense (y : FVec Ideal S50000x256 .f32) (wT : FVec Ideal S256x256 .f32) (b : FVec Ideal S256 .f32) :
    FVec Ideal S50000x256 .f32 :=
  addf (Host.dotGeneral dot_S50000x256_S256x256_S50000x256_1_0_0_1_n_n none y wT)
    (broadcastInDim S50000x256 ![0, 1] bcast_S1x256_S50000x256_0_1 (broadcastInDim S1x256 ![1] bcast_S256_S1x256_1 b))

/-- It is the dense layer with nothing applied after the bias. -/
theorem refDense_eq (y : FVec Ideal S50000x256 .f32) (wT : FVec Ideal S256x256 .f32) (b : FVec Ideal S256 .f32) :
    refDense y wT b = Cert.DenseStage.dense (M := 50000) (K := 256) (N := 256) (fun a => a) y wT b := by
  funext j
  obtain ⟨p, q, rfl⟩ : ∃ (p : Fin 50000) (q : Fin 256), j = ix2 p q := ⟨j 0, j 1, eq_ix2 j⟩
  unfold refDense Cert.DenseStage.dense
  rw [addf_apply, proj_eq, broadcastInDim_1b_ab_apply, broadcastInDim_b_1b_apply]

/-- The first layer of the head: the dense layer followed by the reference's `elu` is the dense layer with
    `elu` applied to every entry. -/
theorem refDenseElu_eq (y : FVec Ideal S50000x256 .f32) (wT : FVec Ideal S256x256 .f32) (b : FVec Ideal S256 .f32) :
    refElu (refDense y wT b) = Cert.DenseStage.dense (M := 50000) (K := 256) (N := 256) Cert.DenseStage.elu y wT b := by
  rw [refElu_eq, refDense_eq]
  rfl

end R

end Cert.RefHead

end
-- ==== Proof.RefValue.lean ====
/- What the reference program computes, as one function of its twelve argument arrays: `Cert.Network.net` with the degree
   count's destinations wrapped (`Cert.Network.normalize`).

   The fold of the reference's 254 host operations is read piece by piece, along the cut of RefLayers.lean. Each piece
   is a straight line; the buffer it is read at holds the piece's operations composed along the buffers, which is, by
   computation, a named function of what the piece reads:
   · before the first layer: the edge list's two rows (`Cert.Network.src`, `Cert.Network.dst`) and the first product;
   · each layer's aggregation: `Cert.Aggregate.aggregate` (RefAggregate.lean);
   · between two layers: the rows clipped at zero and divided by their norm (`Cert.RowNormalize.refChain`), then the
     product with the next transposed weights;
   · after the last layer: the same clipping and division, then the two dense layers, the first followed by the
     exponential linear unit (`Cert.RefHead.refDense`, `Cert.RefHead.refElu`).
   A buffer a piece does not write is unchanged through it (the arguments throughout; the two index vectors once
   written). Chaining the pieces bottom-up and replacing each printed function by what it computes (a product of rows and
   weights, the row normalization, a dense layer) gives the network, term for term. None of the named functions is
   opened here: they are only moved by their equations. -/
import proofs.«111732_j62783831933365_2_alg».proof.Proof.RefRun
import proofs.«111732_j62783831933365_2_alg».proof.Proof.RefAggregate
import proofs.«111732_j62783831933365_2_alg».proof.Proof.Network
import proofs.«111732_j62783831933365_2_alg».proof.Proof.RefHead

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

/-! ## A buffer a piece does not write keeps its contents through it -/

section Keep

variable {F : FTy → Type} [FloatOps F]

set_option maxRecDepth 8192 in
theorem before_writes : (before : List (HloOp τ sig (Elt F))).Forall fun op =>
    op.writes ⊆ (before_W.map (Proc.devRef (τ := τ) .tc)).toFinset := by
  repeat' apply And.intro
  all_goals exact Finset.singleton_subset_iff.mpr (List.mem_toFinset.mpr (List.mem_map_of_mem (by decide)))

theorem keep_before (V : Valuation τ sig (Elt F)) (r : Ref sig .tc) (h : r ∉ before_W) :
    after before V (Proc.devRef .tc r) = V (Proc.devRef .tc r) := after_of_writes_sub before V before_writes h

set_option maxRecDepth 8192 in
theorem layer0_writes : (layer0 : List (HloOp τ sig (Elt F))).Forall fun op =>
    op.writes ⊆ (layer0_W.map (Proc.devRef (τ := τ) .tc)).toFinset := by
  repeat' apply And.intro
  all_goals exact Finset.singleton_subset_iff.mpr (List.mem_toFinset.mpr (List.mem_map_of_mem (by decide)))

theorem keep_layer0 (V : Valuation τ sig (Elt F)) (r : Ref sig .tc) (h : r ∉ layer0_W) :
    after layer0 V (Proc.devRef .tc r) = V (Proc.devRef .tc r) := after_of_writes_sub layer0 V layer0_writes h

set_option maxRecDepth 8192 in
theorem between1_writes : (between1 : List (HloOp τ sig (Elt F))).Forall fun op =>
    op.writes ⊆ (between1_W.map (Proc.devRef (τ := τ) .tc)).toFinset := by
  repeat' apply And.intro
  all_goals exact Finset.singleton_subset_iff.mpr (List.mem_toFinset.mpr (List.mem_map_of_mem (by decide)))

theorem keep_between1 (V : Valuation τ sig (Elt F)) (r : Ref sig .tc) (h : r ∉ between1_W) :
    after between1 V (Proc.devRef .tc r) = V (Proc.devRef .tc r) := after_of_writes_sub between1 V between1_writes h

set_option maxRecDepth 8192 in
theorem layer1_writes : (layer1 : List (HloOp τ sig (Elt F))).Forall fun op =>
    op.writes ⊆ (layer1_W.map (Proc.devRef (τ := τ) .tc)).toFinset := by
  repeat' apply And.intro
  all_goals exact Finset.singleton_subset_iff.mpr (List.mem_toFinset.mpr (List.mem_map_of_mem (by decide)))

theorem keep_layer1 (V : Valuation τ sig (Elt F)) (r : Ref sig .tc) (h : r ∉ layer1_W) :
    after layer1 V (Proc.devRef .tc r) = V (Proc.devRef .tc r) := after_of_writes_sub layer1 V layer1_writes h

set_option maxRecDepth 8192 in
theorem between2_writes : (between2 : List (HloOp τ sig (Elt F))).Forall fun op =>
    op.writes ⊆ (between2_W.map (Proc.devRef (τ := τ) .tc)).toFinset := by
  repeat' apply And.intro
  all_goals exact Finset.singleton_subset_iff.mpr (List.mem_toFinset.mpr (List.mem_map_of_mem (by decide)))

theorem keep_between2 (V : Valuation τ sig (Elt F)) (r : Ref sig .tc) (h : r ∉ between2_W) :
    after between2 V (Proc.devRef .tc r) = V (Proc.devRef .tc r) := after_of_writes_sub between2 V between2_writes h

set_option maxRecDepth 8192 in
theorem layer2_writes : (layer2 : List (HloOp τ sig (Elt F))).Forall fun op =>
    op.writes ⊆ (layer2_W.map (Proc.devRef (τ := τ) .tc)).toFinset := by
  repeat' apply And.intro
  all_goals exact Finset.singleton_subset_iff.mpr (List.mem_toFinset.mpr (List.mem_map_of_mem (by decide)))

theorem keep_layer2 (V : Valuation τ sig (Elt F)) (r : Ref sig .tc) (h : r ∉ layer2_W) :
    after layer2 V (Proc.devRef .tc r) = V (Proc.devRef .tc r) := after_of_writes_sub layer2 V layer2_writes h

set_option maxRecDepth 8192 in
theorem rest_writes : (rest : List (HloOp τ sig (Elt F))).Forall fun op =>
    op.writes ⊆ (rest_W.map (Proc.devRef (τ := τ) .tc)).toFinset := by
  repeat' apply And.intro
  all_goals exact Finset.singleton_subset_iff.mpr (List.mem_toFinset.mpr (List.mem_map_of_mem (by decide)))

theorem keep_rest (V : Valuation τ sig (Elt F)) (r : Ref sig .tc) (h : r ∉ rest_W) :
    after rest V (Proc.devRef .tc r) = V (Proc.devRef .tc r) := after_of_writes_sub rest V rest_writes h

theorem keep_to_layer0 (V : Valuation τ sig (Elt F)) (r : Ref sig .tc) (h0 : r ∉ before_W) (h1 : r ∉ layer0_W) :
    after layer0 (after before V) (Proc.devRef .tc r) = V (Proc.devRef .tc r) := by
  rw [keep_layer0 _ r h1, keep_before _ r h0]

theorem keep_to_between1 (V : Valuation τ sig (Elt F)) (r : Ref sig .tc) (h0 : r ∉ before_W) (h1 : r ∉ layer0_W) (h2 : r ∉ between1_W) :
    after between1 (after layer0 (after before V)) (Proc.devRef .tc r) = V (Proc.devRef .tc r) := by
  rw [keep_between1 _ r h2, keep_layer0 _ r h1, keep_before _ r h0]

theorem keep_to_layer1 (V : Valuation τ sig (Elt F)) (r : Ref sig .tc) (h0 : r ∉ before_W) (h1 : r ∉ layer0_W) (h2 : r ∉ between1_W) (h3 : r ∉ layer1_W) :
    after layer1 (after between1 (after layer0 (after before V))) (Proc.devRef .tc r) = V (Proc.devRef .tc r) := by
  rw [keep_layer1 _ r h3, keep_between1 _ r h2, keep_layer0 _ r h1, keep_before _ r h0]

theorem keep_to_between2 (V : Valuation τ sig (Elt F)) (r : Ref sig .tc) (h0 : r ∉ before_W) (h1 : r ∉ layer0_W) (h2 : r ∉ between1_W) (h3 : r ∉ layer1_W) (h4 : r ∉ between2_W) :
    after between2 (after layer1 (after between1 (after layer0 (after before V)))) (Proc.devRef .tc r) = V (Proc.devRef .tc r) := by
  rw [keep_between2 _ r h4, keep_layer1 _ r h3, keep_between1 _ r h2, keep_layer0 _ r h1, keep_before _ r h0]

theorem keep_to_layer2 (V : Valuation τ sig (Elt F)) (r : Ref sig .tc) (h0 : r ∉ before_W) (h1 : r ∉ layer0_W) (h2 : r ∉ between1_W) (h3 : r ∉ layer1_W) (h4 : r ∉ between2_W) (h5 : r ∉ layer2_W) :
    after layer2 (after between2 (after layer1 (after between1 (after layer0 (after before V))))) (Proc.devRef .tc r) = V (Proc.devRef .tc r) := by
  rw [keep_layer2 _ r h5, keep_between2 _ r h4, keep_layer1 _ r h3, keep_between1 _ r h2, keep_layer0 _ r h1, keep_before _ r h0]

theorem keep_from_layer0_to_between1 (V : Valuation τ sig (Elt F)) (r : Ref sig .tc) (h0 : r ∉ layer0_W) (h1 : r ∉ between1_W) :
    after between1 (after layer0 V) (Proc.devRef .tc r) = V (Proc.devRef .tc r) := by
  rw [keep_between1 _ r h1, keep_layer0 _ r h0]

theorem keep_from_layer0_to_between2 (V : Valuation τ sig (Elt F)) (r : Ref sig .tc) (h0 : r ∉ layer0_W) (h1 : r ∉ between1_W) (h2 : r ∉ layer1_W) (h3 : r ∉ between2_W) :
    after between2 (after layer1 (after between1 (after layer0 V))) (Proc.devRef .tc r) = V (Proc.devRef .tc r) := by
  rw [keep_between2 _ r h3, keep_layer1 _ r h2, keep_between1 _ r h1, keep_layer0 _ r h0]

end Keep

/-! ## What each piece computes (at the ideal values) -/

local notation "𝕍" => Valuation τ sig (Elt Ideal)
local notation "𝕃" => List (HloOp τ sig (Elt Ideal))

theorem before_v1 (V : 𝕍) : (after (before : 𝕃) V (Proc.devRef .tc main_v1) : IVec S800000 32)
    = Cert.Network.src (V (Proc.devRef .tc main_arg1) : IVec S2x800000 32) := by
  simp only [before]
  after_results_simp
  rfl

theorem before_v3 (V : 𝕍) : (after (before : 𝕃) V (Proc.devRef .tc main_v3) : IVec S800000 32)
    = Cert.Network.dst (V (Proc.devRef .tc main_arg1) : IVec S2x800000 32) := by
  simp only [before]
  after_results_simp
  rfl

theorem before_v5 (V : 𝕍) : (after (before : 𝕃) V (Proc.devRef .tc main_v5) : FVec Ideal S50000x256 .f32)
    = Host.dotGeneral (F := Ideal) (φ₁ := .f32) (φ₂ := .f32) dot_S50000x2613_S2613x256_S50000x256_1_0_0_1_n_n none
        (V (Proc.devRef .tc main_arg0) : FVec Ideal S50000x2613 .f32)
        (transpose (s := S256x2613) (α := Ideal .f32) S2613x256 [1, 0] (V (Proc.devRef .tc main_arg2) : FVec Ideal S256x2613 .f32) transposes_S256x2613_S2613x256_1_0) := by
  simp only [before]
  after_results_simp

set_option maxRecDepth 8192 in
set_option maxHeartbeats 1000000 in
theorem between1_v64 (V : 𝕍) : (after (between1 : 𝕃) V (Proc.devRef .tc main_v64) : FVec Ideal S50000x256 .f32)
    = Host.dotGeneral (F := Ideal) (φ₁ := .f32) (φ₂ := .f32) dot_S50000x256_S256x256_S50000x256_1_0_0_1_n_n none
        (Cert.RowNormalize.refChain (V (Proc.devRef .tc main_v53) : FVec Ideal S50000x256 .f32))
        (transpose (s := S256x256) (α := Ideal .f32) S256x256 [1, 0] (V (Proc.devRef .tc main_arg4) : FVec Ideal S256x256 .f32) transposes_S256x256_S256x256_1_0) := by
  simp only [between1]
  after_results_simp
  rfl

set_option maxRecDepth 8192 in
set_option maxHeartbeats 1000000 in
theorem between2_v123 (V : 𝕍) : (after (between2 : 𝕃) V (Proc.devRef .tc main_v123) : FVec Ideal S50000x256 .f32)
    = Host.dotGeneral (F := Ideal) (φ₁ := .f32) (φ₂ := .f32) dot_S50000x256_S256x256_S50000x256_1_0_0_1_n_n none
        (Cert.RowNormalize.refChain (V (Proc.devRef .tc main_v112) : FVec Ideal S50000x256 .f32))
        (transpose (s := S256x256) (α := Ideal .f32) S256x256 [1, 0] (V (Proc.devRef .tc main_arg6) : FVec Ideal S256x256 .f32) transposes_S256x256_S256x256_1_0) := by
  simp only [between2]
  after_results_simp
  rfl

-- the composed term is some fifty applications deep, and each level is compared through the typed references' casts
set_option maxRecDepth 100000 in
set_option maxHeartbeats 2000000 in
theorem rest_v191 (V : 𝕍) : (after (rest : 𝕃) V (Proc.devRef .tc main_v191) : FVec Ideal S50000x256 .f32)
    = Cert.RefHead.refDense
        (Cert.RefHead.refElu
          (Cert.RefHead.refDense (Cert.RowNormalize.refChain (V (Proc.devRef .tc main_v171) : FVec Ideal S50000x256 .f32))
            (transpose (s := S256x256) (α := Ideal .f32) S256x256 [1, 0] (V (Proc.devRef .tc main_arg8) : FVec Ideal S256x256 .f32) transposes_S256x256_S256x256_1_0)
            (V (Proc.devRef .tc main_arg9) : FVec Ideal S256 .f32)))
        (transpose (s := S256x256) (α := Ideal .f32) S256x256 [1, 0] (V (Proc.devRef .tc main_arg10) : FVec Ideal S256x256 .f32) transposes_S256x256_S256x256_1_0)
        (V (Proc.devRef .tc main_arg11) : FVec Ideal S256 .f32) := by
  simp only [rest]
  after_results_simp
  rfl

/-- The reference's wrapping of an index vector is the network's. -/
theorem wrapped_eq (d : IVec S800000 32) : wrapped d = Cert.Network.normalize d := rfl

/-! ## The whole fold -/

set_option maxRecDepth 8192 in
set_option maxHeartbeats 4000000 in
/-- After the reference's operations, run from the contents `m` gives device `c`, the result buffer holds the network
    of the twelve argument arrays, the degree count's destinations wrapped. -/
theorem value (m : (ℓ : Loc nD τ sig) → Buf (Elt Ideal) ℓ) (c : Dev nD) :
    after (ops : 𝕃) (launchContents m c) (Proc.devRef .tc main_v191)
      = Cert.Network.net Cert.Network.normalize
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11)) := by
  -- the pieces, bottom-up: each piece's result as the named function of what it reads
  rw [after_opsL, rest_v191, ref_layer2, between2_v123, ref_layer1, between1_v64, ref_layer0, before_v5]
  -- what a later piece reads of an earlier state, where no piece in between writes it
  rw [keep_to_layer2 _ main_arg8 (by decide) (by decide) (by decide) (by decide) (by decide) (by decide), keep_to_layer2 _ main_arg9 (by decide) (by decide) (by decide) (by decide) (by decide) (by decide),
    keep_to_layer2 _ main_arg10 (by decide) (by decide) (by decide) (by decide) (by decide) (by decide), keep_to_layer2 _ main_arg11 (by decide) (by decide) (by decide) (by decide) (by decide) (by decide),
    keep_to_between2 _ main_arg7 (by decide) (by decide) (by decide) (by decide) (by decide), keep_to_layer1 _ main_arg6 (by decide) (by decide) (by decide) (by decide),
    keep_to_between1 _ main_arg5 (by decide) (by decide) (by decide), keep_to_layer0 _ main_arg4 (by decide) (by decide),
    keep_before _ main_arg3 (by decide),
    keep_from_layer0_to_between2 _ main_v1 (by decide) (by decide) (by decide) (by decide), keep_from_layer0_to_between2 _ main_v3 (by decide) (by decide) (by decide) (by decide),
    keep_from_layer0_to_between1 _ main_v1 (by decide) (by decide), keep_from_layer0_to_between1 _ main_v3 (by decide) (by decide),
    before_v1, before_v3]
  -- each printed function is what it computes
  rw [Cert.RefHead.refDenseElu_eq]
  simp only [wrapped_eq, Cert.RefHead.refDense_eq, Cert.RowNormalize.reference_chain, Cert.RefHead.proj_eq,
    Cert.RefHead.proj0_eq]
  -- both sides are now the same applications of the same functions; the network's definitions unfold to them
  rfl

/-! ## The run, with the result named -/

/-- Every weakly fair execution of the reference program terminates without a fault; its result buffer then holds
    the network of the twelve argument arrays as they were at launch (the degree count's destinations wrapped), and
    the argument buffers are unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v191)
          = Cert.Network.net Cert.Network.normalize
              (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (value m c), (h c).2⟩) (run (F := Ideal) m ρ)

end Cert.ReferenceIdeal.RefValue

end
-- ==== Proof.EdgeDomain.lean ====
/-
  Two facts about the integer input `edges : int32[2, 800000]`, whose second row is the
  destination vertex of each edge.

  1. `dst_nonneg`: under the precondition, no entry of the second row is negative as a signed
     32-bit integer. The precondition's last conjunct is `jnp.all(edges[1] >= 0)`: a reduction by
     `and` of the bits `edges[1][j] >= 0`, so its being 1 gives each bit 1, and a word `x` with
     `0 <= x` (signed) does not satisfy `x < 0` (signed).
  2. `normalized_eq_raw`: the NumPy normalization of a possibly negative index,
     `select (d < 0) (d + n) d`, is the identity on a vector with no negative entry.
-/
import proofs.«111732_j62783831933365_2_alg».proof.Defs
import Idealize.ShloMosaic.Lib.ReduceAll

noncomputable section

namespace Cert.EdgeDomain

open Idealize.ShloMosaic Idealize.SL.Sem
open Cert.Pre_finite_inputs (S_ S2x800000 S1x800000 S800000)

/-- A shape of rank zero has exactly one index. -/
instance : Subsingleton S_.Idx := ⟨fun a b => funext fun d => d.elim0⟩

/-! ## One word -/

/-- A one-bit word that is not 1 is 0. -/
theorem bit_eq_zero_of_ne_one : ∀ c : BitVec 1, ¬c = 1#1 → c = 0#1 := by decide

/-- A word that tests `0 <= x` (signed) tests `x < 0` (signed) false. -/
theorem slt_zero_of_sge_zero {x : BitVec 32} (h : IntOp.cmpi .sge x 0#32 = 1#1) :
    IntOp.cmpi .slt x 0#32 = 0#1 := by
  have h1 : (0#32 : BitVec 32).toInt ≤ x.toInt := IntOp.cmpi_sge.1 h
  refine bit_eq_zero_of_ne_one _ fun e => ?_
  have h2 : x.toInt < (0#32 : BitVec 32).toInt := IntOp.cmpi_slt.1 e
  omega

/-! ## The normalization of an index vector with no negative entry -/

section Normalize

variable {s : Shape}

/-- A scalar constant broadcast to any shape reads that constant at every index. -/
theorem bcast_const (hb : S_.BroadcastsInDim s (![] : Fin 0 → Fin s.rank)) (n : BitVec 32) (j : s.Idx) :
    broadcastInDim s ![] hb (constantI S_ 32 n) j = n := rfl

/-- `select (d < 0) (d + n) d = d` for a vector `d` whose comparison `d < 0` (signed) is 0 at every
    index: the operations are the printed ones of the reference's %7 … %11, the vector `d`, the
    constant `n` (50000 there) and the shape witnesses arbitrary. -/
theorem normalized_eq_raw (hb hb' : S_.BroadcastsInDim s (![] : Fin 0 → Fin s.rank)) (n : BitVec 32) (d : IVec s 32)
    (h : ∀ j, cmpi .slt d (broadcastInDim s ![] hb (constantI S_ 32 0#32)) j = 0#1) :
    select (cmpi .slt d (broadcastInDim s ![] hb (constantI S_ 32 0#32)))
      (addi d (broadcastInDim s ![] hb' (constantI S_ 32 n))) d = d := by
  funext j
  show Scalar.select (cmpi .slt d (broadcastInDim s ![] hb (constantI S_ 32 0#32)) j) _ (d j) = d j
  rw [h j]
  exact if_neg (by decide)

end Normalize

/-! ## The precondition read back -/

section Pre

variable [hP : Cert.Pre_finite_inputs.Facts]

/-- `dst`: the second row of the kernel's `edges` buffer on device `c`, as both programs compute it
    (%2 the slice `[1:2, 0:800000]`, %3 its reshape to `800000`). -/
abbrev dst (m : (ℓ : Loc Cert.KernelIdeal.nD Cert.KernelIdeal.τ Cert.KernelIdeal.sig) → Buf (Elt Ideal) ℓ)
    (c : Dev Cert.KernelIdeal.nD) (hs : S2x800000.Slices ![1, 0] S1x800000) (hc : S1x800000.ShapeCasts S800000) :
    IVec S800000 32 :=
  shapeCast S800000 (extractStridedSlice S1x800000 ![1, 0]
    (m ((c.tc : Thread Cert.KernelIdeal.nD Cert.KernelIdeal.τ).loc Cert.KernelIdeal.main_arg1)) hs) hc

/-- Under the precondition every entry of `dst` tests `0 <= dst j` (signed): the last conjunct,
    `jnp.all(edges[1] >= 0)`, element by element. -/
theorem dst_sge (m : (ℓ : Loc Cert.KernelIdeal.nD Cert.KernelIdeal.τ Cert.KernelIdeal.sig) → Buf (Elt Ideal) ℓ)
    (hpre : Cert.Pre_KernelIdeal m) (c : Dev Cert.KernelIdeal.nD)
    (hs : S2x800000.Slices ![1, 0] S1x800000) (hc : S1x800000.ShapeCasts S800000) (j : S800000.Idx) :
    IntOp.cmpi .sge (dst m c hs hc j) 0#32 = 1#1 := by
  have e := congrFun (hpre c) (fun d => d.elim0)
  unfold Cert.Pre_finite_inputs.fn Cert.Pre_finite_inputs.fn_part1 Cert.Pre_finite_inputs.fn_part2
    Cert.Pre_finite_inputs.fn_part3 at e
  have e2 := (IntOp.andi_eq_one.1 e).2
  exact Host.reduce_andi_all _ _ _ _ _ e2 j

/-- `dst_nonneg`: under the precondition the printed comparison `dst < 0` (signed; the reference's %8,
    against its %7 the broadcast of the constant 0) is 0 at every index. -/
theorem dst_nonneg (m : (ℓ : Loc Cert.KernelIdeal.nD Cert.KernelIdeal.τ Cert.KernelIdeal.sig) → Buf (Elt Ideal) ℓ)
    (hpre : Cert.Pre_KernelIdeal m) (c : Dev Cert.KernelIdeal.nD)
    (hs : S2x800000.Slices ![1, 0] S1x800000) (hc : S1x800000.ShapeCasts S800000)
    (hb : S_.BroadcastsInDim S800000 (![] : Fin 0 → Fin S800000.rank)) (j : S800000.Idx) :
    cmpi .slt (dst m c hs hc) (broadcastInDim S800000 ![] hb (constantI S_ 32 0#32)) j = 0#1 :=
  slt_zero_of_sge_zero (dst_sge m hpre c hs hc j)

/-- The same fact as an inequality of integers: `0 <= dst j` read signed. -/
theorem dst_toInt_nonneg (m : (ℓ : Loc Cert.KernelIdeal.nD Cert.KernelIdeal.τ Cert.KernelIdeal.sig) → Buf (Elt Ideal) ℓ)
    (hpre : Cert.Pre_KernelIdeal m) (c : Dev Cert.KernelIdeal.nD)
    (hs : S2x800000.Slices ![1, 0] S1x800000) (hc : S1x800000.ShapeCasts S800000) (j : S800000.Idx) :
    0 ≤ (dst m c hs hc j).toInt := by
  have h := IntOp.cmpi_sge.1 (dst_sge m hpre c hs hc j)
  rwa [show (0#32 : BitVec 32).toInt = 0 from by decide] at h

/-- Both facts together: under the precondition the normalized `dst` is `dst`. -/
theorem dst_normalized (m : (ℓ : Loc Cert.KernelIdeal.nD Cert.KernelIdeal.τ Cert.KernelIdeal.sig) → Buf (Elt Ideal) ℓ)
    (hpre : Cert.Pre_KernelIdeal m) (c : Dev Cert.KernelIdeal.nD)
    (hs : S2x800000.Slices ![1, 0] S1x800000) (hc : S1x800000.ShapeCasts S800000)
    (hb hb' : S_.BroadcastsInDim S800000 (![] : Fin 0 → Fin S800000.rank)) (n : BitVec 32) :
    select (cmpi .slt (dst m c hs hc) (broadcastInDim S800000 ![] hb (constantI S_ 32 0#32)))
      (addi (dst m c hs hc) (broadcastInDim S800000 ![] hb' (constantI S_ 32 n))) (dst m c hs hc) = dst m c hs hc :=
  normalized_eq_raw hb hb' n _ (dst_nonneg m hpre c hs hc hb)

end Pre

end Cert.EdgeDomain

end
-- ==== Proof.Bridge.lean ====
/-
  The bridge between the two programs.

  The kernel's program counts the degrees at the destination nodes as given; the reference first
  moves every negative destination index up by the number of nodes. Under the precondition no
  destination index is negative, so that move changes nothing: `normalize_dst`. The network mentions
  the choice only as the index vector at which each of its three graph layers counts the degrees, so
  each layer, and with them the whole network, is the same function under either choice: `net_eq`.
-/
import proofs.«111732_j62783831933365_2_alg».proof.Proof.Network
import proofs.«111732_j62783831933365_2_alg».proof.Proof.EdgeDomain

noncomputable section

namespace Cert.Bridge

open Idealize.ShloMosaic Idealize.SL.Sem

variable [Cert.Pre_finite_inputs.Facts]

/-- Under the precondition the destination nodes with every negative index moved up are the destination
    nodes: no index is negative, so the select takes its last operand everywhere. -/
theorem normalize_dst (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Network.normalize (Cert.Network.dst (m ((c.tc : Thread Cert.KernelIdeal.nD Cert.KernelIdeal.τ).loc Cert.KernelIdeal.main_arg1)))
      = Cert.Network.dst (m ((c.tc : Thread Cert.KernelIdeal.nD Cert.KernelIdeal.τ).loc Cert.KernelIdeal.main_arg1)) := by
  unfold Cert.Network.normalize
  exact Cert.EdgeDomain.dst_normalized m hpre c _ _ _ _ 50000#32

/-- One graph layer counts its degrees at the same index vector under either choice. -/
theorem layer_eq {K : Nat} (m : (ℓ : Loc Cert.KernelIdeal.nD Cert.KernelIdeal.τ Cert.KernelIdeal.sig) → Buf (Elt Ideal) ℓ)
    (hpre : Cert.Pre_KernelIdeal m) (c : Dev Cert.KernelIdeal.nD)
    (x : (⟨2, ![50000, K]⟩ : Shape).Idx → EReal) (wT : (⟨2, ![K, 256]⟩ : Shape).Idx → EReal)
    (b : FVec Ideal Cert.KernelIdeal.S256 .f32) :
    Cert.Network.layer Cert.Network.normalize x wT (m ((c.tc : Thread Cert.KernelIdeal.nD Cert.KernelIdeal.τ).loc Cert.KernelIdeal.main_arg1)) b
      = Cert.Network.layer (fun d => d) x wT (m ((c.tc : Thread Cert.KernelIdeal.nD Cert.KernelIdeal.τ).loc Cert.KernelIdeal.main_arg1)) b := by
  unfold Cert.Network.layer
  rw [normalize_dst m hpre c]

/-- The network with the reference's choice is the network with the kernel's, on the kernel's twelve
    argument buffers. -/
theorem net_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Network.net Cert.Network.normalize
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
    = Cert.Network.net (fun d => d)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) := by
  unfold Cert.Network.net
  rw [layer_eq m hpre c, layer_eq m hpre c, layer_eq m hpre c]

end Cert.Bridge

end
-- ==== Proof.lean ====
/-
  A three-layer graph convolution network with a two-layer dense head, as a tiled kernel program, against its plain
  array-library reference: both programs terminate without a fault leaving their arguments untouched, and, at the
  ideal instance (floats read as extended reals, every operation exact, a change of float format the identity), from
  memories that agree on the twelve arguments they end with the same result array, entry by entry.

  The kernel program is eight kernel regions among stretches of host operations: per graph layer a projection (a
  region multiplying blocks of rows by the transposed weights), the aggregation over the edges on the host, and a
  region that clips every row at zero and divides it by the larger of its norm and a small constant; then two dense
  regions. The reference does all of it on the host, on whole arrays. The proof reads each region as ONE function of
  whole arrays (its grid points write disjoint blocks of rows that tile the output, and every operation in it is row by
  row), reads the host operations with their own terms, and so finds the same composition `Network.net` on both
  sides: a product of rows and weights is the same finite sum however the rows are tiled or the operands' formats
  narrowed; a lane sum and a host sum are the same sum; the aggregation over the edges is the same chain of operations
  on both sides, carried as one function and never opened.

  The two programs differ in ONE place: the index vector at which the degrees are counted. The reference counts at the
  destination nodes with a negative index moved up by the number of nodes; the kernel's program counts at the
  destination nodes as given, and an index below zero then lands outside the array and is dropped. With a negative
  destination index the two degree vectors differ, and the difference survives to the result. The statement therefore
  carries one hypothesis beyond finiteness of the float inputs: every destination index is at least zero (outside that
  domain the reference itself scatters its messages out of range). Under it the two index vectors are equal, and that
  is the only use of the hypothesis; finiteness is not used at all, because no step rearranges a sum or cancels a factor.

  `preserves` is trivial: the ideal pass rewrote nothing.
-/
import proofs.«111732_j62783831933365_2_alg».proof.Defs
import proofs.«111732_j62783831933365_2_alg».proof.Proof.Gen.Kernel
import proofs.«111732_j62783831933365_2_alg».proof.Proof.Gen.Kernel.Skeleton
import proofs.«111732_j62783831933365_2_alg».proof.Proof.Gen.Kernel.Launch
import proofs.«111732_j62783831933365_2_alg».proof.Proof.Gen.Kernel.Points
import proofs.«111732_j62783831933365_2_alg».proof.Proof.Gen.Kernel.Frame
import proofs.«111732_j62783831933365_2_alg».proof.Proof.Gen.KernelIdeal
import proofs.«111732_j62783831933365_2_alg».proof.Proof.Gen.KernelIdeal.Skeleton
import proofs.«111732_j62783831933365_2_alg».proof.Proof.Gen.KernelIdeal.Launch
import proofs.«111732_j62783831933365_2_alg».proof.Proof.Gen.KernelIdeal.Points
import proofs.«111732_j62783831933365_2_alg».proof.Proof.Gen.KernelIdeal.Frame
import proofs.«111732_j62783831933365_2_alg».proof.Proof.Gen.ReferenceIdeal
import proofs.«111732_j62783831933365_2_alg».proof.Proof.Gen.Pre_finite_inputs
import proofs.«111732_j62783831933365_2_alg».proof.Proof.KernelRun
import proofs.«111732_j62783831933365_2_alg».proof.Proof.KernelValue
import proofs.«111732_j62783831933365_2_alg».proof.Proof.RefRun
import proofs.«111732_j62783831933365_2_alg».proof.Proof.RefValue
import proofs.«111732_j62783831933365_2_alg».proof.Proof.Bridge
import Idealize.ShloMosaic.Adequacy
import Idealize.ShloMosaic.Init

noncomputable section

namespace Cert.Proof

open Idealize.ShloMosaic Idealize.SL.Sem

/-- The kernel program at the word-level instance terminates, faults nowhere and leaves its arguments untouched. -/
theorem frame_kernel : Cert.frame_Kernel := fun m ρ _ => Cert.Kernel.Gen.frame m ρ

/-- The same at the ideal instance. -/
theorem frame_kernelIdeal : Cert.frame_KernelIdeal := fun m ρ _ => Cert.KernelIdeal.Gen.frame m ρ

/-- The reference terminates, faults nowhere and leaves its arguments untouched: its run, with the result dropped. -/
theorem frame_reference : Cert.frame_ReferenceIdeal := Cert.ReferenceIdeal.RefRun.frame

/-- The ideal pass rewrote no operation. -/
theorem preserves : Cert.preserves_Kernel_KernelIdeal := trivial

/-- From memories agreeing on the arguments, both programs end with the network of those arguments in their result
    arrays: the kernel's with the degrees counted at the destination nodes as given, the reference's at the normalized
    ones, and under the hypothesis that no destination index is negative these are one array. -/
theorem algebraic : Cert.algebraic_KernelIdeal_ReferenceIdeal := by
  intro m ρ m' ρ' hpre hagree
  refine ⟨fun c => Cert.Network.net (fun d => d)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.KValue.value m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RefRun.run (F := Ideal) m' ρ')
    obtain ⟨a0, a1, a2, a3, a4, a5, a6, a7, a8, a9, a10, a11⟩ := hagree c
    rw [Cert.ReferenceIdeal.RefValue.value m' c, a0, a1, a2, a3, a4, a5, a6, a7, a8, a9, a10, a11]
    exact Cert.Bridge.net_eq m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
